-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S40 .f32) (main_arg10 : FVec F S128 .f32) (main_arg11 : FVec F S128 .f32) (main_arg12 : FVec F S128 .f32) (main_arg13 : FVec F S128 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S128x128 .f32) (main_arg7 : FVec F S128x40 .f32) (main_arg8 : FVec F S128x40 .f32) (main_arg9 : FVec F S40 .f32) (main_arg10 : FVec F S128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128x128 .f32) (main_arg6 : FVec F S128x128 .f32) (main_arg7 : FVec F S128x40 .f32) (main_arg8 : FVec F S128x40 .f32) (main_arg9 : FVec F S40 .f32) (main_arg10 : FVec F S128 .f32) (main_arg11 : FVec F S128 .f32) (main_arg12 : FVec F S128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1x40 : Shape := ⟨2, ![1, 40]⟩
abbrev S100000x1 : Shape := ⟨2, ![100000, 1]⟩
abbrev S1600000x128 : Shape := ⟨2, ![1600000, 128]⟩
abbrev S5000x128 : Shape := ⟨2, ![5000, 128]⟩
abbrev S100000x40 : Shape := ⟨2, ![100000, 40]⟩
abbrev S5000x40 : Shape := ⟨2, ![5000, 40]⟩

abbrev nBuf : Space → Nat
  | .hbm => 131
  | .vmem => 45
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128x128, .f32⟩
  | 6 => ⟨S128x128, .f32⟩
  | 7 => ⟨S128x40, .f32⟩
  | 8 => ⟨S128x40, .f32⟩
  | 9 => ⟨S40, .f32⟩
  | 10 => ⟨S128, .f32⟩
  | 11 => ⟨S128, .f32⟩
  | 12 => ⟨S128, .f32⟩
  | 13 => ⟨S128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S1x128, .f32⟩
  | 45 => ⟨S1x128, .f32⟩
  | 46 => ⟨S1x128, .f32⟩
  | 47 => ⟨S1x128, .f32⟩
  | 48 => ⟨S1x40, .f32⟩
  | 49 => ⟨S100000x1, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S1x128, .f32⟩
  | 79 => ⟨S100000x128, .f32⟩
  | 80 => ⟨S100000x1, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x1, .f32⟩
  | 97 => ⟨S100000x128, .f32⟩
  | 98 => ⟨S100000x128, .f32⟩
  | 99 => ⟨S100000x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S1x128, .f32⟩
  | 110 => ⟨S100000x128, .f32⟩
  | 111 => ⟨S100000x1, .f32⟩
  | 112 => ⟨S100000x128, .f32⟩
  | 113 => ⟨S100000x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x40, .f32⟩
  | .local _ .vmem, ⟨41, _⟩ => ⟨S128x40, .f32⟩
  | .local _ .vmem, ⟨42, _⟩ => ⟨S1x40, .f32⟩
  | .local _ .vmem, ⟨43, _⟩ => ⟨S5000x40, .f32⟩
  | .local _ .vmem, ⟨44, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_cst_7 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c : Ref sig .tc := ⟨.hbm, 52, rfl⟩
abbrev main_v25 : Ref sig .tc := ⟨.hbm, 53, rfl⟩
abbrev main_v26 : Ref sig .tc := ⟨.hbm, 54, rfl⟩
abbrev main_c_8 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_9 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38_0 : Ref sig .tc := ⟨.hbm, 68, rfl⟩
abbrev main_v38_1 : Ref sig .tc := ⟨.hbm, 69, rfl⟩
abbrev main_v38_2 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_cst_11 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_c_13 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62_0 : Ref sig .tc := ⟨.hbm, 99, rfl⟩
abbrev main_v62_1 : Ref sig .tc := ⟨.hbm, 100, rfl⟩
abbrev main_v62_2 : Ref sig .tc := ⟨.hbm, 101, rfl⟩
abbrev main_cst_15 : Ref sig .tc := ⟨.hbm, 102, rfl⟩
abbrev main_v63 : Ref sig .tc := ⟨.hbm, 103, rfl⟩
abbrev main_v64 : Ref sig .tc := ⟨.hbm, 104, rfl⟩
abbrev main_cst_16 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_17 : Ref sig .tc := ⟨.hbm, 114, rfl⟩
abbrev main_v73 : Ref sig .tc := ⟨.hbm, 115, rfl⟩
abbrev main_v74 : Ref sig .tc := ⟨.hbm, 116, rfl⟩
abbrev main_c_18 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  shapeCasts_S40_S1x40 : S40.ShapeCasts S1x40
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  reduces_S5000x128_S128 : S5000x128.Reduces [0] S128
  bcast_S_S1x128 : S_.BroadcastsInDim S1x128 (![] : Fin 0 → Fin S1x128.rank)
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x40.size a ≤ S128x40.size a
  hwx4_3 : ∀ i : grid4.Coords, EltTy.bits .f32 = 32 ∨ (Rect.block (s := S128x40) S128x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x40.size a ≤ S1x40.size a
  hwx4_4 : ∀ i : grid4.Coords, EltTy.bits .f32 = 32 ∨ (Rect.block (s := S1x40) S1x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x40.size a ≤ S100000x40.size a
  hwx4_5 : ∀ i : grid4.Coords, EltTy.bits .f32 = 32 ∨ (Rect.block (s := S100000x40) S5000x40.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v37) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62_1) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_2) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v85) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v21) S1x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S5000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128x40 : Shape := ⟨2, ![128, 40]⟩
abbrev S40 : Shape := ⟨1, ![40]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S128x128, .f32⟩
  | 6 => ⟨S128x128, .f32⟩
  | 7 => ⟨S128x40, .f32⟩
  | 8 => ⟨S128x40, .f32⟩
  | 9 => ⟨S40, .f32⟩
  | 10 => ⟨S128, .f32⟩
  | 11 => ⟨S128, .f32⟩
  | 12 => ⟨S128, .f32⟩
  | 13 => ⟨S128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S_, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x1, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S100000x128, .f32⟩
  | 79 => ⟨S100000x128, .f32⟩
  | 80 => ⟨S100000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x1, .f32⟩
  | 114 => ⟨S100000x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S100000x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x1, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S100000x128, .f32⟩
  | 72 => ⟨S100000x128, .f32⟩
  | 73 => ⟨S100000x40, .f32⟩
  | 74 => ⟨S1x40, .f32⟩
  | 75 => ⟨S100000x40, .f32⟩
  | 76 => ⟨S100000x40, .f32⟩
  | 77 => ⟨S100000x40, .f32⟩
  | 78 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v9 : Ref sig .tc := ⟨.hbm, 30, rfl⟩
abbrev main_cst_4 : Ref sig .tc := ⟨.hbm, 31, rfl⟩
abbrev main_v10 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_cst_7 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_v21 : Ref sig .tc := ⟨.hbm, 49, rfl⟩
abbrev main_c_8 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_9 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_cst_11 : Ref sig .tc := ⟨.hbm, 68, rfl⟩
abbrev main_v37 : Ref sig .tc := ⟨.hbm, 69, rfl⟩
abbrev main_v38 : Ref sig .tc := ⟨.hbm, 70, rfl⟩
abbrev main_c_12 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_cst_1 : Ref sig .tc := ⟨.hbm, 82, rfl⟩
abbrev main_call2_v8 : Ref sig .tc := ⟨.hbm, 83, rfl⟩
abbrev main_call2_cst_2 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_cst_3 : Ref sig .tc := ⟨.hbm, 88, rfl⟩
abbrev main_call2_v12 : Ref sig .tc := ⟨.hbm, 89, rfl⟩
abbrev main_call2_cst_4 : Ref sig .tc := ⟨.hbm, 90, rfl⟩
abbrev main_call2_call0_v0 : Ref sig .tc := ⟨.hbm, 91, rfl⟩
abbrev main_call2_call0_v1 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_13 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_call3_cst : Ref sig .tc := ⟨.hbm, 110, rfl⟩
abbrev main_call3_v0 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_14 : Ref sig .tc := ⟨.hbm, 116, rfl⟩
abbrev main_v59 : Ref sig .tc := ⟨.hbm, 117, rfl⟩
abbrev main_v60 : Ref sig .tc := ⟨.hbm, 118, rfl⟩
abbrev main_c_15 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_16 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_17 : Ref sig .tc := ⟨.hbm, 135, rfl⟩
abbrev main_v75 : Ref sig .tc := ⟨.hbm, 136, rfl⟩
abbrev main_cst_18 : Ref sig .tc := ⟨.hbm, 137, rfl⟩
abbrev main_v76 : Ref sig .tc := ⟨.hbm, 138, rfl⟩
abbrev main_v77 : Ref sig .tc := ⟨.hbm, 139, rfl⟩
abbrev main_c_19 : Ref sig .tc := ⟨.hbm, 140, rfl⟩
abbrev main_call4_cst : Ref sig .tc := ⟨.hbm, 141, rfl⟩
abbrev main_call4_v0 : Ref sig .tc := ⟨.hbm, 142, rfl⟩
abbrev main_call4_v1 : Ref sig .tc := ⟨.hbm, 143, rfl⟩
abbrev main_call4_cst_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_v7 : Ref sig .tc := ⟨.hbm, 150, rfl⟩
abbrev main_call4_cst_1 : Ref sig .tc := ⟨.hbm, 151, rfl⟩
abbrev main_call4_v8 : Ref sig .tc := ⟨.hbm, 152, rfl⟩
abbrev main_call4_cst_2 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_cst_3 : Ref sig .tc := ⟨.hbm, 157, rfl⟩
abbrev main_call4_v12 : Ref sig .tc := ⟨.hbm, 158, rfl⟩
abbrev main_call4_cst_4 : Ref sig .tc := ⟨.hbm, 159, rfl⟩
abbrev main_call4_call0_v0 : Ref sig .tc := ⟨.hbm, 160, rfl⟩
abbrev main_call4_call0_v1 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_cst_20 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_call5_cst : Ref sig .tc := ⟨.hbm, 179, rfl⟩
abbrev main_call5_v0 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_c_21 : Ref sig .tc := ⟨.hbm, 185, rfl⟩
abbrev main_v98 : Ref sig .tc := ⟨.hbm, 186, rfl⟩
abbrev main_v99 : Ref sig .tc := ⟨.hbm, 187, rfl⟩
abbrev main_c_22 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_23 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KerRun.lean ====
/-
  The idealized kernel program's run with its result kept.

  The program is five kernel regions among stretches of host operations. Every weakly fair execution from a memory with
  zero counters terminates without a fault; the final memory holds, at every buffer that outlives a region, the contents
  at the last boundary of the fold through the program (the launch memory, each stretch's operations applied, each
  region's arrays at what its write-backs leave). Read at the result buffer this names the result; read at the
  arguments it gives them back unchanged.
-/
import proofs.«163791_j23218593202704_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v86) = W14 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v86 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.ValueRun

end
-- ==== Proof.RefTerms.lean ====
/-
  The reference program's result as a composition of named pieces, each the program's own host operations in order.

  degScale   : count the edges that name each node, replace a count of zero by one, raise to the power −1/2
  spmm       : scale each node row by one degree factor, copy rows along the edges' sources, add them up at the edges'
               targets, scale each result row by the other degree factor
  linear     : the aggregated rows through one weight matrix plus the node rows through another
  batchNormRelu : subtract each column's mean, divide by the square root of its variance (the mean of the squared
               deviations) plus a small number, scale, shift, clip below at zero
  lastLayer  : the linear layer with a bias row, added between the two products
-/
import proofs.«163791_j23218593202704_1_alg».proof.ReferenceIdeal
import proofs.«163791_j23218593202704_1_alg».proof.Proof.Gen.ReferenceIdeal
import Idealize.ShloMosaic.PureOps.Ideal

noncomputable section

namespace Cert.ReferenceIdeal.Terms

open Idealize.ShloMosaic Cert.ReferenceIdeal Cert.ReferenceIdeal.Facts₀

/-- a column vector's entries repeated along each row: [n] → [n,1] → [n,128] -/
def perRow (d : FVec Ideal S100000 .f32) : FVec Ideal S100000x128 .f32 :=
  broadcastInDim S100000x128 ![0, 1] bcast_S100000x1_S100000x128_0_1 (broadcastInDim S100000x1 ![0] bcast_S100000_S100000x1_0 d)

/-- a row vector's entries repeated down each column: [128] → [1,128] → [n,128] -/
def perCol (v : FVec Ideal S128 .f32) : FVec Ideal S100000x128 .f32 :=
  broadcastInDim S100000x128 ![0, 1] bcast_S1x128_S100000x128_0_1 (broadcastInDim S1x128 ![1] bcast_S128_S1x128_1 v)

/-- the number of edges whose index word is each node, as a float -/
def degree (idx : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- the degree with zero replaced by one, to the power −1/2 -/
def degScale (idx : IVec S1600000 32) : FVec Ideal S100000 .f32 :=
  Host.powf (F := Ideal)
    (select
      (cmpf .ogt (degree idx) (broadcastInDim S100000 ![] bcast_S_S100000 (constant (F := Ideal) S_ .f32 0x00000000#32)))
      (degree idx)
      (broadcastInDim S100000 ![] bcast_S_S100000 (id (constant (F := Ideal) S_ .f32 0x3F800000#32))))
    (broadcastInDim S100000 ![] bcast_S_S100000 (constant (F := Ideal) S_ .f32 0xBF000000#32))

/-- a negative index word counted from the end -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- the normalised sum over neighbours -/
def spmm (h : FVec Ideal S100000x128 .f32) (src dst : IVec S1600000 32) (dso dsi : FVec Ideal S100000 .f32) :
    FVec Ideal S100000x128 .f32 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128
        (mulf h (perRow dso))
        (broadcastInDim S1600000x1 ![0] bcast_S1600000_S1600000x1_0 (wrapIdx src))))
    (perRow dsi)

/-- one linear layer -/
def linear (A H : FVec Ideal S100000x128 .f32) (W L : FVec Ideal S128x128 .f32) : FVec Ideal S100000x128 .f32 :=
  addf (Host.dotGeneral (F := Ideal) dot_S100000x128_S128x128_S100000x128_1_0_0_1_n_n none A W)
    (Host.dotGeneral (F := Ideal) dot_S100000x128_S128x128_S100000x128_1_0_0_1_n_n none H L)

/-- the sum of each column -/
def colTotal (Y : FVec Ideal S100000x128 .f32) : FVec Ideal S128 .f32 :=
  Host.reduceAdd (F := Ideal) Y (constant (F := Ideal) S_ .f32 0x00000000#32) reducesTo_S100000x128_S128_d0 h_S_

/-- the mean of each column -/
def colMean (Y : FVec Ideal S100000x128 .f32) : FVec Ideal S128 .f32 :=
  Host.divf (F := Ideal) (colTotal Y) (broadcastInDim S128 ![] bcast_S_S128 (constant (F := Ideal) S_ .f32 0x47C35000#32))

/-- each entry minus its column's mean (the mean formed as a one-row array) -/
def colDev (Y : FVec Ideal S100000x128 .f32) : FVec Ideal S100000x128 .f32 :=
  subf Y (broadcastInDim S100000x128 ![0, 1] bcast_S1x128_S100000x128_0_1
    (Host.divf (F := Ideal) (broadcastInDim S1x128 ![1] bcast_S128_S1x128_1 (colTotal Y))
      (broadcastInDim S1x128 ![] bcast_S_S1x128 (constant (F := Ideal) S_ .f32 0x47C35000#32))))

/-- the row count less the degrees of freedom given up -/
def rowCount (ddof : IVec S_ 32) : FVec Ideal S_ .f32 :=
  subf (constant (F := Ideal) S_ .f32 0x47C35000#32) (sitofp .f32 ddof)

/-- the variance of each column: the sum of the squared deviations over the row count, where that count is positive -/
def colVar (Y : FVec Ideal S100000x128 .f32) (ddof : IVec S_ 32) : FVec Ideal S128 .f32 :=
  select (broadcastInDim S128 ![] bcast_S_S128 (cmpf .ogt (rowCount ddof) (constant (F := Ideal) S_ .f32 0x00000000#32)))
    (Host.divf (F := Ideal) (colTotal (mulf (colDev Y) (colDev Y))) (broadcastInDim S128 ![] bcast_S_S128 (rowCount ddof)))
    (broadcastInDim S128 ![] bcast_S_S128 (id (constant (F := Ideal) S_ .f32 0x7FC00000#32)))

/-- normalise, scale, shift, clip -/
def batchNormRelu (Y : FVec Ideal S100000x128 .f32) (g be : FVec Ideal S128 .f32) : FVec Ideal S100000x128 .f32 :=
  maximumf
    (addf
      (mulf
        (mulf (subf Y (perCol (colMean Y)))
          (perCol (Host.rsqrt (F := Ideal) (addf (colVar Y (constantI S_ 32 0#32))
            (broadcastInDim S128 ![] bcast_S_S128 (constant (F := Ideal) S_ .f32 0x3727C5AC#32))))))
        (perCol g))
      (perCol be))
    (broadcastInDim S100000x128 ![] bcast_S_S100000x128 (constant (F := Ideal) S_ .f32 0x00000000#32))

/-- the last layer -/
def lastLayer (A H : FVec Ideal S100000x128 .f32) (W L : FVec Ideal S128x40 .f32) (b : FVec Ideal S40 .f32) :
    FVec Ideal S100000x40 .f32 :=
  addf
    (addf (Host.dotGeneral (F := Ideal) dot_S100000x128_S128x40_S100000x40_1_0_0_1_n_n none A W)
      (broadcastInDim S100000x40 ![0, 1] bcast_S1x40_S100000x40_0_1 (broadcastInDim S1x40 ![1] bcast_S40_S1x40_1 b)))
    (Host.dotGeneral (F := Ideal) dot_S100000x128_S128x40_S100000x40_1_0_0_1_n_n none H L)

/-- one hidden layer -/
def hidden (h : FVec Ideal S100000x128 .f32) (src dst : IVec S1600000 32) (W L : FVec Ideal S128x128 .f32)
    (g be : FVec Ideal S128 .f32) : FVec Ideal S100000x128 .f32 :=
  batchNormRelu (linear (spmm h src dst (degScale src) (degScale dst)) h W L) g be

/-- THE REFERENCE'S RESULT as a function of its fourteen arguments -/
def result (a0 : FVec Ideal S100000x128 .f32) (a1 a2 : IVec S1600000 32) (a3 a4 a5 a6 : FVec Ideal S128x128 .f32)
    (a7 a8 : FVec Ideal S128x40 .f32) (a9 : FVec Ideal S40 .f32) (a10 a11 a12 a13 : FVec Ideal S128 .f32) :
    FVec Ideal S100000x40 .f32 :=
  lastLayer
    (spmm (hidden (hidden a0 a1 a2 a3 a4 a10 a11) a1 a2 a5 a6 a12 a13) a1 a2 (degScale a1) (degScale a2))
    (hidden (hidden a0 a1 a2 a3 a4 a10 a11) a1 a2 a5 a6 a12 a13) a7 a8 a9

end Cert.ReferenceIdeal.Terms

end
-- ==== Proof.KerShared.lean ====
/-
  The shared host pieces as the idealized kernel program spells them, and their identification with the reference's.

  The kernel program's host side computes the degree factors and the normalised sum over neighbours with the same
  operations as the reference; only the names of the shape records and of the shape-relation facts differ, and those are
  equal records and proofs of the same propositions.
-/
import proofs.«163791_j23218593202704_1_alg».proof.KernelIdeal
import proofs.«163791_j23218593202704_1_alg».proof.Proof.Gen.KernelIdeal
import proofs.«163791_j23218593202704_1_alg».proof.Proof.RefTerms
import Idealize.ShloMosaic.PureOps.Ideal

noncomputable section

namespace Cert.KernelIdeal.HostTerms

open Idealize.ShloMosaic Cert.KernelIdeal Cert.KernelIdeal.Facts₀

/-- a column vector's entries repeated along each row: [n] → [n,1] → [n,128] -/
def perRow (d : FVec Ideal S100000 .f32) : FVec Ideal S100000x128 .f32 :=
  broadcastInDim S100000x128 ![0, 1] bcast_S100000x1_S100000x128_0_1 (broadcastInDim S100000x1 ![0] bcast_S100000_S100000x1_0 d)

/-- the number of edges whose index word is each node, as a float -/
def degree (idx : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 idx)
    (broadcastInDim S1600000 ![] bcast_S_S1600000 (constant (F := Ideal) S_ .f32 0x3F800000#32))

/-- the degree with zero replaced by one, to the power −1/2 -/
def degScale (idx : IVec S1600000 32) : FVec Ideal S100000 .f32 :=
  Host.powf (F := Ideal)
    (select
      (cmpf .ogt (degree idx) (broadcastInDim S100000 ![] bcast_S_S100000 (constant (F := Ideal) S_ .f32 0x00000000#32)))
      (degree idx)
      (broadcastInDim S100000 ![] bcast_S_S100000 (id (constant (F := Ideal) S_ .f32 0x3F800000#32))))
    (broadcastInDim S100000 ![] bcast_S_S100000 (constant (F := Ideal) S_ .f32 0xBF000000#32))

/-- a negative index word counted from the end -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- the normalised sum over neighbours -/
def spmm (h : FVec Ideal S100000x128 .f32) (src dst : IVec S1600000 32) (dso dsi : FVec Ideal S100000 .f32) :
    FVec Ideal S100000x128 .f32 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128
        (mulf h (perRow dso))
        (broadcastInDim S1600000x1 ![0] bcast_S1600000_S1600000x1_0 (wrapIdx src))))
    (perRow dsi)

/-! ## The same functions as the reference's -/

theorem degree_eq (idx : IVec S1600000 32) : degree idx = Cert.ReferenceIdeal.Terms.degree idx := rfl

theorem degScale_eq (idx : IVec S1600000 32) : degScale idx = Cert.ReferenceIdeal.Terms.degScale idx := rfl

theorem spmm_eq (h : FVec Ideal S100000x128 .f32) (src dst : IVec S1600000 32) (dso dsi : FVec Ideal S100000 .f32) :
    spmm h src dst dso dsi = Cert.ReferenceIdeal.Terms.spmm h src dst dso dsi := rfl

end Cert.KernelIdeal.HostTerms

end
-- ==== Proof.LibHostReads.lean ====
/-
  Two more host operations on the extended reals, read at an entry, at arbitrary sizes.

  The host's division is, entry by entry, the division of the extended reals.  The host's sum of an m × q array along
  its rows, from an initial value, has at row e the initial value plus the sum of the row's q entries.
-/
import Idealize.ShloMosaic.Lib.ValueIdx
import Idealize.ShloMosaic.PureOps.Ideal.Laws

noncomputable section

open scoped BigOperators

namespace HostReads

open Idealize.ShloMosaic Idealize.ShloMosaic.ValueIdx

/-- The host's division at an entry. -/
theorem hostDivf_apply {s : Shape} (x y : FVec Ideal s .f32) (i : s.Idx) :
    Host.divf (F := Ideal) (φ := .f32) x y i = Ideal.div (x i) (y i) := rfl

/-- The host's sum along the rows at row e: the initial value plus the sum of the row's entries. -/
theorem hostRowSum_apply {m q : Nat} (h' : (⟨2, ![m, q]⟩ : Shape).ReducesTo [1] ⟨1, ![m]⟩)
    (h : (⟨2, ![m, q]⟩ : Shape).Reduces [1] ⟨1, ![m]⟩) (hu : 0 < (⟨0, ![]⟩ : Shape).numel)
    (X : (⟨2, ![m, q]⟩ : Shape).Idx → EReal) (z : (⟨0, ![]⟩ : Shape).Idx → EReal) (e : Fin m) :
    Host.reduceAdd (F := Ideal) (φ := .f32) X z h' hu (ix1 e) = z (Shape.Idx.first hu) + ∑ k : Fin q, X (ix2 e k) := by
  simp only [Host.reduceAdd, Ideal.hostReduceAdd_def]
  rw [Ideal.hostReduceAdd_single h' h]
  refine congrArg (_ + ·) ?_
  show ∑ k : Fin q, X (h.lift (ix1 e) k) = ∑ k : Fin q, X (ix2 e k)
  refine Finset.sum_congr rfl fun k _ => congrArg X (funext fun a => Fin.ext ?_)
  match a with
  | ⟨0, _⟩ => rfl
  | ⟨1, _⟩ => rfl

end HostReads

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.LibUnitReshapes.lean ====
/-
  Reshapes that only add or drop an axis of extent one, read at an index.

  A reshape keeps the row-major position.  A vector of n entries seen as a column [n, 1] has entry p at (p, 0); seen
  as a row [1, n] it has entry c at (0, c); and a column [n, 1] seen as a vector has entry (p, 0) at p.
-/
import Idealize.ShloMosaic.Lib.ValueIdx
import Idealize.ShloMosaic.Lib.Pipeline.Value

noncomputable section

namespace UnitReshapes

open Idealize.ShloMosaic Idealize.ShloMosaic.ValueIdx

variable {α : Type}

/-- A vector seen as a column reads entry p at (p, 0). -/
theorem asColumn_apply {n : Nat} (h : (⟨1, ![n]⟩ : Shape).ShapeCasts ⟨2, ![n, 1]⟩) (x : (⟨1, ![n]⟩ : Shape).Idx → α) (p : Fin n) :
    shapeCast (⟨2, ![n, 1]⟩ : Shape) x h (ix2 p (0 : Fin 1)) = x (ix1 p) :=
  shapeCast_apply x h _ (ix1 p) (by
    rw [Shape.rowMajor_val_one, Shape.rowMajor_val_two]
    show p.val = p.val * 1 + 0
    omega)

/-- A vector seen as a row reads entry c at (0, c). -/
theorem asRow_apply {n : Nat} (h : (⟨1, ![n]⟩ : Shape).ShapeCasts ⟨2, ![1, n]⟩) (x : (⟨1, ![n]⟩ : Shape).Idx → α) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

/-- A column seen as a vector reads entry (p, 0) at p. -/
theorem ofColumn_apply {n : Nat} (h : (⟨2, ![n, 1]⟩ : Shape).ShapeCasts ⟨1, ![n]⟩) (x : (⟨2, ![n, 1]⟩ : Shape).Idx → α) (p : Fin n) :
    shapeCast (⟨1, ![n]⟩ : Shape) x h (ix1 p) = x (ix2 p (0 : Fin 1)) :=
  shapeCast_apply x h _ (ix2 p (0 : Fin 1)) (by
    rw [Shape.rowMajor_val_one, Shape.rowMajor_val_two]
    show p.val * 1 + 0 = p.val
    omega)

end UnitReshapes

end
-- ==== Proof.KerHostTerms.lean ====
/-
  The host operations the program applies between its regions, as named terms on the extended reals.

  From a one-row array s of column sums and a one-row array ss of column sums of squares, over 100000 rows:
  meanRow   : each column sum divided by the row count
  varRow    : each sum of squares divided by the row count, minus the square of the column's mean
  A vector of q entries is seen as a one-row array [1, q] by a reshape, which keeps the row-major position: entry c
  of the vector is entry (0, c) of the row.
-/
import proofs.«163791_j23218593202704_1_alg».proof.KernelIdeal
import proofs.«163791_j23218593202704_1_alg».proof.Proof.Gen.KernelIdeal
import proofs.«163791_j23218593202704_1_alg».proof.Proof.LibHostReads
import proofs.«163791_j23218593202704_1_alg».proof.Proof.LibBroadcasts
import proofs.«163791_j23218593202704_1_alg».proof.Proof.LibUnitReshapes
import Idealize.ShloMosaic.PureOps.Ideal
import Idealize.ShloMosaic.Lib.ValueIdx

noncomputable section

namespace Cert.KernelIdeal.HostTerms

open Idealize.ShloMosaic Idealize.ShloMosaic.ValueIdx Cert.KernelIdeal Cert.KernelIdeal.Facts₀

/-- each column sum divided by the row count -/
def meanRow (s : FVec Ideal S1x128 .f32) : FVec Ideal S1x128 .f32 :=
  Host.divf (F := Ideal) s (broadcastInDim S1x128 ![] bcast_S_S1x128 (constant (F := Ideal) S_ .f32 0x47C35000#32))

/-- each column's sum of squares divided by the row count, minus the square of the column's mean -/
def varRow (s ss : FVec Ideal S1x128 .f32) : FVec Ideal S1x128 .f32 :=
  subf (Host.divf (F := Ideal) ss (broadcastInDim S1x128 ![] bcast_S_S1x128 (constant (F := Ideal) S_ .f32 0x47C35000#32)))
    (mulf (meanRow s) (meanRow s))

/-- a vector of 128 entries seen as a one-row array -/
def asRow128 (g : FVec Ideal S128 .f32) : FVec Ideal S1x128 .f32 := shapeCast S1x128 g shapeCasts_S128_S1x128

/-- a vector of 40 entries seen as a one-row array -/
def asRow40 (b : FVec Ideal S40 .f32) : FVec Ideal S1x40 .f32 := shapeCast S1x40 b shapeCasts_S40_S1x40

/-- THE MEAN ROW at column c: the column sum divided by the row count. -/
theorem meanRow_apply (s : FVec Ideal S1x128 .f32) (c : Fin 128) :
    meanRow s (ix2 (0 : Fin 1) c) = Ideal.div (s (ix2 (0 : Fin 1) c)) (Ideal.ofBits .f32 0x47C35000#32) := by
  unfold meanRow
  rw [HostReads.hostDivf_apply, Broadcasts.scalar_apply, constant_apply]

/-- THE VARIANCE ROW at column c: the mean of the squares minus the square of the mean. -/
theorem varRow_apply (s ss : FVec Ideal S1x128 .f32) (c : Fin 128) :
    varRow s ss (ix2 (0 : Fin 1) c)
      = Ideal.div (ss (ix2 (0 : Fin 1) c)) (Ideal.ofBits .f32 0x47C35000#32)
        - Ideal.div (s (ix2 (0 : Fin 1) c)) (Ideal.ofBits .f32 0x47C35000#32)
          * Ideal.div (s (ix2 (0 : Fin 1) c)) (Ideal.ofBits .f32 0x47C35000#32) := by
  unfold varRow
  rw [subf_apply, mulf_apply, meanRow_apply, HostReads.hostDivf_apply, Broadcasts.scalar_apply, constant_apply]

/-- the vector's entry c is the row's entry (0, c) -/
theorem asRow128_apply (g : FVec Ideal S128 .f32) (c : Fin 128) : asRow128 g (ix2 (0 : Fin 1) c) = g (ix1 c) :=
  UnitReshapes.asRow_apply shapeCasts_S128_S1x128 g c

/-- the vector's entry c is the row's entry (0, c) -/
theorem asRow40_apply (b : FVec Ideal S40 .f32) (c : Fin 40) : asRow40 b (ix2 (0 : Fin 1) c) = b (ix1 c) :=
  UnitReshapes.asRow_apply shapeCasts_S40_S1x40 b c

end Cert.KernelIdeal.HostTerms

end
-- ==== Proof.KerHost.lean ====
/-
  The idealized kernel program's host stretches, one at a time, from arbitrary buffer contents.

  Each stretch is a straight line of host operations. From any contents X of the buffers, what a stretch leaves in a buffer
  it computes is the named piece (degree, degree factor, normalised neighbour sum, mean row, variance row, a vector as a
  row) of what X holds in the operands; a buffer the stretch does not write keeps what X holds.
-/
import proofs.«163791_j23218593202704_1_alg».proof.Proof.Gen.KernelIdeal.Launch
import proofs.«163791_j23218593202704_1_alg».proof.Proof.KerShared
import proofs.«163791_j23218593202704_1_alg».proof.Proof.KerHostTerms
import Idealize.ShloMosaic.Lib.StableHlo.Run

set_option maxRecDepth 16384

noncomputable section

namespace Cert.KernelIdeal.HostRead

open Idealize.ShloMosaic Idealize.ShloMosaic.StableHlo
open Cert.KernelIdeal Cert.KernelIdeal.HostTerms Cert.KernelIdeal.Facts₀

variable (X : Valuation τ sig (Elt Ideal))

/-! ## hostOps0 -/

theorem s0_v3 : StableHlo.after (Gen.hostOps0 (F := Ideal)) X (Proc.devRef .tc main_v3) = degree (X (Proc.devRef .tc main_arg1)) := by
  after_results
  all_goals rfl

theorem s0_v6 : StableHlo.after (Gen.hostOps0 (F := Ideal)) X (Proc.devRef .tc main_v6) = degree (X (Proc.devRef .tc main_arg2)) := by
  after_results
  all_goals rfl

theorem s0_v8 : StableHlo.after (Gen.hostOps0 (F := Ideal)) X (Proc.devRef .tc main_v8) = cmpf .ogt (degree (X (Proc.devRef .tc main_arg1))) (broadcastInDim S100000 ![] bcast_S_S100000 (constant (F := Ideal) S_ .f32 0x00000000#32)) := by
  after_results
  all_goals rfl

theorem s0_cst_3 : StableHlo.after (Gen.hostOps0 (F := Ideal)) X (Proc.devRef .tc main_cst_3) = constant (F := Ideal) S_ .f32 0x3F800000#32 := by
  after_results
  all_goals rfl

theorem s0_keep_arg0 : StableHlo.after (Gen.hostOps0 (F := Ideal)) X (Proc.devRef .tc main_arg0) = X (Proc.devRef .tc main_arg0) := by
  after_results

theorem s0_keep_arg1 : StableHlo.after (Gen.hostOps0 (F := Ideal)) X (Proc.devRef .tc main_arg1) = X (Proc.devRef .tc main_arg1) := by
  after_results

theorem s0_keep_arg2 : StableHlo.after (Gen.hostOps0 (F := Ideal)) X (Proc.devRef .tc main_arg2) = X (Proc.devRef .tc main_arg2) := by
  after_results

theorem s0_keep_arg3 : StableHlo.after (Gen.hostOps0 (F := Ideal)) X (Proc.devRef .tc main_arg3) = X (Proc.devRef .tc main_arg3) := by
  after_results

theorem s0_keep_arg4 : StableHlo.after (Gen.hostOps0 (F := Ideal)) X (Proc.devRef .tc main_arg4) = X (Proc.devRef .tc main_arg4) := by
  after_results

theorem s0_keep_arg5 : StableHlo.after (Gen.hostOps0 (F := Ideal)) X (Proc.devRef .tc main_arg5) = X (Proc.devRef .tc main_arg5) := by
  after_results

theorem s0_keep_arg6 : StableHlo.after (Gen.hostOps0 (F := Ideal)) X (Proc.devRef .tc main_arg6) = X (Proc.devRef .tc main_arg6) := by
  after_results

theorem s0_keep_arg7 : StableHlo.after (Gen.hostOps0 (F := Ideal)) X (Proc.devRef .tc main_arg7) = X (Proc.devRef .tc main_arg7) := by
  after_results

theorem s0_keep_arg8 : StableHlo.after (Gen.hostOps0 (F := Ideal)) X (Proc.devRef .tc main_arg8) = X (Proc.devRef .tc main_arg8) := by
  after_results

theorem s0_keep_arg9 : StableHlo.after (Gen.hostOps0 (F := Ideal)) X (Proc.devRef .tc main_arg9) = X (Proc.devRef .tc main_arg9) := by
  after_results

theorem s0_keep_arg10 : StableHlo.after (Gen.hostOps0 (F := Ideal)) X (Proc.devRef .tc main_arg10) = X (Proc.devRef .tc main_arg10) := by
  after_results

theorem s0_keep_arg11 : StableHlo.after (Gen.hostOps0 (F := Ideal)) X (Proc.devRef .tc main_arg11) = X (Proc.devRef .tc main_arg11) := by
  after_results

theorem s0_keep_arg12 : StableHlo.after (Gen.hostOps0 (F := Ideal)) X (Proc.devRef .tc main_arg12) = X (Proc.devRef .tc main_arg12) := by
  after_results

theorem s0_keep_arg13 : StableHlo.after (Gen.hostOps0 (F := Ideal)) X (Proc.devRef .tc main_arg13) = X (Proc.devRef .tc main_arg13) := by
  after_results

/-! ## hostOps0_1 -/

theorem s1_v9 : StableHlo.after (Gen.hostOps0_1 (F := Ideal)) X (Proc.devRef .tc main_v9) = select (X (Proc.devRef .tc main_v8)) (X (Proc.devRef .tc main_v3)) (broadcastInDim S100000 ![] bcast_S_S100000 (id (X (Proc.devRef .tc main_cst_3)))) := by
  after_results
  all_goals rfl

theorem s1_keep_arg0 : StableHlo.after (Gen.hostOps0_1 (F := Ideal)) X (Proc.devRef .tc main_arg0) = X (Proc.devRef .tc main_arg0) := by
  after_results

theorem s1_keep_arg1 : StableHlo.after (Gen.hostOps0_1 (F := Ideal)) X (Proc.devRef .tc main_arg1) = X (Proc.devRef .tc main_arg1) := by
  after_results

theorem s1_keep_arg2 : StableHlo.after (Gen.hostOps0_1 (F := Ideal)) X (Proc.devRef .tc main_arg2) = X (Proc.devRef .tc main_arg2) := by
  after_results

theorem s1_keep_arg3 : StableHlo.after (Gen.hostOps0_1 (F := Ideal)) X (Proc.devRef .tc main_arg3) = X (Proc.devRef .tc main_arg3) := by
  after_results

theorem s1_keep_arg4 : StableHlo.after (Gen.hostOps0_1 (F := Ideal)) X (Proc.devRef .tc main_arg4) = X (Proc.devRef .tc main_arg4) := by
  after_results

theorem s1_keep_arg5 : StableHlo.after (Gen.hostOps0_1 (F := Ideal)) X (Proc.devRef .tc main_arg5) = X (Proc.devRef .tc main_arg5) := by
  after_results

theorem s1_keep_arg6 : StableHlo.after (Gen.hostOps0_1 (F := Ideal)) X (Proc.devRef .tc main_arg6) = X (Proc.devRef .tc main_arg6) := by
  after_results

theorem s1_keep_arg7 : StableHlo.after (Gen.hostOps0_1 (F := Ideal)) X (Proc.devRef .tc main_arg7) = X (Proc.devRef .tc main_arg7) := by
  after_results

theorem s1_keep_arg8 : StableHlo.after (Gen.hostOps0_1 (F := Ideal)) X (Proc.devRef .tc main_arg8) = X (Proc.devRef .tc main_arg8) := by
  after_results

theorem s1_keep_arg9 : StableHlo.after (Gen.hostOps0_1 (F := Ideal)) X (Proc.devRef .tc main_arg9) = X (Proc.devRef .tc main_arg9) := by
  after_results

theorem s1_keep_arg10 : StableHlo.after (Gen.hostOps0_1 (F := Ideal)) X (Proc.devRef .tc main_arg10) = X (Proc.devRef .tc main_arg10) := by
  after_results

theorem s1_keep_arg11 : StableHlo.after (Gen.hostOps0_1 (F := Ideal)) X (Proc.devRef .tc main_arg11) = X (Proc.devRef .tc main_arg11) := by
  after_results

theorem s1_keep_arg12 : StableHlo.after (Gen.hostOps0_1 (F := Ideal)) X (Proc.devRef .tc main_arg12) = X (Proc.devRef .tc main_arg12) := by
  after_results

theorem s1_keep_arg13 : StableHlo.after (Gen.hostOps0_1 (F := Ideal)) X (Proc.devRef .tc main_arg13) = X (Proc.devRef .tc main_arg13) := by
  after_results

theorem s1_keep_v6 : StableHlo.after (Gen.hostOps0_1 (F := Ideal)) X (Proc.devRef .tc main_v6) = X (Proc.devRef .tc main_v6) := by
  after_results

/-! ## hostOps0_2 -/

theorem s2_v11 : StableHlo.after (Gen.hostOps0_2 (F := Ideal)) X (Proc.devRef .tc main_v11) = Host.powf (F := Ideal) (X (Proc.devRef .tc main_v9)) (broadcastInDim S100000 ![] bcast_S_S100000 (constant (F := Ideal) S_ .f32 0xBF000000#32)) := by
  after_results
  all_goals rfl

theorem s2_v13 : StableHlo.after (Gen.hostOps0_2 (F := Ideal)) X (Proc.devRef .tc main_v13) = cmpf .ogt (X (Proc.devRef .tc main_v6)) (broadcastInDim S100000 ![] bcast_S_S100000 (constant (F := Ideal) S_ .f32 0x00000000#32)) := by
  after_results
  all_goals rfl

theorem s2_cst_6 : StableHlo.after (Gen.hostOps0_2 (F := Ideal)) X (Proc.devRef .tc main_cst_6) = constant (F := Ideal) S_ .f32 0x3F800000#32 := by
  after_results
  all_goals rfl

theorem s2_keep_arg0 : StableHlo.after (Gen.hostOps0_2 (F := Ideal)) X (Proc.devRef .tc main_arg0) = X (Proc.devRef .tc main_arg0) := by
  after_results

theorem s2_keep_arg1 : StableHlo.after (Gen.hostOps0_2 (F := Ideal)) X (Proc.devRef .tc main_arg1) = X (Proc.devRef .tc main_arg1) := by
  after_results

theorem s2_keep_arg2 : StableHlo.after (Gen.hostOps0_2 (F := Ideal)) X (Proc.devRef .tc main_arg2) = X (Proc.devRef .tc main_arg2) := by
  after_results

theorem s2_keep_arg3 : StableHlo.after (Gen.hostOps0_2 (F := Ideal)) X (Proc.devRef .tc main_arg3) = X (Proc.devRef .tc main_arg3) := by
  after_results

theorem s2_keep_arg4 : StableHlo.after (Gen.hostOps0_2 (F := Ideal)) X (Proc.devRef .tc main_arg4) = X (Proc.devRef .tc main_arg4) := by
  after_results

theorem s2_keep_arg5 : StableHlo.after (Gen.hostOps0_2 (F := Ideal)) X (Proc.devRef .tc main_arg5) = X (Proc.devRef .tc main_arg5) := by
  after_results

theorem s2_keep_arg6 : StableHlo.after (Gen.hostOps0_2 (F := Ideal)) X (Proc.devRef .tc main_arg6) = X (Proc.devRef .tc main_arg6) := by
  after_results

theorem s2_keep_arg7 : StableHlo.after (Gen.hostOps0_2 (F := Ideal)) X (Proc.devRef .tc main_arg7) = X (Proc.devRef .tc main_arg7) := by
  after_results

theorem s2_keep_arg8 : StableHlo.after (Gen.hostOps0_2 (F := Ideal)) X (Proc.devRef .tc main_arg8) = X (Proc.devRef .tc main_arg8) := by
  after_results

theorem s2_keep_arg9 : StableHlo.after (Gen.hostOps0_2 (F := Ideal)) X (Proc.devRef .tc main_arg9) = X (Proc.devRef .tc main_arg9) := by
  after_results

theorem s2_keep_arg10 : StableHlo.after (Gen.hostOps0_2 (F := Ideal)) X (Proc.devRef .tc main_arg10) = X (Proc.devRef .tc main_arg10) := by
  after_results

theorem s2_keep_arg11 : StableHlo.after (Gen.hostOps0_2 (F := Ideal)) X (Proc.devRef .tc main_arg11) = X (Proc.devRef .tc main_arg11) := by
  after_results

theorem s2_keep_arg12 : StableHlo.after (Gen.hostOps0_2 (F := Ideal)) X (Proc.devRef .tc main_arg12) = X (Proc.devRef .tc main_arg12) := by
  after_results

theorem s2_keep_arg13 : StableHlo.after (Gen.hostOps0_2 (F := Ideal)) X (Proc.devRef .tc main_arg13) = X (Proc.devRef .tc main_arg13) := by
  after_results

theorem s2_keep_v6 : StableHlo.after (Gen.hostOps0_2 (F := Ideal)) X (Proc.devRef .tc main_v6) = X (Proc.devRef .tc main_v6) := by
  after_results

/-! ## hostOps0_3 -/

theorem s3_v14 : StableHlo.after (Gen.hostOps0_3 (F := Ideal)) X (Proc.devRef .tc main_v14) = select (X (Proc.devRef .tc main_v13)) (X (Proc.devRef .tc main_v6)) (broadcastInDim S100000 ![] bcast_S_S100000 (id (X (Proc.devRef .tc main_cst_6)))) := by
  after_results
  all_goals rfl

theorem s3_keep_arg0 : StableHlo.after (Gen.hostOps0_3 (F := Ideal)) X (Proc.devRef .tc main_arg0) = X (Proc.devRef .tc main_arg0) := by
  after_results

theorem s3_keep_arg1 : StableHlo.after (Gen.hostOps0_3 (F := Ideal)) X (Proc.devRef .tc main_arg1) = X (Proc.devRef .tc main_arg1) := by
  after_results

theorem s3_keep_arg2 : StableHlo.after (Gen.hostOps0_3 (F := Ideal)) X (Proc.devRef .tc main_arg2) = X (Proc.devRef .tc main_arg2) := by
  after_results

theorem s3_keep_arg3 : StableHlo.after (Gen.hostOps0_3 (F := Ideal)) X (Proc.devRef .tc main_arg3) = X (Proc.devRef .tc main_arg3) := by
  after_results

theorem s3_keep_arg4 : StableHlo.after (Gen.hostOps0_3 (F := Ideal)) X (Proc.devRef .tc main_arg4) = X (Proc.devRef .tc main_arg4) := by
  after_results

theorem s3_keep_arg5 : StableHlo.after (Gen.hostOps0_3 (F := Ideal)) X (Proc.devRef .tc main_arg5) = X (Proc.devRef .tc main_arg5) := by
  after_results

theorem s3_keep_arg6 : StableHlo.after (Gen.hostOps0_3 (F := Ideal)) X (Proc.devRef .tc main_arg6) = X (Proc.devRef .tc main_arg6) := by
  after_results

theorem s3_keep_arg7 : StableHlo.after (Gen.hostOps0_3 (F := Ideal)) X (Proc.devRef .tc main_arg7) = X (Proc.devRef .tc main_arg7) := by
  after_results

theorem s3_keep_arg8 : StableHlo.after (Gen.hostOps0_3 (F := Ideal)) X (Proc.devRef .tc main_arg8) = X (Proc.devRef .tc main_arg8) := by
  after_results

theorem s3_keep_arg9 : StableHlo.after (Gen.hostOps0_3 (F := Ideal)) X (Proc.devRef .tc main_arg9) = X (Proc.devRef .tc main_arg9) := by
  after_results

theorem s3_keep_arg10 : StableHlo.after (Gen.hostOps0_3 (F := Ideal)) X (Proc.devRef .tc main_arg10) = X (Proc.devRef .tc main_arg10) := by
  after_results

theorem s3_keep_arg11 : StableHlo.after (Gen.hostOps0_3 (F := Ideal)) X (Proc.devRef .tc main_arg11) = X (Proc.devRef .tc main_arg11) := by
  after_results

theorem s3_keep_arg12 : StableHlo.after (Gen.hostOps0_3 (F := Ideal)) X (Proc.devRef .tc main_arg12) = X (Proc.devRef .tc main_arg12) := by
  after_results

theorem s3_keep_arg13 : StableHlo.after (Gen.hostOps0_3 (F := Ideal)) X (Proc.devRef .tc main_arg13) = X (Proc.devRef .tc main_arg13) := by
  after_results

theorem s3_keep_v11 : StableHlo.after (Gen.hostOps0_3 (F := Ideal)) X (Proc.devRef .tc main_v11) = X (Proc.devRef .tc main_v11) := by
  after_results

/-! ## hostOps0_4 -/

theorem s4_v16 : StableHlo.after (Gen.hostOps0_4 (F := Ideal)) X (Proc.devRef .tc main_v16) = Host.powf (F := Ideal) (X (Proc.devRef .tc main_v14)) (broadcastInDim S100000 ![] bcast_S_S100000 (constant (F := Ideal) S_ .f32 0xBF000000#32)) := by
  after_results
  all_goals rfl

theorem s4_v17 : StableHlo.after (Gen.hostOps0_4 (F := Ideal)) X (Proc.devRef .tc main_v17) = asRow128 (X (Proc.devRef .tc main_arg10)) := by
  after_results
  all_goals rfl

theorem s4_v18 : StableHlo.after (Gen.hostOps0_4 (F := Ideal)) X (Proc.devRef .tc main_v18) = asRow128 (X (Proc.devRef .tc main_arg11)) := by
  after_results
  all_goals rfl

theorem s4_v19 : StableHlo.after (Gen.hostOps0_4 (F := Ideal)) X (Proc.devRef .tc main_v19) = asRow128 (X (Proc.devRef .tc main_arg12)) := by
  after_results
  all_goals rfl

theorem s4_v20 : StableHlo.after (Gen.hostOps0_4 (F := Ideal)) X (Proc.devRef .tc main_v20) = asRow128 (X (Proc.devRef .tc main_arg13)) := by
  after_results
  all_goals rfl

theorem s4_v21 : StableHlo.after (Gen.hostOps0_4 (F := Ideal)) X (Proc.devRef .tc main_v21) = asRow40 (X (Proc.devRef .tc main_arg9)) := by
  after_results
  all_goals rfl

set_option maxHeartbeats 4000000 in
theorem s4_v37 : StableHlo.after (Gen.hostOps0_4 (F := Ideal)) X (Proc.devRef .tc main_v37) = spmm (X (Proc.devRef .tc main_arg0)) (X (Proc.devRef .tc main_arg1)) (X (Proc.devRef .tc main_arg2)) (X (Proc.devRef .tc main_v11)) (Host.powf (F := Ideal) (X (Proc.devRef .tc main_v14)) (broadcastInDim S100000 ![] bcast_S_S100000 (constant (F := Ideal) S_ .f32 0xBF000000#32))) := by
  after_results_simp
  unfold spmm perRow wrapIdx
  rfl

theorem s4_keep_arg0 : StableHlo.after (Gen.hostOps0_4 (F := Ideal)) X (Proc.devRef .tc main_arg0) = X (Proc.devRef .tc main_arg0) := by
  after_results

theorem s4_keep_arg1 : StableHlo.after (Gen.hostOps0_4 (F := Ideal)) X (Proc.devRef .tc main_arg1) = X (Proc.devRef .tc main_arg1) := by
  after_results

theorem s4_keep_arg2 : StableHlo.after (Gen.hostOps0_4 (F := Ideal)) X (Proc.devRef .tc main_arg2) = X (Proc.devRef .tc main_arg2) := by
  after_results

theorem s4_keep_arg3 : StableHlo.after (Gen.hostOps0_4 (F := Ideal)) X (Proc.devRef .tc main_arg3) = X (Proc.devRef .tc main_arg3) := by
  after_results

theorem s4_keep_arg4 : StableHlo.after (Gen.hostOps0_4 (F := Ideal)) X (Proc.devRef .tc main_arg4) = X (Proc.devRef .tc main_arg4) := by
  after_results

theorem s4_keep_arg5 : StableHlo.after (Gen.hostOps0_4 (F := Ideal)) X (Proc.devRef .tc main_arg5) = X (Proc.devRef .tc main_arg5) := by
  after_results

theorem s4_keep_arg6 : StableHlo.after (Gen.hostOps0_4 (F := Ideal)) X (Proc.devRef .tc main_arg6) = X (Proc.devRef .tc main_arg6) := by
  after_results

theorem s4_keep_arg7 : StableHlo.after (Gen.hostOps0_4 (F := Ideal)) X (Proc.devRef .tc main_arg7) = X (Proc.devRef .tc main_arg7) := by
  after_results

theorem s4_keep_arg8 : StableHlo.after (Gen.hostOps0_4 (F := Ideal)) X (Proc.devRef .tc main_arg8) = X (Proc.devRef .tc main_arg8) := by
  after_results

theorem s4_keep_v11 : StableHlo.after (Gen.hostOps0_4 (F := Ideal)) X (Proc.devRef .tc main_v11) = X (Proc.devRef .tc main_v11) := by
  after_results

/-! ## hostOps1 -/

theorem h1_v40 : StableHlo.after (Gen.hostOps1 (F := Ideal)) X (Proc.devRef .tc main_v40) = meanRow (X (Proc.devRef .tc main_v38_1)) := by
  after_results
  all_goals rfl

theorem h1_v44 : StableHlo.after (Gen.hostOps1 (F := Ideal)) X (Proc.devRef .tc main_v44) = varRow (X (Proc.devRef .tc main_v38_1)) (X (Proc.devRef .tc main_v38_2)) := by
  after_results
  all_goals rfl

theorem h1_keep_v38_0 : StableHlo.after (Gen.hostOps1 (F := Ideal)) X (Proc.devRef .tc main_v38_0) = X (Proc.devRef .tc main_v38_0) := by
  after_results

theorem h1_keep_v17 : StableHlo.after (Gen.hostOps1 (F := Ideal)) X (Proc.devRef .tc main_v17) = X (Proc.devRef .tc main_v17) := by
  after_results

theorem h1_keep_v18 : StableHlo.after (Gen.hostOps1 (F := Ideal)) X (Proc.devRef .tc main_v18) = X (Proc.devRef .tc main_v18) := by
  after_results

theorem h1_keep_arg1 : StableHlo.after (Gen.hostOps1 (F := Ideal)) X (Proc.devRef .tc main_arg1) = X (Proc.devRef .tc main_arg1) := by
  after_results

theorem h1_keep_arg2 : StableHlo.after (Gen.hostOps1 (F := Ideal)) X (Proc.devRef .tc main_arg2) = X (Proc.devRef .tc main_arg2) := by
  after_results

theorem h1_keep_v11 : StableHlo.after (Gen.hostOps1 (F := Ideal)) X (Proc.devRef .tc main_v11) = X (Proc.devRef .tc main_v11) := by
  after_results

theorem h1_keep_v16 : StableHlo.after (Gen.hostOps1 (F := Ideal)) X (Proc.devRef .tc main_v16) = X (Proc.devRef .tc main_v16) := by
  after_results

theorem h1_keep_arg5 : StableHlo.after (Gen.hostOps1 (F := Ideal)) X (Proc.devRef .tc main_arg5) = X (Proc.devRef .tc main_arg5) := by
  after_results

theorem h1_keep_arg6 : StableHlo.after (Gen.hostOps1 (F := Ideal)) X (Proc.devRef .tc main_arg6) = X (Proc.devRef .tc main_arg6) := by
  after_results

theorem h1_keep_v19 : StableHlo.after (Gen.hostOps1 (F := Ideal)) X (Proc.devRef .tc main_v19) = X (Proc.devRef .tc main_v19) := by
  after_results

theorem h1_keep_v20 : StableHlo.after (Gen.hostOps1 (F := Ideal)) X (Proc.devRef .tc main_v20) = X (Proc.devRef .tc main_v20) := by
  after_results

theorem h1_keep_arg7 : StableHlo.after (Gen.hostOps1 (F := Ideal)) X (Proc.devRef .tc main_arg7) = X (Proc.devRef .tc main_arg7) := by
  after_results

theorem h1_keep_arg8 : StableHlo.after (Gen.hostOps1 (F := Ideal)) X (Proc.devRef .tc main_arg8) = X (Proc.devRef .tc main_arg8) := by
  after_results

theorem h1_keep_v21 : StableHlo.after (Gen.hostOps1 (F := Ideal)) X (Proc.devRef .tc main_v21) = X (Proc.devRef .tc main_v21) := by
  after_results

/-! ## hostOps2 -/

set_option maxHeartbeats 4000000 in
theorem h2_v61 : StableHlo.after (Gen.hostOps2 (F := Ideal)) X (Proc.devRef .tc main_v61) = spmm (X (Proc.devRef .tc main_v45)) (X (Proc.devRef .tc main_arg1)) (X (Proc.devRef .tc main_arg2)) (X (Proc.devRef .tc main_v11)) (X (Proc.devRef .tc main_v16)) := by
  after_results_simp
  unfold spmm perRow wrapIdx
  rfl

theorem h2_keep_v45 : StableHlo.after (Gen.hostOps2 (F := Ideal)) X (Proc.devRef .tc main_v45) = X (Proc.devRef .tc main_v45) := by
  after_results

theorem h2_keep_arg5 : StableHlo.after (Gen.hostOps2 (F := Ideal)) X (Proc.devRef .tc main_arg5) = X (Proc.devRef .tc main_arg5) := by
  after_results

theorem h2_keep_arg6 : StableHlo.after (Gen.hostOps2 (F := Ideal)) X (Proc.devRef .tc main_arg6) = X (Proc.devRef .tc main_arg6) := by
  after_results

theorem h2_keep_v19 : StableHlo.after (Gen.hostOps2 (F := Ideal)) X (Proc.devRef .tc main_v19) = X (Proc.devRef .tc main_v19) := by
  after_results

theorem h2_keep_v20 : StableHlo.after (Gen.hostOps2 (F := Ideal)) X (Proc.devRef .tc main_v20) = X (Proc.devRef .tc main_v20) := by
  after_results

theorem h2_keep_arg1 : StableHlo.after (Gen.hostOps2 (F := Ideal)) X (Proc.devRef .tc main_arg1) = X (Proc.devRef .tc main_arg1) := by
  after_results

theorem h2_keep_arg2 : StableHlo.after (Gen.hostOps2 (F := Ideal)) X (Proc.devRef .tc main_arg2) = X (Proc.devRef .tc main_arg2) := by
  after_results

theorem h2_keep_v11 : StableHlo.after (Gen.hostOps2 (F := Ideal)) X (Proc.devRef .tc main_v11) = X (Proc.devRef .tc main_v11) := by
  after_results

theorem h2_keep_v16 : StableHlo.after (Gen.hostOps2 (F := Ideal)) X (Proc.devRef .tc main_v16) = X (Proc.devRef .tc main_v16) := by
  after_results

theorem h2_keep_arg7 : StableHlo.after (Gen.hostOps2 (F := Ideal)) X (Proc.devRef .tc main_arg7) = X (Proc.devRef .tc main_arg7) := by
  after_results

theorem h2_keep_arg8 : StableHlo.after (Gen.hostOps2 (F := Ideal)) X (Proc.devRef .tc main_arg8) = X (Proc.devRef .tc main_arg8) := by
  after_results

theorem h2_keep_v21 : StableHlo.after (Gen.hostOps2 (F := Ideal)) X (Proc.devRef .tc main_v21) = X (Proc.devRef .tc main_v21) := by
  after_results

/-! ## hostOps3 -/

theorem h3_v64 : StableHlo.after (Gen.hostOps3 (F := Ideal)) X (Proc.devRef .tc main_v64) = meanRow (X (Proc.devRef .tc main_v62_1)) := by
  after_results
  all_goals rfl

theorem h3_v68 : StableHlo.after (Gen.hostOps3 (F := Ideal)) X (Proc.devRef .tc main_v68) = varRow (X (Proc.devRef .tc main_v62_1)) (X (Proc.devRef .tc main_v62_2)) := by
  after_results
  all_goals rfl

theorem h3_keep_v62_0 : StableHlo.after (Gen.hostOps3 (F := Ideal)) X (Proc.devRef .tc main_v62_0) = X (Proc.devRef .tc main_v62_0) := by
  after_results

theorem h3_keep_v19 : StableHlo.after (Gen.hostOps3 (F := Ideal)) X (Proc.devRef .tc main_v19) = X (Proc.devRef .tc main_v19) := by
  after_results

theorem h3_keep_v20 : StableHlo.after (Gen.hostOps3 (F := Ideal)) X (Proc.devRef .tc main_v20) = X (Proc.devRef .tc main_v20) := by
  after_results

theorem h3_keep_arg1 : StableHlo.after (Gen.hostOps3 (F := Ideal)) X (Proc.devRef .tc main_arg1) = X (Proc.devRef .tc main_arg1) := by
  after_results

theorem h3_keep_arg2 : StableHlo.after (Gen.hostOps3 (F := Ideal)) X (Proc.devRef .tc main_arg2) = X (Proc.devRef .tc main_arg2) := by
  after_results

theorem h3_keep_v11 : StableHlo.after (Gen.hostOps3 (F := Ideal)) X (Proc.devRef .tc main_v11) = X (Proc.devRef .tc main_v11) := by
  after_results

theorem h3_keep_v16 : StableHlo.after (Gen.hostOps3 (F := Ideal)) X (Proc.devRef .tc main_v16) = X (Proc.devRef .tc main_v16) := by
  after_results

theorem h3_keep_arg7 : StableHlo.after (Gen.hostOps3 (F := Ideal)) X (Proc.devRef .tc main_arg7) = X (Proc.devRef .tc main_arg7) := by
  after_results

theorem h3_keep_arg8 : StableHlo.after (Gen.hostOps3 (F := Ideal)) X (Proc.devRef .tc main_arg8) = X (Proc.devRef .tc main_arg8) := by
  after_results

theorem h3_keep_v21 : StableHlo.after (Gen.hostOps3 (F := Ideal)) X (Proc.devRef .tc main_v21) = X (Proc.devRef .tc main_v21) := by
  after_results

/-! ## hostOps4 -/

set_option maxHeartbeats 4000000 in
theorem h4_v85 : StableHlo.after (Gen.hostOps4 (F := Ideal)) X (Proc.devRef .tc main_v85) = spmm (X (Proc.devRef .tc main_v69)) (X (Proc.devRef .tc main_arg1)) (X (Proc.devRef .tc main_arg2)) (X (Proc.devRef .tc main_v11)) (X (Proc.devRef .tc main_v16)) := by
  after_results_simp
  unfold spmm perRow wrapIdx
  rfl

theorem h4_keep_v69 : StableHlo.after (Gen.hostOps4 (F := Ideal)) X (Proc.devRef .tc main_v69) = X (Proc.devRef .tc main_v69) := by
  after_results

theorem h4_keep_arg7 : StableHlo.after (Gen.hostOps4 (F := Ideal)) X (Proc.devRef .tc main_arg7) = X (Proc.devRef .tc main_arg7) := by
  after_results

theorem h4_keep_arg8 : StableHlo.after (Gen.hostOps4 (F := Ideal)) X (Proc.devRef .tc main_arg8) = X (Proc.devRef .tc main_arg8) := by
  after_results

theorem h4_keep_v21 : StableHlo.after (Gen.hostOps4 (F := Ideal)) X (Proc.devRef .tc main_v21) = X (Proc.devRef .tc main_v21) := by
  after_results

end Cert.KernelIdeal.HostRead

end
-- ==== Proof.Spec.lean ====
/-
  What both programs compute, entry by entry, on the extended reals.

  The network has three layers over 100000 nodes. A layer takes the node rows H and the rows A aggregated from the
  neighbours, and forms Y = A·W + H·L. The first two layers then normalise each of the 128 columns of Y by that
  column's mean and variance over all 100000 rows, scale by g, shift by be, and clip below at 0; the last layer
  adds a bias row instead.

  A column's variance can be formed two ways: the mean of the squares minus the square of the mean, or the mean of
  the squared deviations from the mean. On real numbers the two agree; the functions below are the entry-wise
  pieces from which both forms are assembled.
-/
import Idealize.ShloMosaic.PureOps.Ideal
import Idealize.ShloMosaic.Lib.ValueIdx

noncomputable section

open scoped BigOperators

namespace Cert.Spec

open Idealize.ShloMosaic Idealize.ShloMosaic.ValueIdx

/-- a two-axis array from a function of its two coordinates -/
def arr2 {a b : ℕ} (f : Fin a → Fin b → EReal) : (⟨2, ![a, b]⟩ : Shape).Idx → EReal := fun i => f (i 0) (i 1)

/-- a two-axis array as a function of its two coordinates -/
def mat {a b : ℕ} (X : (⟨2, ![a, b]⟩ : Shape).Idx → EReal) : Fin a → Fin b → EReal := fun r c => X (ix2 r c)

/-- a one-row array as a function of the column -/
def row {q : ℕ} (X : (⟨2, ![1, q]⟩ : Shape).Idx → EReal) : Fin q → EReal := fun c => X (ix2 (0 : Fin 1) c)

/-- a one-row array from a function of the column -/
def arrRow {q : ℕ} (f : Fin q → EReal) : (⟨2, ![1, q]⟩ : Shape).Idx → EReal := fun i => f (i 1)

theorem arr2_apply {a b : ℕ} (f : Fin a → Fin b → EReal) (r : Fin a) (c : Fin b) : arr2 f (ix2 r c) = f r c := rfl

theorem mat_arr2 {a b : ℕ} (f : Fin a → Fin b → EReal) : mat (arr2 f) = f := rfl

theorem arr2_mat {a b : ℕ} (X : (⟨2, ![a, b]⟩ : Shape).Idx → EReal) : arr2 (mat X) = X := by
  funext i; exact congrArg X (eq_ix2 i).symm

theorem row_arrRow {q : ℕ} (f : Fin q → EReal) : row (arrRow f) = f := rfl

/-- ONE LINEAR LAYER at row r, column c: the aggregated row through W plus the node's own row through L. -/
def lin {q : ℕ} (A H : Fin 100000 → Fin 128 → EReal) (W L : Fin 128 → Fin q → EReal) (r : Fin 100000) (c : Fin q) : EReal :=
  (∑ k : Fin 128, A r k * W k c) + ∑ k : Fin 128, H r k * L k c

/-- the sum of a column over all rows -/
def colSum (Y : Fin 100000 → Fin 128 → EReal) (c : Fin 128) : EReal := ∑ r : Fin 100000, Y r c

/-- the sum of a column's squares over all rows -/
def colSumSq (Y : Fin 100000 → Fin 128 → EReal) (c : Fin 128) : EReal := ∑ r : Fin 100000, Y r c * Y r c

/-- the small positive number added to a variance before the reciprocal square root (the same word in both programs) -/
def eps : EReal := Ideal.ofBits .f32 0x3727C5AC#32

/-- NORMALISE, SCALE, SHIFT, CLIP at row r, column c, from a row of means and a row of variances. -/
def normAct (Y : Fin 100000 → Fin 128 → EReal) (mean var g be : Fin 128 → EReal) (r : Fin 100000) (c : Fin 128) : EReal :=
  max ((Y r c - mean c) * Ideal.rsqrt (var c + eps) * g c + be c) 0

/-- THE LAST LAYER at row r, column c: the linear layer plus the bias of the column. -/
def finalLin (A H : Fin 100000 → Fin 128 → EReal) (W L : Fin 128 → Fin 40 → EReal) (b : Fin 40 → EReal)
    (r : Fin 100000) (c : Fin 40) : EReal :=
  lin A H W L r c + b c

end Cert.Spec

end
-- ==== Proof.KerForms.lean ====
/-
  The idealized kernel program's result written as one function of the launched arguments.

  Three layers. A layer takes node rows h, forms the normalised neighbour sum of h over the launched edges, and the linear
  layer's array from the sum and h. The first two layers then normalise each column by its mean and variance — the mean
  row is the row of column sums over the row count, the variance row is the row of sums of squares over the row count minus
  the square of the mean row — scale, shift and clip; the last adds a bias row.
-/
import proofs.«163791_j23218593202704_1_alg».proof.Proof.KerShared
import proofs.«163791_j23218593202704_1_alg».proof.Proof.KerHostTerms
import proofs.«163791_j23218593202704_1_alg».proof.Proof.Spec

noncomputable section

namespace Cert.KernelIdeal.ValueChain

open Idealize.ShloMosaic Idealize.ShloMosaic.TcCoe Idealize.SL.Sem
open Cert.KernelIdeal Cert.KernelIdeal.HostTerms

variable (m : (ℓ : Loc nD τ sig) → Buf (Elt Ideal) ℓ) (c : Dev nD)

/-! ## The arguments as launched -/

abbrev ar0 : FVec Ideal S100000x128 .f32 := m ((c : Thread nD τ).loc main_arg0)
abbrev ar1 : IVec S1600000 32 := m ((c : Thread nD τ).loc main_arg1)
abbrev ar2 : IVec S1600000 32 := m ((c : Thread nD τ).loc main_arg2)
abbrev ar3 : FVec Ideal S128x128 .f32 := m ((c : Thread nD τ).loc main_arg3)
abbrev ar4 : FVec Ideal S128x128 .f32 := m ((c : Thread nD τ).loc main_arg4)
abbrev ar5 : FVec Ideal S128x128 .f32 := m ((c : Thread nD τ).loc main_arg5)
abbrev ar6 : FVec Ideal S128x128 .f32 := m ((c : Thread nD τ).loc main_arg6)
abbrev ar7 : FVec Ideal S128x40 .f32 := m ((c : Thread nD τ).loc main_arg7)
abbrev ar8 : FVec Ideal S128x40 .f32 := m ((c : Thread nD τ).loc main_arg8)
abbrev ar9 : FVec Ideal S40 .f32 := m ((c : Thread nD τ).loc main_arg9)
abbrev ar10 : FVec Ideal S128 .f32 := m ((c : Thread nD τ).loc main_arg10)
abbrev ar11 : FVec Ideal S128 .f32 := m ((c : Thread nD τ).loc main_arg11)
abbrev ar12 : FVec Ideal S128 .f32 := m ((c : Thread nD τ).loc main_arg12)
abbrev ar13 : FVec Ideal S128 .f32 := m ((c : Thread nD τ).loc main_arg13)

/-! ## The layers as functions of arrays -/

/-- the linear layer's array -/
def yOf (A H : FVec Ideal S100000x128 .f32) (W L : FVec Ideal S128x128 .f32) : FVec Ideal S100000x128 .f32 :=
  Spec.arr2 (Spec.lin (Spec.mat A) (Spec.mat H) (Spec.mat W) (Spec.mat L))

/-- the normalised, scaled, shifted and clipped array, its mean and variance rows formed from the column sums -/
def hidOf (Y : FVec Ideal S100000x128 .f32) (g be : FVec Ideal S128 .f32) : FVec Ideal S100000x128 .f32 :=
  Spec.arr2 (Spec.normAct (Spec.mat Y) (Spec.row (meanRow (Spec.arrRow (Spec.colSum (Spec.mat Y)))))
    (Spec.row (varRow (Spec.arrRow (Spec.colSum (Spec.mat Y))) (Spec.arrRow (Spec.colSumSq (Spec.mat Y)))))
    (Spec.row (asRow128 g)) (Spec.row (asRow128 be)))

/-- the last layer's array -/
def outOf (A H : FVec Ideal S100000x128 .f32) (W L : FVec Ideal S128x40 .f32) (b : FVec Ideal S40 .f32) : FVec Ideal S100000x40 .f32 :=
  Spec.arr2 (Spec.finalLin (Spec.mat A) (Spec.mat H) (Spec.mat W) (Spec.mat L) (Spec.row (asRow40 b)))

/-- the normalised neighbour sum of an array of node rows, over the launched edges -/
def sp (h : FVec Ideal S100000x128 .f32) : FVec Ideal S100000x128 .f32 :=
  spmm h (ar1 m c) (ar2 m c) (degScale (ar1 m c)) (degScale (ar2 m c))

def y0 : FVec Ideal S100000x128 .f32 := yOf (sp m c (ar0 m c)) (ar0 m c) (ar3 m c) (ar4 m c)
def k1 : FVec Ideal S100000x128 .f32 := hidOf (y0 m c) (ar10 m c) (ar11 m c)
def y1 : FVec Ideal S100000x128 .f32 := yOf (sp m c (k1 m c)) (k1 m c) (ar5 m c) (ar6 m c)
def k2 : FVec Ideal S100000x128 .f32 := hidOf (y1 m c) (ar12 m c) (ar13 m c)
/-- THE KERNEL PROGRAM'S RESULT as a function of the launched arguments -/
def out : FVec Ideal S100000x40 .f32 := outOf (sp m c (k2 m c)) (k2 m c) (ar7 m c) (ar8 m c) (ar9 m c)

end Cert.KernelIdeal.ValueChain

end
-- ==== Proof.StatsCommon.lean ====
/-
  Facts shared by the two statistics kernels of the network (the first and the second layer): how a product of a block
  of 5000 rows by a 128×128 matrix, a reduction along the rows of such a block, and a 128-vector viewed as one row read
  at an entry on the extended reals; and how a sum over the 100000 rows regroups into 20 blocks of 5000 rows.
-/
import proofs.«163791_j23218593202704_1_alg».proof.Proof.Gen.KernelIdeal
import Idealize.ShloMosaic.Lib.Pipeline.Value
import Idealize.ShloMosaic.Lib.ValueIdx
import Idealize.ShloMosaic.PureOps.Ideal.Laws

noncomputable section

open Idealize.ShloMosaic
open Idealize.ShloMosaic.ValueIdx
open scoped BigOperators

namespace Cert.KernelIdeal.RegionValue.Stats

open Cert.KernelIdeal Cert.KernelIdeal.Gen

/-- A block offset of zero on both axes. -/
theorem hz : (![0, 0] : Fin 2 → Nat) = fun _ => 0 := funext fun a => by fin_cases a <;> rfl

/-! ## The body's operations at one entry, on the extended reals

On the extended reals a product into the zero block is the plain sum of products over the contracted coordinate, and
a reduction along the rows is the sum over the 5000 rows of the block. -/

/-- The product of a 5000×128 block by a 128×128 matrix into the zero block, at row r and column q. -/
theorem matmul_zero_apply {φ₁ φ₂ : FTy} (x : FVec Ideal S5000x128 φ₁) (w : FVec Ideal S128x128 φ₂) (r : Fin 5000) (q : Fin 128) :
    matmul dot_S5000x128_S128x128_S5000x128_1_0_0_1_n_n none x w (constant S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : (dot_S5000x128_S128x128_S5000x128_1_0_0_1_n_n).lhsIdx (ix2 r q) ((contrEquiv1 dot_S5000x128_S128x128_S5000x128_1_0_0_1_n_n 128 rfl rfl).symm k) = ix2 r k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : (dot_S5000x128_S128x128_S5000x128_1_0_0_1_n_n).rhsIdx (ix2 r q) ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- A reduction along the rows of a 5000×128 block, at column q: the sum over the 5000 rows. -/
theorem rowReduce_apply (src : FVec Ideal S5000x128 .f32) (hφ : FKind.Formats .f32)
    (hacc : (0x00000000#32 : BitVec 32) = FKind.add.neutral .f32 hφ) (q : Fin 128) :
    multiReduction .add [0] S128 src 0x00000000#32 reduces_S5000x128_S128 hφ hacc (ix1 q) = ∑ r : Fin 5000, src (ix2 r q) := by
  refine (Ideal.multiReduction_add_single src 0x00000000#32 reduces_S5000x128_S128 hφ hacc (ix1 q)).trans ?_
  refine Finset.sum_congr rfl fun r _ => congrArg src ?_
  funext ax; apply Fin.ext
  match ax with
  | ⟨0, _⟩ => rfl
  | ⟨1, _⟩ => rfl

/-- A 128-vector viewed as a one-row array reads its column. -/
theorem asRow_apply {α : Type} (v : S128.Idx → α) (u : Fin 1) (q : Fin 128) :
    shapeCast S1x128 v shapeCasts_S128_S1x128 (ix2 u q) = v (ix1 q) := by
  refine shapeCast_apply v shapeCasts_S128_S1x128 (ix2 u q) (ix1 q) ?_
  rw [Shape.rowMajor_val_two, Shape.rowMajor_val_one]
  show q.val = u.val * 128 + q.val
  have := u.isLt; omega

/-! ## Regrouping a sum over the 100000 rows as 20 blocks of 5000

Sums on the extended reals are sums in a commutative monoid, so regrouping needs no finiteness. -/

section Regroup

/-- Row `r` of block `b`. -/
def blockRow (b : Fin 20) (r : Fin 5000) : Fin 100000 := ⟨b.val * 5000 + r.val, by have := b.isLt; have := r.isLt; omega⟩

/-- Every row is a row of exactly one block. -/
def blockEquiv : Fin 20 × Fin 5000 ≃ Fin 100000 where
  toFun p := blockRow p.1 p.2
  invFun i := (⟨i.val / 5000, by have := i.isLt; omega⟩, ⟨i.val % 5000, by omega⟩)
  left_inv p := by
    obtain ⟨b, r⟩ := p
    have hb := b.isLt; have hr := r.isLt
    refine Prod.ext (Fin.ext ?_) (Fin.ext ?_)
    · show (b.val * 5000 + r.val) / 5000 = b.val; omega
    · show (b.val * 5000 + r.val) % 5000 = r.val; omega
  right_inv i := by
    refine Fin.ext ?_
    show i.val / 5000 * 5000 + i.val % 5000 = i.val; omega

/-- The sum over block `b`'s rows; zero past the last block. -/
def blockSum (f : Fin 100000 → EReal) (b : ℕ) : EReal := if h : b < 20 then ∑ r : Fin 5000, f (blockRow ⟨b, h⟩ r) else 0

/-- The twenty block sums add up to the sum over all rows. -/
theorem sum_range_blocks (f : Fin 100000 → EReal) : ∑ b ∈ Finset.range 20, blockSum f b = ∑ i : Fin 100000, f i := by
  rw [← Fin.sum_univ_eq_sum_range (fun b => blockSum f b) 20, ← Equiv.sum_comp blockEquiv f, Fintype.sum_prod_type]
  exact Finset.sum_congr rfl fun b _ => dif_pos b.isLt

end Regroup

end Cert.KernelIdeal.RegionValue.Stats

end
-- ==== Proof.StatsBody0.lean ====
/-
  What one grid point of the first layer's statistics kernel leaves in its three outputs, read as values: the
  block of the linear layer Y = A·W + H·L for the point's 5000 rows, and the two 128-wide running sums, which grow by
  the column sums of that block and of its squares.
-/
import proofs.«163791_j23218593202704_1_alg».proof.Proof.Gen.KernelIdeal.Frame
import proofs.«163791_j23218593202704_1_alg».proof.Proof.StatsCommon
import Idealize.ShloMosaic.Lib.Tactic

noncomputable section

open Idealize.ShloMosaic Idealize.ShloMosaic.TcCoe Idealize.SL.Sem
open Idealize.ShloMosaic.ValueIdx
open scoped BigOperators

namespace Cert.KernelIdeal.RegionValue.Stats0

open Cert.KernelIdeal Cert.KernelIdeal.Gen Cert.KernelIdeal.RegionValue.Stats

/-! ## What each case of the body leaves in the three outputs

The body stores the block of the linear layer into output 4 and a running sum into each of outputs 5 and 6.
At the first grid point the two running sums are first reset to the zero row, and the additions then read
that zero row back; at every later point they read what the point before left. -/

section Pieces
variable {F : FTy → Type} [FloatOps F]

/-- First point, output 4: the linear layer of the four loaded blocks. -/
theorem outA4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 x3 : Vec F S128x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S1x128) hz]

/-- First point, output 5: the column sums of the block added to the zero row just stored. -/
theorem outA5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 x3 : Vec F S128x128 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- First point, output 6: the column sums of the squares added to the zero row just stored. -/
theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 x1 : Vec F S5000x128 .f32) (x2 x3 : Vec F S128x128 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- Later points, output 4: the linear layer of the four loaded blocks. -/
theorem outB4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 x3 : Vec F S128x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, output 5: the column sums of the block added to the running sum. -/
theorem outB5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 x3 : Vec F S128x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, output 6: the column sums of the squares added to the running sum. -/
theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 x1 : Vec F S5000x128 .f32) (x2 x3 : Vec F S128x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

end Pieces

/-! ## The body's arithmetic at one entry, on the extended reals

A change of float format is the identity there, so the block the body stores is, entry by entry, the two sums of
products added; the two running sums grow by the block's column sums and by the column sums of its squares. -/

section Payloads

/-- The linear layer of the loaded blocks at row r and column q of the block. -/
theorem pay3_apply (x0 x1 : Vec Ideal S5000x128 .f32) (x2 x3 : Vec Ideal S128x128 .f32) (r : Fin 5000) (q : Fin 128) :
    k0_pay3 (F := Ideal) x0 x1 x2 x3 (ix2 r q)
      = (∑ k : Fin 128, x0 (ix2 r k) * x2 (ix2 k q)) + ∑ k : Fin 128, x1 (ix2 r k) * x3 (ix2 k q) := by
  unfold k0_pay3
  refine (addf_apply _ _ (ix2 r q)).trans ?_
  refine congrArg₂ (· + ·) ((matmul_zero_apply _ _ r q).trans ?_) ((matmul_zero_apply _ _ r q).trans ?_)
  · refine Finset.sum_congr rfl fun k _ => ?_
    simp only [truncf_apply, shapeCast_self]
  · refine Finset.sum_congr rfl fun k _ => ?_
    simp only [truncf_apply, shapeCast_self]

/-- The running column sum after one more block: what was there plus the block's column sum. -/
theorem pay4_apply (x0 x1 : Vec Ideal S5000x128 .f32) (x2 x3 : Vec Ideal S128x128 .f32) (acc : Vec Ideal S1x128 .f32) (u : Fin 1) (q : Fin 128) :
    k0_pay4 (F := Ideal) x0 x1 x2 x3 acc (ix2 u q)
      = acc (ix2 u q) + ∑ r : Fin 5000, k0_pay3 (F := Ideal) x0 x1 x2 x3 (ix2 r q) := by
  unfold k0_pay4
  refine (addf_apply _ _ (ix2 u q)).trans ?_
  refine congrArg₂ (· + ·) ?_ ((asRow_apply _ u q).trans (rowReduce_apply _ _ _ q))
  rw [shapeCast_self]

/-- The running column sum of squares after one more block. -/
theorem pay5_apply (x0 x1 : Vec Ideal S5000x128 .f32) (x2 x3 : Vec Ideal S128x128 .f32) (acc : Vec Ideal S1x128 .f32) (u : Fin 1) (q : Fin 128) :
    k0_pay5 (F := Ideal) x0 x1 x2 x3 acc (ix2 u q)
      = acc (ix2 u q) + ∑ r : Fin 5000, k0_pay3 (F := Ideal) x0 x1 x2 x3 (ix2 r q) * k0_pay3 (F := Ideal) x0 x1 x2 x3 (ix2 r q) := by
  unfold k0_pay5
  refine (addf_apply _ _ (ix2 u q)).trans ?_
  refine congrArg₂ (· + ·) ?_ ((asRow_apply _ u q).trans ((rowReduce_apply _ _ _ q).trans ?_))
  · rw [shapeCast_self]
  · exact Finset.sum_congr rfl fun r _ => mulf_apply _ _ (ix2 r q)

/-- The zero row the first point stores reads zero. -/
theorem pay1_apply (j : S1x128.Idx) : k0_pay1 (F := Ideal) j = 0 := Ideal.ofBits_zero_f32
theorem pay2_apply (j : S1x128.Idx) : k0_pay2 (F := Ideal) j = 0 := Ideal.ofBits_zero_f32

end Payloads

end Cert.KernelIdeal.RegionValue.Stats0

end
-- ==== Proof.StatsRegion0.lean ====
/-
  The first layer's statistics kernel, read as values. Its grid has 20 points; point t handles rows t·5000 … t·5000 + 4999
  of the 100000 node rows: it forms the block of the linear layer Y = A·W + H·L for those rows, and adds the block's
  column sums, and the column sums of its squares, to two running 128-wide sums that the first point starts from zero.
  So after the last point the first result array is Y, and the two sum arrays are the column sums of Y and of its
  squares over all rows: a sum over 100000 rows taken as 20 block sums added in the order of the points, which is the
  same extended real, since addition there is commutative and associative.
-/
import proofs.«163791_j23218593202704_1_alg».proof.Proof.Gen.KernelIdeal.Frame
import proofs.«163791_j23218593202704_1_alg».proof.Proof.Spec
import proofs.«163791_j23218593202704_1_alg».proof.Proof.StatsCommon
import proofs.«163791_j23218593202704_1_alg».proof.Proof.StatsBody0
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionValue.Stats0

open Cert.KernelIdeal Cert.KernelIdeal.Gen Cert.KernelIdeal.RegionValue.Stats

/-! ## The region: its blocks, the invariant of the two running sums, and the three result arrays -/

section Region
variable (V : (c : Dev nD) → (b : Ref sig .tc) → Buf (Elt Ideal) ((c : Thread nD τ).loc b)) (c : Dev nD)

/-- The four input arrays as the region finds them, by row and column: the aggregated rows, the node rows, and the
    two weight matrices. -/
abbrev arrA : Fin 100000 → Fin 128 → EReal := Spec.mat (V c (Pipeline.arrRef spec0 0))
abbrev arrH : Fin 100000 → Fin 128 → EReal := Spec.mat (V c (Pipeline.arrRef spec0 1))
abbrev arrW : Fin 128 → Fin 128 → EReal := Spec.mat (V c (Pipeline.arrRef spec0 2))
abbrev arrL : Fin 128 → Fin 128 → EReal := Spec.mat (V c (Pipeline.arrRef spec0 3))

/-- The linear layer of the whole arrays. -/
abbrev linY : Fin 100000 → Fin 128 → EReal := Spec.lin (arrA V c) (arrH V c) (arrW V c) (arrL V c)

/-- The four input blocks at a grid point, at their literal shapes. -/
def blkA (t : Fin cfg0.N) : Vec Ideal S5000x128 .f32 := iblk0 V c 0 t
def blkH (t : Fin cfg0.N) : Vec Ideal S5000x128 .f32 := iblk0 V c 1 t
def blkW (t : Fin cfg0.N) : Vec Ideal S128x128 .f32 := iblk0 V c 2 t
def blkL (t : Fin cfg0.N) : Vec Ideal S128x128 .f32 := iblk0 V c 3 t

/-- The block indices, decided over the grid: the row windows and the output sit at block `t`, the weights at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the aggregated-rows block at point `t` is row `t·5000 + r` of the array. -/
theorem blkA_apply (t : Fin cfg0.N) (r : Fin 5000) (k : Fin 128) (i : Fin 100000) (hi : i.val = t.val * 5000 + r.val) :
    blkA V c t (ix2 r k) = arrA V c i k := by
  obtain ⟨e0, e1, -⟩ := idx_facts t
  show V c (Pipeline.arrRef spec0 0) (((cfg0.win 0).blk t).view.emb (ix2 r k)) = V c (Pipeline.arrRef spec0 0) (ix2 i k)
  refine congrArg (V c (Pipeline.arrRef spec0 0)) ?_
  funext a; apply Fin.ext
  match a with
  | ⟨0, _⟩ => show win0_0.index t (0 : Fin 2) * 5000 + 1 * r.val = i.val; rw [e0, hi]; omega
  | ⟨1, _⟩ => show win0_0.index t (1 : Fin 2) * 128 + 1 * k.val = k.val; rw [e1]; omega

/-- The same for the node rows. -/
theorem blkH_apply (t : Fin cfg0.N) (r : Fin 5000) (k : Fin 128) (i : Fin 100000) (hi : i.val = t.val * 5000 + r.val) :
    blkH V c t (ix2 r k) = arrH V c i k := by
  obtain ⟨-, -, e0, e1, -⟩ := idx_facts t
  show V c (Pipeline.arrRef spec0 1) (((cfg0.win 1).blk t).view.emb (ix2 r k)) = V c (Pipeline.arrRef spec0 1) (ix2 i k)
  refine congrArg (V c (Pipeline.arrRef spec0 1)) ?_
  funext a; apply Fin.ext
  match a with
  | ⟨0, _⟩ => show win0_1.index t (0 : Fin 2) * 5000 + 1 * r.val = i.val; rw [e0, hi]; omega
  | ⟨1, _⟩ => show win0_1.index t (1 : Fin 2) * 128 + 1 * k.val = k.val; rw [e1]; omega

/-- Each weight matrix is one block: the block is the array. -/
theorem blkW_apply (t : Fin cfg0.N) (k q : Fin 128) : blkW V c t (ix2 k q) = arrW V c k q := by
  obtain ⟨-, -, -, -, e0, e1, -⟩ := idx_facts t
  show V c (Pipeline.arrRef spec0 2) (((cfg0.win 2).blk t).view.emb (ix2 k q)) = V c (Pipeline.arrRef spec0 2) (ix2 k q)
  refine congrArg (V c (Pipeline.arrRef spec0 2)) ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem blkL_apply (t : Fin cfg0.N) (k q : Fin 128) : blkL V c t (ix2 k q) = arrL V c k q := by
  obtain ⟨-, -, -, -, -, -, e0, e1, -⟩ := idx_facts t
  show V c (Pipeline.arrRef spec0 3) (((cfg0.win 3).blk t).view.emb (ix2 k q)) = V c (Pipeline.arrRef spec0 3) (ix2 k q)
  refine congrArg (V c (Pipeline.arrRef spec0 3)) ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The block the body computes at point `t` is the linear layer's rows `t·5000 …`: row `r` of the block is row
    `t·5000 + r` of the layer. -/
theorem y_block (t : Fin cfg0.N) (r : Fin 5000) (q : Fin 128) (i : Fin 100000) (hi : i.val = t.val * 5000 + r.val) :
    k0_pay3 (F := Ideal) (blkA V c t) (blkH V c t) (blkW V c t) (blkL V c t) (ix2 r q) = linY V c i q := by
  refine (pay3_apply _ _ _ _ r q).trans ?_
  show _ = (∑ k : Fin 128, arrA V c i k * arrW V c k q) + ∑ k : Fin 128, arrH V c i k * arrL V c k q
  refine congrArg₂ (· + ·) (Finset.sum_congr rfl fun k _ => ?_) (Finset.sum_congr rfl fun k _ => ?_)
  · rw [blkA_apply V c t r k i hi, blkW_apply V c t k q]
  · rw [blkH_apply V c t r k i hi, blkL_apply V c t k q]

/-- What the three outputs hold after the first point, as the body's arithmetic of the point's blocks. -/
theorem outsAt_first (t : Fin cfg0.N) (h0 : t.val % 20 = 0) :
    outsAt0 V c t.val t.isLt = (k0_pay3 (F := Ideal) (blkA V c t) (blkH V c t) (blkW V c t) (blkL V c t), k0_pay4 (F := Ideal) (blkA V c t) (blkH V c t) (blkW V c t) (blkL V c t) (k0_pay1 (F := Ideal)), k0_pay5 (F := Ideal) (blkA V c t) (blkH V c t) (blkW V c t) (blkL V c t) (k0_pay2 (F := Ideal))) := by
  rw [outsAt0_A V c t h0]
  exact congrArg₂ Prod.mk
    (outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
    (congrArg₂ Prod.mk
      (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t))
      (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)))

/-- What they hold after a later point, over what the point before left in the two running sums. -/
theorem outsAt_later (t : Fin cfg0.N) (h0 : ¬t.val % 20 = 0) :
    outsAt0 V c t.val t.isLt = (k0_pay3 (F := Ideal) (blkA V c t) (blkH V c t) (blkW V c t) (blkL V c t),
      k0_pay4 (F := Ideal) (blkA V c t) (blkH V c t) (blkW V c t) (blkL V c t) (outsAt0 V c (t.val - 1) (Nat.lt_of_le_of_lt (Nat.sub_le _ _) t.isLt)).2.1,
      k0_pay5 (F := Ideal) (blkA V c t) (blkH V c t) (blkW V c t) (blkL V c t) (outsAt0 V c (t.val - 1) (Nat.lt_of_le_of_lt (Nat.sub_le _ _) t.isLt)).2.2) := by
  rw [outsAt0_B V c t h0]
  exact congrArg₂ Prod.mk
    (outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2)
      (outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2))

/-- Output 4 after any point is the body's block of that point. -/
theorem out4_eq (t : Fin cfg0.N) : (outsAt0 V c t.val t.isLt).1 = k0_pay3 (F := Ideal) (blkA V c t) (blkH V c t) (blkW V c t) (blkL V c t) := by
  by_cases h0 : t.val % 20 = 0
  · exact congrArg Prod.fst (outsAt_first V c t h0)
  · exact congrArg Prod.fst (outsAt_later V c t h0)

/-- The column sum of block `t` of the layer as the body forms it is the block sum of the layer's column. -/
theorem block_colSum (t : Fin cfg0.N) (q : Fin 128) :
    (∑ r : Fin 5000, k0_pay3 (F := Ideal) (blkA V c t) (blkH V c t) (blkW V c t) (blkL V c t) (ix2 r q)) = blockSum (fun i => linY V c i q) t.val := by
  have hN : cfg0.N = 20 := N_0
  have ht : t.val < 20 := hN ▸ t.isLt
  unfold blockSum
  rw [dif_pos ht]
  exact Finset.sum_congr rfl fun r _ => y_block V c t r q (blockRow ⟨t.val, ht⟩ r) rfl

theorem block_colSumSq (t : Fin cfg0.N) (q : Fin 128) :
    (∑ r : Fin 5000, k0_pay3 (F := Ideal) (blkA V c t) (blkH V c t) (blkW V c t) (blkL V c t) (ix2 r q) * k0_pay3 (F := Ideal) (blkA V c t) (blkH V c t) (blkW V c t) (blkL V c t) (ix2 r q))
      = blockSum (fun i => linY V c i q * linY V c i q) t.val := by
  have hN : cfg0.N = 20 := N_0
  have ht : t.val < 20 := hN ▸ t.isLt
  unfold blockSum
  rw [dif_pos ht]
  exact Finset.sum_congr rfl fun r _ => by rw [y_block V c t r q (blockRow ⟨t.val, ht⟩ r) rfl]

/-- THE INVARIANT. After point `t` the two running sums hold, in each column, the sum of the layer's column (of its
    squares) over the blocks 0 … t: the first point adds its block to the zero row, every later one to what was there. -/
theorem acc_eq (u : Fin 1) (q : Fin 128) : ∀ (n : ℕ) (t : Fin cfg0.N), t.val = n →
    (outsAt0 V c t.val t.isLt).2.1 (ix2 u q) = ∑ b ∈ Finset.range (t.val + 1), blockSum (fun i => linY V c i q) b
    ∧ (outsAt0 V c t.val t.isLt).2.2 (ix2 u q) = ∑ b ∈ Finset.range (t.val + 1), blockSum (fun i => linY V c i q * linY V c i q) b
  | 0, t, ht => by
    have h0 : t.val % 20 = 0 := by rw [ht]
    rw [outsAt_first V c t h0]
    dsimp only
    refine ⟨(pay4_apply _ _ _ _ _ u q).trans ?_, (pay5_apply _ _ _ _ _ u q).trans ?_⟩
    · rw [pay1_apply, zero_add, ht, Finset.sum_range_one, ← ht]
      exact block_colSum V c t q
    · rw [pay2_apply, zero_add, ht, Finset.sum_range_one, ← ht]
      exact block_colSumSq V c t q
  | n + 1, t, ht => by
    have hN : cfg0.N = 20 := N_0
    have hlt : t.val < 20 := hN ▸ t.isLt
    have h0 : ¬t.val % 20 = 0 := by omega
    obtain ⟨ih1, ih2⟩ := acc_eq u q n ⟨t.val - 1, Nat.lt_of_le_of_lt (Nat.sub_le _ _) t.isLt⟩ (by dsimp only; omega)
    rw [outsAt_later V c t h0]
    dsimp only at ih1 ih2 ⊢
    refine ⟨(pay4_apply _ _ _ _ _ u q).trans ?_, (pay5_apply _ _ _ _ _ u q).trans ?_⟩
    · rw [ih1, show t.val - 1 + 1 = t.val from by omega, Finset.sum_range_succ _ t.val]
      exact congrArg _ (block_colSum V c t q)
    · rw [ih2, show t.val - 1 + 1 = t.val from by omega, Finset.sum_range_succ _ t.val]
      exact congrArg _ (block_colSumSq V c t q)

end Region

/-! ## From the blocks to the three arrays

Output 4 is written back at every point, block `t` to rows `t·5000 …`; the twenty blocks tile the array. Outputs 5
and 6 are one block each, written back once, after the last point, when the running sums are complete. -/

section Arrays
variable (V : (c : Dev nD) → (b : Ref sig .tc) → Buf (Elt Ideal) ((c : Thread nD τ).loc b)) (c : Dev nD)

/-- An entry of the block computed at point `t` is the layer's entry at the array index it is written to. -/
theorem y_entry (t : Fin cfg0.N) (y : S5000x128.Idx) (i : S100000x128.Idx)
    (h0 : (i 0).val = t.val * 5000 + (y 0).val) (h1 : (i 1).val = (y 1).val) :
    k0_pay3 (F := Ideal) (blkA V c t) (blkH V c t) (blkW V c t) (blkL V c t) y = Spec.arr2 (linY V c) i := by
  obtain ⟨r, q, rfl⟩ : ∃ (r : Fin 5000) (q : Fin 128), y = ix2 r q := ⟨y 0, y 1, eq_ix2 y⟩
  obtain ⟨i0, i1, rfl⟩ : ∃ (i0 : Fin 100000) (i1 : Fin 128), i = ix2 i0 i1 := ⟨i 0, i 1, eq_ix2 i⟩
  obtain rfl : q = i1 := (Fin.ext h1).symm
  show k0_pay3 (F := Ideal) (blkA V c t) (blkH V c t) (blkW V c t) (blkL V c t) (ix2 r q) = linY V c i0 q
  exact y_block V c t r q i0 h0

/-- What point `t` writes back to output 4 is block `t` of the linear layer. -/
theorem flushed4_eq (t : Fin cfg0.N) (hf : (cfg0.win 4).flush t = true) :
    (dat0 V c).flushed 4 t = ((cfg0.win 4).blk t).view.read (Elt Ideal) (Spec.arr2 (linY V c)) := by
  show (cfg0.win 4).cut (grid0.coords t) ((dat0 V c).after 4 t) = _
  rw [after0_4, out4_eq]
  obtain ⟨-, -, -, -, -, -, -, -, e0, e1⟩ := idx_facts t
  funext y
  show k0_pay3 (F := Ideal) (blkA V c t) (blkH V c t) (blkW V c t) (blkL V c t) y = Spec.arr2 (linY V c) (((cfg0.win 4).blk t).view.emb y)
  refine y_entry V c t y _ ?_ ?_
  · show win0_4.index t (0 : Fin 2) * 5000 + 1 * (y 0).val = t.val * 5000 + (y 0).val
    rw [e0]; omega
  · show win0_4.index t (1 : Fin 2) * 128 + 1 * (y 1).val = (y 1).val
    rw [e1]; omega

/-- A row of the array lies in the block of the point whose number is the row divided by 5000. -/
theorem mem_blk4 (t : Fin cfg0.N) (i : S100000x128.Idx) (h : t.val * 5000 ≤ (i 0).val ∧ (i 0).val < t.val * 5000 + 5000) :
    i ∈ ((cfg0.win 4).blk t).view.set := by
  obtain ⟨-, -, -, -, -, -, -, -, e0, e1⟩ := idx_facts t
  show i ∈ ((View.whole main_v38_0).slice (win0_4.rect t)).set
  rw [View.set_slice_whole, Rect.mem_set_unit]
  intro a
  have h1 : (i 1 : Nat) < 128 := (i 1).isLt
  match a with
  | ⟨0, _⟩ =>
    show win0_4.index t (0 : Fin 2) * 5000 ≤ (i 0 : Nat) ∧ (i 0 : Nat) < win0_4.index t (0 : Fin 2) * 5000 + 5000
    rw [e0]; exact h
  | ⟨1, _⟩ =>
    show win0_4.index t (1 : Fin 2) * 128 ≤ (i 1 : Nat) ∧ (i 1 : Nat) < win0_4.index t (1 : Fin 2) * 128 + 128
    rw [e1]; omega

/-- The block indices of the two sum windows, decided over the grid: always block 0. -/
theorem idx_facts56 : ∀ t : Fin cfg0.N, win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- After the last point an entry of the first running sum is the layer's column sum. -/
theorem sum_entry (t : Fin cfg0.N) (h19 : t.val = 19) (y i : S1x128.Idx) (h1 : (i 1).val = (y 1).val) :
    (outsAt0 V c t.val t.isLt).2.1 y = Spec.arrRow (Spec.colSum (linY V c)) i := by
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext h1
  refine (acc_eq V c u q' 19 t h19).1.trans ?_
  rw [h19]
  exact sum_range_blocks fun i => linY V c i q'

/-- After the last point an entry of the second running sum is the layer's column sum of squares. -/
theorem sumsq_entry (t : Fin cfg0.N) (h19 : t.val = 19) (y i : S1x128.Idx) (h1 : (i 1).val = (y 1).val) :
    (outsAt0 V c t.val t.isLt).2.2 y = Spec.arrRow (Spec.colSumSq (linY V c)) i := by
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext h1
  refine (acc_eq V c u q' 19 t h19).2.trans ?_
  rw [h19]
  exact sum_range_blocks fun i => linY V c i q' * linY V c i q'

/-- Outputs 5 and 6 are each one block that is the whole array: what a point would write back to the array is, entry
    by entry, what the running sum holds, whatever row that is called (`G`, kept abstract so that the sum over all
    rows is never opened). -/
theorem flushed5_of (t : Fin cfg0.N) (G : S1x128.Idx → EReal)
    (hG : ∀ y i : S1x128.Idx, (i 1).val = (y 1).val → (outsAt0 V c t.val t.isLt).2.1 y = G i) :
    (dat0 V c).flushed 5 t = ((cfg0.win 5).blk t).view.read (Elt Ideal) G := by
  show (cfg0.win 5).cut (grid0.coords t) ((dat0 V c).after 5 t) = _
  rw [after0_5]
  obtain ⟨e0, e1, -⟩ := idx_facts56 t
  funext y
  show (outsAt0 V c t.val t.isLt).2.1 y = G (((cfg0.win 5).blk t).view.emb y)
  refine hG y _ ?_
  show win0_5.index t (1 : Fin 2) * 128 + 1 * (y 1).val = (y 1).val
  rw [e1]; omega

theorem flushed6_of (t : Fin cfg0.N) (G : S1x128.Idx → EReal)
    (hG : ∀ y i : S1x128.Idx, (i 1).val = (y 1).val → (outsAt0 V c t.val t.isLt).2.2 y = G i) :
    (dat0 V c).flushed 6 t = ((cfg0.win 6).blk t).view.read (Elt Ideal) G := by
  show (cfg0.win 6).cut (grid0.coords t) ((dat0 V c).after 6 t) = _
  rw [after0_6]
  obtain ⟨-, -, e0, e1⟩ := idx_facts56 t
  funext y
  show (outsAt0 V c t.val t.isLt).2.2 y = G (((cfg0.win 6).blk t).view.emb y)
  refine hG y _ ?_
  show win0_6.index t (1 : Fin 2) * 128 + 1 * (y 1).val = (y 1).val
  rw [e1]; omega

/-- The one write-back of output 5, after the last point, writes the column sums. -/
theorem flushed5_eq (t : Fin cfg0.N) (hf : (cfg0.win 5).flush t = true) :
    (dat0 V c).flushed 5 t = ((cfg0.win 5).blk t).view.read (Elt Ideal) (Spec.arrRow (Spec.colSum (linY V c))) := by
  have hN : cfg0.N = 20 := N_0
  have h19 : t.val = 19 := by have := (flush0_5 t).mp hf; have := t.isLt; omega
  exact flushed5_of V c t _ (sum_entry V c t h19)

/-- The one write-back of output 6, after the last point, writes the column sums of squares. -/
theorem flushed6_eq (t : Fin cfg0.N) (hf : (cfg0.win 6).flush t = true) :
    (dat0 V c).flushed 6 t = ((cfg0.win 6).blk t).view.read (Elt Ideal) (Spec.arrRow (Spec.colSumSq (linY V c))) := by
  have hN : cfg0.N = 20 := N_0
  have h19 : t.val = 19 := by have := (flush0_6 t).mp hf; have := t.isLt; omega
  exact flushed6_of V c t _ (sumsq_entry V c t h19)

/-- Each of the two sum arrays is one block, at every point. -/
theorem mem_blk5 (t : Fin cfg0.N) (i : S1x128.Idx) : i ∈ ((cfg0.win 5).blk t).view.set := by
  obtain ⟨e0, e1, -⟩ := idx_facts56 t
  show i ∈ ((View.whole main_v38_1).slice (win0_5.rect t)).set
  rw [View.set_slice_whole, Rect.mem_set_unit]
  intro a
  have h0 : (i 0 : Nat) < 1 := (i 0).isLt
  have h1 : (i 1 : Nat) < 128 := (i 1).isLt
  match a with
  | ⟨0, _⟩ =>
    show win0_5.index t (0 : Fin 2) * 1 ≤ (i 0 : Nat) ∧ (i 0 : Nat) < win0_5.index t (0 : Fin 2) * 1 + 1
    rw [e0]; omega
  | ⟨1, _⟩ =>
    show win0_5.index t (1 : Fin 2) * 128 ≤ (i 1 : Nat) ∧ (i 1 : Nat) < win0_5.index t (1 : Fin 2) * 128 + 128
    rw [e1]; omega

theorem mem_blk6 (t : Fin cfg0.N) (i : S1x128.Idx) : i ∈ ((cfg0.win 6).blk t).view.set := by
  obtain ⟨-, -, e0, e1⟩ := idx_facts56 t
  show i ∈ ((View.whole main_v38_2).slice (win0_6.rect t)).set
  rw [View.set_slice_whole, Rect.mem_set_unit]
  intro a
  have h0 : (i 0 : Nat) < 1 := (i 0).isLt
  have h1 : (i 1 : Nat) < 128 := (i 1).isLt
  match a with
  | ⟨0, _⟩ =>
    show win0_6.index t (0 : Fin 2) * 1 ≤ (i 0 : Nat) ∧ (i 0 : Nat) < win0_6.index t (0 : Fin 2) * 1 + 1
    rw [e0]; omega
  | ⟨1, _⟩ =>
    show win0_6.index t (1 : Fin 2) * 128 ≤ (i 1 : Nat) ∧ (i 1 : Nat) < win0_6.index t (1 : Fin 2) * 128 + 128
    rw [e1]; omega

/-- The last grid point. -/
def lastPoint : Fin cfg0.N := ⟨19, by rw [show cfg0.N = 20 from N_0]; decide⟩

end Arrays

end Cert.KernelIdeal.RegionValue.Stats0

namespace Cert.KernelIdeal.RegionValue

open Cert.KernelIdeal Cert.KernelIdeal.Gen Cert.KernelIdeal.RegionValue.Stats Cert.KernelIdeal.RegionValue.Stats0

variable (V : (c : Dev nD) → (b : Ref sig .tc) → Buf (Elt Ideal) ((c : Thread nD τ).loc b)) (c : Dev nD)

/-- THE LINEAR LAYER. After the region the first result array holds Y = A·W + H·L of the arrays the region found. -/
theorem region0_y :
    (Gen.dat0 (F := Ideal) V c).arrAt 4 cfg0.N
      = Spec.arr2 (Spec.lin (Spec.mat (V c (Pipeline.arrRef spec0 0))) (Spec.mat (V c (Pipeline.arrRef spec0 1))) (Spec.mat (V c (Pipeline.arrRef spec0 2))) (Spec.mat (V c (Pipeline.arrRef spec0 3)))) :=
  (dat0 V c).arrAt_eq_of_cover 4 (Spec.arr2 (linY V c)) (flushed4_eq V c) fun i => by
    have hN : cfg0.N = 20 := N_0
    have hi : (i 0 : Nat) < 100000 := (i 0).isLt
    exact ⟨⟨(i 0 : Nat) / 5000, by rw [hN]; omega⟩, flush0_4 _, mem_blk4 _ i (by dsimp only; omega)⟩

/-- THE COLUMN SUMS. The second result array holds, in each column, the sum of Y's column over all 100000 rows. -/
theorem region0_sum :
    (Gen.dat0 (F := Ideal) V c).arrAt 5 cfg0.N
      = Spec.arrRow (Spec.colSum (Spec.lin (Spec.mat (V c (Pipeline.arrRef spec0 0))) (Spec.mat (V c (Pipeline.arrRef spec0 1))) (Spec.mat (V c (Pipeline.arrRef spec0 2))) (Spec.mat (V c (Pipeline.arrRef spec0 3))))) :=
  (dat0 V c).arrAt_eq_of_cover 5 (Spec.arrRow (Spec.colSum (linY V c))) (flushed5_eq V c) fun i =>
    ⟨lastPoint, (flush0_5 lastPoint).mpr rfl, mem_blk5 lastPoint i⟩

/-- THE COLUMN SUMS OF SQUARES. The third result array holds, in each column, the sum of the squares of Y's column. -/
theorem region0_sumsq :
    (Gen.dat0 (F := Ideal) V c).arrAt 6 cfg0.N
      = Spec.arrRow (Spec.colSumSq (Spec.lin (Spec.mat (V c (Pipeline.arrRef spec0 0))) (Spec.mat (V c (Pipeline.arrRef spec0 1))) (Spec.mat (V c (Pipeline.arrRef spec0 2))) (Spec.mat (V c (Pipeline.arrRef spec0 3))))) :=
  (dat0 V c).arrAt_eq_of_cover 6 (Spec.arrRow (Spec.colSumSq (linY V c))) (flushed6_eq V c) fun i =>
    ⟨lastPoint, (flush0_6 lastPoint).mpr rfl, mem_blk6 lastPoint i⟩

end Cert.KernelIdeal.RegionValue

end
-- ==== Proof.StatsBody2.lean ====
/-
  What one grid point of the second layer's statistics kernel leaves in its three outputs, read as values: the
  block of the linear layer Y = A·W + H·L for the point's 5000 rows, and the two 128-wide running sums, which grow by
  the column sums of that block and of its squares.
-/
import proofs.«163791_j23218593202704_1_alg».proof.Proof.Gen.KernelIdeal.Frame
import proofs.«163791_j23218593202704_1_alg».proof.Proof.StatsCommon
import Idealize.ShloMosaic.Lib.Tactic

noncomputable section

open Idealize.ShloMosaic Idealize.ShloMosaic.TcCoe Idealize.SL.Sem
open Idealize.ShloMosaic.ValueIdx
open scoped BigOperators

namespace Cert.KernelIdeal.RegionValue.Stats2

open Cert.KernelIdeal Cert.KernelIdeal.Gen Cert.KernelIdeal.RegionValue.Stats

/-! ## What each case of the body leaves in the three outputs

The body stores the block of the linear layer into output 4 and a running sum into each of outputs 5 and 6.
At the first grid point the two running sums are first reset to the zero row, and the additions then read
that zero row back; at every later point they read what the point before left. -/

section Pieces
variable {F : FTy → Type} [FloatOps F]

/-- First point, output 4: the linear layer of the four loaded blocks. -/
theorem outA4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 x3 : Vec F S128x128 .f32) :
    out2_A_4 c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  rw [View.canon_unit_zero hz]
  simp only [View.readAt_eq_ld, h1.read_unread, h2.read_unread, h3.read_unread, h4.read_unread, View.ld_unit_zero (S := S5000x128) hz, View.ld_unit_zero (S := S128x128) hz, View.ld_unit_zero (S := S1x128) hz]

/-- First point, output 5: the column sums of the block added to the zero row just stored. -/
theorem outA5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 x3 : Vec F S128x128 .f32) :
    out2_A_5 c i a1 h1 a2 h2 a3 h3 a4 h4 a5 h5 a6 h6 a7 h7 hc x0 x1 x2 x3 = k2_pay4 x0 x1 x2 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- First point, output 6: the column sums of the squares added to the zero row just stored. -/
theorem outA6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond2_0 i) (x0 x1 : Vec F S5000x128 .f32) (x2 x3 : Vec F S128x128 .f32) :
    out2_A_6 c i a1 h1 a2 h2 a3 h3 a4 h4 a5 h5 a6 h6 a7 h7 hc x0 x1 x2 x3 = k2_pay5 x0 x1 x2 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, View.ld_unit_zero (S := S5000x128) hz, View.ld_unit_zero (S := S128x128) hz, View.ld_unit_zero (S := S1x128) hz]

/-- Later points, output 4: the linear layer of the four loaded blocks. -/
theorem outB4 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 x3 : Vec F S128x128 .f32) (xo5 xo6 : Vec F S1x128 .f32) :
    out2_B_4 c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, output 5: the column sums of the block added to the running sum. -/
theorem outB5 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 x3 : Vec F S128x128 .f32) (xo5 xo6 : Vec F S1x128 .f32) :
    out2_B_5 c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points, output 6: the column sums of the squares added to the running sum. -/
theorem outB6 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond2_0 i) (x0 x1 : Vec F S5000x128 .f32) (x2 x3 : Vec F S128x128 .f32) (xo5 xo6 : Vec F S1x128 .f32) :
    out2_B_6 c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

end Pieces

/-! ## The body's arithmetic at one entry, on the extended reals

A change of float format is the identity there, so the block the body stores is, entry by entry, the two sums of
products added; the two running sums grow by the block's column sums and by the column sums of its squares. -/

section Payloads

/-- The linear layer of the loaded blocks at row r and column q of the block. -/
theorem pay3_apply (x0 x1 : Vec Ideal S5000x128 .f32) (x2 x3 : Vec Ideal S128x128 .f32) (r : Fin 5000) (q : Fin 128) :
    k2_pay3 (F := Ideal) x0 x1 x2 x3 (ix2 r q)
      = (∑ k : Fin 128, x0 (ix2 r k) * x2 (ix2 k q)) + ∑ k : Fin 128, x1 (ix2 r k) * x3 (ix2 k q) := by
  unfold k2_pay3
  refine (addf_apply _ _ (ix2 r q)).trans ?_
  refine congrArg₂ (· + ·) ((matmul_zero_apply _ _ r q).trans ?_) ((matmul_zero_apply _ _ r q).trans ?_)
  · refine Finset.sum_congr rfl fun k _ => ?_
    simp only [truncf_apply, shapeCast_self]
  · refine Finset.sum_congr rfl fun k _ => ?_
    simp only [truncf_apply, shapeCast_self]

/-- The running column sum after one more block: what was there plus the block's column sum. -/
theorem pay4_apply (x0 x1 : Vec Ideal S5000x128 .f32) (x2 x3 : Vec Ideal S128x128 .f32) (acc : Vec Ideal S1x128 .f32) (u : Fin 1) (q : Fin 128) :
    k2_pay4 (F := Ideal) x0 x1 x2 x3 acc (ix2 u q)
      = acc (ix2 u q) + ∑ r : Fin 5000, k2_pay3 (F := Ideal) x0 x1 x2 x3 (ix2 r q) := by
  unfold k2_pay4
  refine (addf_apply _ _ (ix2 u q)).trans ?_
  refine congrArg₂ (· + ·) ?_ ((asRow_apply _ u q).trans (rowReduce_apply _ _ _ q))
  rw [shapeCast_self]

/-- The running column sum of squares after one more block. -/
theorem pay5_apply (x0 x1 : Vec Ideal S5000x128 .f32) (x2 x3 : Vec Ideal S128x128 .f32) (acc : Vec Ideal S1x128 .f32) (u : Fin 1) (q : Fin 128) :
    k2_pay5 (F := Ideal) x0 x1 x2 x3 acc (ix2 u q)
      = acc (ix2 u q) + ∑ r : Fin 5000, k2_pay3 (F := Ideal) x0 x1 x2 x3 (ix2 r q) * k2_pay3 (F := Ideal) x0 x1 x2 x3 (ix2 r q) := by
  unfold k2_pay5
  refine (addf_apply _ _ (ix2 u q)).trans ?_
  refine congrArg₂ (· + ·) ?_ ((asRow_apply _ u q).trans ((rowReduce_apply _ _ _ q).trans ?_))
  · rw [shapeCast_self]
  · exact Finset.sum_congr rfl fun r _ => mulf_apply _ _ (ix2 r q)

/-- The zero row the first point stores reads zero. -/
theorem pay1_apply (j : S1x128.Idx) : k2_pay1 (F := Ideal) j = 0 := Ideal.ofBits_zero_f32
theorem pay2_apply (j : S1x128.Idx) : k2_pay2 (F := Ideal) j = 0 := Ideal.ofBits_zero_f32

end Payloads

end Cert.KernelIdeal.RegionValue.Stats2

end
-- ==== Proof.StatsRegion2.lean ====
/-
  The second layer's statistics kernel, read as values. Its grid has 20 points; point t handles rows t·5000 … t·5000 + 4999
  of the 100000 node rows: it forms the block of the linear layer Y = A·W + H·L for those rows, and adds the block's
  column sums, and the column sums of its squares, to two running 128-wide sums that the first point starts from zero.
  So after the last point the first result array is Y, and the two sum arrays are the column sums of Y and of its
  squares over all rows: a sum over 100000 rows taken as 20 block sums added in the order of the points, which is the
  same extended real, since addition there is commutative and associative.
-/
import proofs.«163791_j23218593202704_1_alg».proof.Proof.Gen.KernelIdeal.Frame
import proofs.«163791_j23218593202704_1_alg».proof.Proof.Spec
import proofs.«163791_j23218593202704_1_alg».proof.Proof.StatsCommon
import proofs.«163791_j23218593202704_1_alg».proof.Proof.StatsBody2
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionValue.Stats2

open Cert.KernelIdeal Cert.KernelIdeal.Gen Cert.KernelIdeal.RegionValue.Stats

/-! ## The region: its blocks, the invariant of the two running sums, and the three result arrays -/

section Region
variable (V : (c : Dev nD) → (b : Ref sig .tc) → Buf (Elt Ideal) ((c : Thread nD τ).loc b)) (c : Dev nD)

/-- The four input arrays as the region finds them, by row and column: the aggregated rows, the node rows, and the
    two weight matrices. -/
abbrev arrA : Fin 100000 → Fin 128 → EReal := Spec.mat (V c (Pipeline.arrRef spec2 0))
abbrev arrH : Fin 100000 → Fin 128 → EReal := Spec.mat (V c (Pipeline.arrRef spec2 1))
abbrev arrW : Fin 128 → Fin 128 → EReal := Spec.mat (V c (Pipeline.arrRef spec2 2))
abbrev arrL : Fin 128 → Fin 128 → EReal := Spec.mat (V c (Pipeline.arrRef spec2 3))

/-- The linear layer of the whole arrays. -/
abbrev linY : Fin 100000 → Fin 128 → EReal := Spec.lin (arrA V c) (arrH V c) (arrW V c) (arrL V c)

/-- The four input blocks at a grid point, at their literal shapes. -/
def blkA (t : Fin cfg2.N) : Vec Ideal S5000x128 .f32 := iblk2 V c 0 t
def blkH (t : Fin cfg2.N) : Vec Ideal S5000x128 .f32 := iblk2 V c 1 t
def blkW (t : Fin cfg2.N) : Vec Ideal S128x128 .f32 := iblk2 V c 2 t
def blkL (t : Fin cfg2.N) : Vec Ideal S128x128 .f32 := iblk2 V c 3 t

/-- The block indices, decided over the grid: the row windows and the output sit at block `t`, the weights at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `r` of the aggregated-rows block at point `t` is row `t·5000 + r` of the array. -/
theorem blkA_apply (t : Fin cfg2.N) (r : Fin 5000) (k : Fin 128) (i : Fin 100000) (hi : i.val = t.val * 5000 + r.val) :
    blkA V c t (ix2 r k) = arrA V c i k := by
  obtain ⟨e0, e1, -⟩ := idx_facts t
  show V c (Pipeline.arrRef spec2 0) (((cfg2.win 0).blk t).view.emb (ix2 r k)) = V c (Pipeline.arrRef spec2 0) (ix2 i k)
  refine congrArg (V c (Pipeline.arrRef spec2 0)) ?_
  funext a; apply Fin.ext
  match a with
  | ⟨0, _⟩ => show win2_0.index t (0 : Fin 2) * 5000 + 1 * r.val = i.val; rw [e0, hi]; omega
  | ⟨1, _⟩ => show win2_0.index t (1 : Fin 2) * 128 + 1 * k.val = k.val; rw [e1]; omega

/-- The same for the node rows. -/
theorem blkH_apply (t : Fin cfg2.N) (r : Fin 5000) (k : Fin 128) (i : Fin 100000) (hi : i.val = t.val * 5000 + r.val) :
    blkH V c t (ix2 r k) = arrH V c i k := by
  obtain ⟨-, -, e0, e1, -⟩ := idx_facts t
  show V c (Pipeline.arrRef spec2 1) (((cfg2.win 1).blk t).view.emb (ix2 r k)) = V c (Pipeline.arrRef spec2 1) (ix2 i k)
  refine congrArg (V c (Pipeline.arrRef spec2 1)) ?_
  funext a; apply Fin.ext
  match a with
  | ⟨0, _⟩ => show win2_1.index t (0 : Fin 2) * 5000 + 1 * r.val = i.val; rw [e0, hi]; omega
  | ⟨1, _⟩ => show win2_1.index t (1 : Fin 2) * 128 + 1 * k.val = k.val; rw [e1]; omega

/-- Each weight matrix is one block: the block is the array. -/
theorem blkW_apply (t : Fin cfg2.N) (k q : Fin 128) : blkW V c t (ix2 k q) = arrW V c k q := by
  obtain ⟨-, -, -, -, e0, e1, -⟩ := idx_facts t
  show V c (Pipeline.arrRef spec2 2) (((cfg2.win 2).blk t).view.emb (ix2 k q)) = V c (Pipeline.arrRef spec2 2) (ix2 k q)
  refine congrArg (V c (Pipeline.arrRef spec2 2)) ?_
  funext a; apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

theorem blkL_apply (t : Fin cfg2.N) (k q : Fin 128) : blkL V c t (ix2 k q) = arrL V c k q := by
  obtain ⟨-, -, -, -, -, -, e0, e1, -⟩ := idx_facts t
  show V c (Pipeline.arrRef spec2 3) (((cfg2.win 3).blk t).view.emb (ix2 k q)) = V c (Pipeline.arrRef spec2 3) (ix2 k q)
  refine congrArg (V c (Pipeline.arrRef spec2 3)) ?_
  funext a; apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The block the body computes at point `t` is the linear layer's rows `t·5000 …`: row `r` of the block is row
    `t·5000 + r` of the layer. -/
theorem y_block (t : Fin cfg2.N) (r : Fin 5000) (q : Fin 128) (i : Fin 100000) (hi : i.val = t.val * 5000 + r.val) :
    k2_pay3 (F := Ideal) (blkA V c t) (blkH V c t) (blkW V c t) (blkL V c t) (ix2 r q) = linY V c i q := by
  refine (pay3_apply _ _ _ _ r q).trans ?_
  show _ = (∑ k : Fin 128, arrA V c i k * arrW V c k q) + ∑ k : Fin 128, arrH V c i k * arrL V c k q
  refine congrArg₂ (· + ·) (Finset.sum_congr rfl fun k _ => ?_) (Finset.sum_congr rfl fun k _ => ?_)
  · rw [blkA_apply V c t r k i hi, blkW_apply V c t k q]
  · rw [blkH_apply V c t r k i hi, blkL_apply V c t k q]

/-- What the three outputs hold after the first point, as the body's arithmetic of the point's blocks. -/
theorem outsAt_first (t : Fin cfg2.N) (h0 : t.val % 20 = 0) :
    outsAt2 V c t.val t.isLt = (k2_pay3 (F := Ideal) (blkA V c t) (blkH V c t) (blkW V c t) (blkL V c t), k2_pay4 (F := Ideal) (blkA V c t) (blkH V c t) (blkW V c t) (blkL V c t) (k2_pay1 (F := Ideal)), k2_pay5 (F := Ideal) (blkA V c t) (blkH V c t) (blkW V c t) (blkL V c t) (k2_pay2 (F := Ideal))) := by
  rw [outsAt2_A V c t h0]
  exact congrArg₂ Prod.mk
    (outA4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
    (congrArg₂ Prod.mk
      (outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
      (outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t)))

/-- What they hold after a later point, over what the point before left in the two running sums. -/
theorem outsAt_later (t : Fin cfg2.N) (h0 : ¬t.val % 20 = 0) :
    outsAt2 V c t.val t.isLt = (k2_pay3 (F := Ideal) (blkA V c t) (blkH V c t) (blkW V c t) (blkL V c t),
      k2_pay4 (F := Ideal) (blkA V c t) (blkH V c t) (blkW V c t) (blkL V c t) (outsAt2 V c (t.val - 1) (Nat.lt_of_le_of_lt (Nat.sub_le _ _) t.isLt)).2.1,
      k2_pay5 (F := Ideal) (blkA V c t) (blkH V c t) (blkW V c t) (blkL V c t) (outsAt2 V c (t.val - 1) (Nat.lt_of_le_of_lt (Nat.sub_le _ _) t.isLt)).2.2) := by
  rw [outsAt2_B V c t h0]
  exact congrArg₂ Prod.mk
    (outB4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
      (outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2))

/-- Output 4 after any point is the body's block of that point. -/
theorem out4_eq (t : Fin cfg2.N) : (outsAt2 V c t.val t.isLt).1 = k2_pay3 (F := Ideal) (blkA V c t) (blkH V c t) (blkW V c t) (blkL V c t) := by
  by_cases h0 : t.val % 20 = 0
  · exact congrArg Prod.fst (outsAt_first V c t h0)
  · exact congrArg Prod.fst (outsAt_later V c t h0)

/-- The column sum of block `t` of the layer as the body forms it is the block sum of the layer's column. -/
theorem block_colSum (t : Fin cfg2.N) (q : Fin 128) :
    (∑ r : Fin 5000, k2_pay3 (F := Ideal) (blkA V c t) (blkH V c t) (blkW V c t) (blkL V c t) (ix2 r q)) = blockSum (fun i => linY V c i q) t.val := by
  have hN : cfg2.N = 20 := N_2
  have ht : t.val < 20 := hN ▸ t.isLt
  unfold blockSum
  rw [dif_pos ht]
  exact Finset.sum_congr rfl fun r _ => y_block V c t r q (blockRow ⟨t.val, ht⟩ r) rfl

theorem block_colSumSq (t : Fin cfg2.N) (q : Fin 128) :
    (∑ r : Fin 5000, k2_pay3 (F := Ideal) (blkA V c t) (blkH V c t) (blkW V c t) (blkL V c t) (ix2 r q) * k2_pay3 (F := Ideal) (blkA V c t) (blkH V c t) (blkW V c t) (blkL V c t) (ix2 r q))
      = blockSum (fun i => linY V c i q * linY V c i q) t.val := by
  have hN : cfg2.N = 20 := N_2
  have ht : t.val < 20 := hN ▸ t.isLt
  unfold blockSum
  rw [dif_pos ht]
  exact Finset.sum_congr rfl fun r _ => by rw [y_block V c t r q (blockRow ⟨t.val, ht⟩ r) rfl]

/-- THE INVARIANT. After point `t` the two running sums hold, in each column, the sum of the layer's column (of its
    squares) over the blocks 0 … t: the first point adds its block to the zero row, every later one to what was there. -/
theorem acc_eq (u : Fin 1) (q : Fin 128) : ∀ (n : ℕ) (t : Fin cfg2.N), t.val = n →
    (outsAt2 V c t.val t.isLt).2.1 (ix2 u q) = ∑ b ∈ Finset.range (t.val + 1), blockSum (fun i => linY V c i q) b
    ∧ (outsAt2 V c t.val t.isLt).2.2 (ix2 u q) = ∑ b ∈ Finset.range (t.val + 1), blockSum (fun i => linY V c i q * linY V c i q) b
  | 0, t, ht => by
    have h0 : t.val % 20 = 0 := by rw [ht]
    rw [outsAt_first V c t h0]
    dsimp only
    refine ⟨(pay4_apply _ _ _ _ _ u q).trans ?_, (pay5_apply _ _ _ _ _ u q).trans ?_⟩
    · rw [pay1_apply, zero_add, ht, Finset.sum_range_one, ← ht]
      exact block_colSum V c t q
    · rw [pay2_apply, zero_add, ht, Finset.sum_range_one, ← ht]
      exact block_colSumSq V c t q
  | n + 1, t, ht => by
    have hN : cfg2.N = 20 := N_2
    have hlt : t.val < 20 := hN ▸ t.isLt
    have h0 : ¬t.val % 20 = 0 := by omega
    obtain ⟨ih1, ih2⟩ := acc_eq u q n ⟨t.val - 1, Nat.lt_of_le_of_lt (Nat.sub_le _ _) t.isLt⟩ (by dsimp only; omega)
    rw [outsAt_later V c t h0]
    dsimp only at ih1 ih2 ⊢
    refine ⟨(pay4_apply _ _ _ _ _ u q).trans ?_, (pay5_apply _ _ _ _ _ u q).trans ?_⟩
    · rw [ih1, show t.val - 1 + 1 = t.val from by omega, Finset.sum_range_succ _ t.val]
      exact congrArg _ (block_colSum V c t q)
    · rw [ih2, show t.val - 1 + 1 = t.val from by omega, Finset.sum_range_succ _ t.val]
      exact congrArg _ (block_colSumSq V c t q)

end Region

/-! ## From the blocks to the three arrays

Output 4 is written back at every point, block `t` to rows `t·5000 …`; the twenty blocks tile the array. Outputs 5
and 6 are one block each, written back once, after the last point, when the running sums are complete. -/

section Arrays
variable (V : (c : Dev nD) → (b : Ref sig .tc) → Buf (Elt Ideal) ((c : Thread nD τ).loc b)) (c : Dev nD)

/-- An entry of the block computed at point `t` is the layer's entry at the array index it is written to. -/
theorem y_entry (t : Fin cfg2.N) (y : S5000x128.Idx) (i : S100000x128.Idx)
    (h0 : (i 0).val = t.val * 5000 + (y 0).val) (h1 : (i 1).val = (y 1).val) :
    k2_pay3 (F := Ideal) (blkA V c t) (blkH V c t) (blkW V c t) (blkL V c t) y = Spec.arr2 (linY V c) i := by
  obtain ⟨r, q, rfl⟩ : ∃ (r : Fin 5000) (q : Fin 128), y = ix2 r q := ⟨y 0, y 1, eq_ix2 y⟩
  obtain ⟨i0, i1, rfl⟩ : ∃ (i0 : Fin 100000) (i1 : Fin 128), i = ix2 i0 i1 := ⟨i 0, i 1, eq_ix2 i⟩
  obtain rfl : q = i1 := (Fin.ext h1).symm
  show k2_pay3 (F := Ideal) (blkA V c t) (blkH V c t) (blkW V c t) (blkL V c t) (ix2 r q) = linY V c i0 q
  exact y_block V c t r q i0 h0

/-- What point `t` writes back to output 4 is block `t` of the linear layer. -/
theorem flushed4_eq (t : Fin cfg2.N) (hf : (cfg2.win 4).flush t = true) :
    (dat2 V c).flushed 4 t = ((cfg2.win 4).blk t).view.read (Elt Ideal) (Spec.arr2 (linY V c)) := by
  show (cfg2.win 4).cut (grid2.coords t) ((dat2 V c).after 4 t) = _
  rw [after2_4, out4_eq]
  obtain ⟨-, -, -, -, -, -, -, -, e0, e1⟩ := idx_facts t
  funext y
  show k2_pay3 (F := Ideal) (blkA V c t) (blkH V c t) (blkW V c t) (blkL V c t) y = Spec.arr2 (linY V c) (((cfg2.win 4).blk t).view.emb y)
  refine y_entry V c t y _ ?_ ?_
  · show win2_4.index t (0 : Fin 2) * 5000 + 1 * (y 0).val = t.val * 5000 + (y 0).val
    rw [e0]; omega
  · show win2_4.index t (1 : Fin 2) * 128 + 1 * (y 1).val = (y 1).val
    rw [e1]; omega

/-- A row of the array lies in the block of the point whose number is the row divided by 5000. -/
theorem mem_blk4 (t : Fin cfg2.N) (i : S100000x128.Idx) (h : t.val * 5000 ≤ (i 0).val ∧ (i 0).val < t.val * 5000 + 5000) :
    i ∈ ((cfg2.win 4).blk t).view.set := by
  obtain ⟨-, -, -, -, -, -, -, -, e0, e1⟩ := idx_facts t
  show i ∈ ((View.whole main_v62_0).slice (win2_4.rect t)).set
  rw [View.set_slice_whole, Rect.mem_set_unit]
  intro a
  have h1 : (i 1 : Nat) < 128 := (i 1).isLt
  match a with
  | ⟨0, _⟩ =>
    show win2_4.index t (0 : Fin 2) * 5000 ≤ (i 0 : Nat) ∧ (i 0 : Nat) < win2_4.index t (0 : Fin 2) * 5000 + 5000
    rw [e0]; exact h
  | ⟨1, _⟩ =>
    show win2_4.index t (1 : Fin 2) * 128 ≤ (i 1 : Nat) ∧ (i 1 : Nat) < win2_4.index t (1 : Fin 2) * 128 + 128
    rw [e1]; omega

/-- The block indices of the two sum windows, decided over the grid: always block 0. -/
theorem idx_facts56 : ∀ t : Fin cfg2.N, win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- After the last point an entry of the first running sum is the layer's column sum. -/
theorem sum_entry (t : Fin cfg2.N) (h19 : t.val = 19) (y i : S1x128.Idx) (h1 : (i 1).val = (y 1).val) :
    (outsAt2 V c t.val t.isLt).2.1 y = Spec.arrRow (Spec.colSum (linY V c)) i := by
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext h1
  refine (acc_eq V c u q' 19 t h19).1.trans ?_
  rw [h19]
  exact sum_range_blocks fun i => linY V c i q'

/-- After the last point an entry of the second running sum is the layer's column sum of squares. -/
theorem sumsq_entry (t : Fin cfg2.N) (h19 : t.val = 19) (y i : S1x128.Idx) (h1 : (i 1).val = (y 1).val) :
    (outsAt2 V c t.val t.isLt).2.2 y = Spec.arrRow (Spec.colSumSq (linY V c)) i := by
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext h1
  refine (acc_eq V c u q' 19 t h19).2.trans ?_
  rw [h19]
  exact sum_range_blocks fun i => linY V c i q' * linY V c i q'

/-- Outputs 5 and 6 are each one block that is the whole array: what a point would write back to the array is, entry
    by entry, what the running sum holds, whatever row that is called (`G`, kept abstract so that the sum over all
    rows is never opened). -/
theorem flushed5_of (t : Fin cfg2.N) (G : S1x128.Idx → EReal)
    (hG : ∀ y i : S1x128.Idx, (i 1).val = (y 1).val → (outsAt2 V c t.val t.isLt).2.1 y = G i) :
    (dat2 V c).flushed 5 t = ((cfg2.win 5).blk t).view.read (Elt Ideal) G := by
  show (cfg2.win 5).cut (grid2.coords t) ((dat2 V c).after 5 t) = _
  rw [after2_5]
  obtain ⟨e0, e1, -⟩ := idx_facts56 t
  funext y
  show (outsAt2 V c t.val t.isLt).2.1 y = G (((cfg2.win 5).blk t).view.emb y)
  refine hG y _ ?_
  show win2_5.index t (1 : Fin 2) * 128 + 1 * (y 1).val = (y 1).val
  rw [e1]; omega

theorem flushed6_of (t : Fin cfg2.N) (G : S1x128.Idx → EReal)
    (hG : ∀ y i : S1x128.Idx, (i 1).val = (y 1).val → (outsAt2 V c t.val t.isLt).2.2 y = G i) :
    (dat2 V c).flushed 6 t = ((cfg2.win 6).blk t).view.read (Elt Ideal) G := by
  show (cfg2.win 6).cut (grid2.coords t) ((dat2 V c).after 6 t) = _
  rw [after2_6]
  obtain ⟨-, -, e0, e1⟩ := idx_facts56 t
  funext y
  show (outsAt2 V c t.val t.isLt).2.2 y = G (((cfg2.win 6).blk t).view.emb y)
  refine hG y _ ?_
  show win2_6.index t (1 : Fin 2) * 128 + 1 * (y 1).val = (y 1).val
  rw [e1]; omega

/-- The one write-back of output 5, after the last point, writes the column sums. -/
theorem flushed5_eq (t : Fin cfg2.N) (hf : (cfg2.win 5).flush t = true) :
    (dat2 V c).flushed 5 t = ((cfg2.win 5).blk t).view.read (Elt Ideal) (Spec.arrRow (Spec.colSum (linY V c))) := by
  have hN : cfg2.N = 20 := N_2
  have h19 : t.val = 19 := by have := (flush2_5 t).mp hf; have := t.isLt; omega
  exact flushed5_of V c t _ (sum_entry V c t h19)

/-- The one write-back of output 6, after the last point, writes the column sums of squares. -/
theorem flushed6_eq (t : Fin cfg2.N) (hf : (cfg2.win 6).flush t = true) :
    (dat2 V c).flushed 6 t = ((cfg2.win 6).blk t).view.read (Elt Ideal) (Spec.arrRow (Spec.colSumSq (linY V c))) := by
  have hN : cfg2.N = 20 := N_2
  have h19 : t.val = 19 := by have := (flush2_6 t).mp hf; have := t.isLt; omega
  exact flushed6_of V c t _ (sumsq_entry V c t h19)

/-- Each of the two sum arrays is one block, at every point. -/
theorem mem_blk5 (t : Fin cfg2.N) (i : S1x128.Idx) : i ∈ ((cfg2.win 5).blk t).view.set := by
  obtain ⟨e0, e1, -⟩ := idx_facts56 t
  show i ∈ ((View.whole main_v62_1).slice (win2_5.rect t)).set
  rw [View.set_slice_whole, Rect.mem_set_unit]
  intro a
  have h0 : (i 0 : Nat) < 1 := (i 0).isLt
  have h1 : (i 1 : Nat) < 128 := (i 1).isLt
  match a with
  | ⟨0, _⟩ =>
    show win2_5.index t (0 : Fin 2) * 1 ≤ (i 0 : Nat) ∧ (i 0 : Nat) < win2_5.index t (0 : Fin 2) * 1 + 1
    rw [e0]; omega
  | ⟨1, _⟩ =>
    show win2_5.index t (1 : Fin 2) * 128 ≤ (i 1 : Nat) ∧ (i 1 : Nat) < win2_5.index t (1 : Fin 2) * 128 + 128
    rw [e1]; omega

theorem mem_blk6 (t : Fin cfg2.N) (i : S1x128.Idx) : i ∈ ((cfg2.win 6).blk t).view.set := by
  obtain ⟨-, -, e0, e1⟩ := idx_facts56 t
  show i ∈ ((View.whole main_v62_2).slice (win2_6.rect t)).set
  rw [View.set_slice_whole, Rect.mem_set_unit]
  intro a
  have h0 : (i 0 : Nat) < 1 := (i 0).isLt
  have h1 : (i 1 : Nat) < 128 := (i 1).isLt
  match a with
  | ⟨0, _⟩ =>
    show win2_6.index t (0 : Fin 2) * 1 ≤ (i 0 : Nat) ∧ (i 0 : Nat) < win2_6.index t (0 : Fin 2) * 1 + 1
    rw [e0]; omega
  | ⟨1, _⟩ =>
    show win2_6.index t (1 : Fin 2) * 128 ≤ (i 1 : Nat) ∧ (i 1 : Nat) < win2_6.index t (1 : Fin 2) * 128 + 128
    rw [e1]; omega

/-- The last grid point. -/
def lastPoint : Fin cfg2.N := ⟨19, by rw [show cfg2.N = 20 from N_2]; decide⟩

end Arrays

end Cert.KernelIdeal.RegionValue.Stats2

namespace Cert.KernelIdeal.RegionValue

open Cert.KernelIdeal Cert.KernelIdeal.Gen Cert.KernelIdeal.RegionValue.Stats Cert.KernelIdeal.RegionValue.Stats2

variable (V : (c : Dev nD) → (b : Ref sig .tc) → Buf (Elt Ideal) ((c : Thread nD τ).loc b)) (c : Dev nD)

/-- THE LINEAR LAYER. After the region the first result array holds Y = A·W + H·L of the arrays the region found. -/
theorem region2_y :
    (Gen.dat2 (F := Ideal) V c).arrAt 4 cfg2.N
      = Spec.arr2 (Spec.lin (Spec.mat (V c (Pipeline.arrRef spec2 0))) (Spec.mat (V c (Pipeline.arrRef spec2 1))) (Spec.mat (V c (Pipeline.arrRef spec2 2))) (Spec.mat (V c (Pipeline.arrRef spec2 3)))) :=
  (dat2 V c).arrAt_eq_of_cover 4 (Spec.arr2 (linY V c)) (flushed4_eq V c) fun i => by
    have hN : cfg2.N = 20 := N_2
    have hi : (i 0 : Nat) < 100000 := (i 0).isLt
    exact ⟨⟨(i 0 : Nat) / 5000, by rw [hN]; omega⟩, flush2_4 _, mem_blk4 _ i (by dsimp only; omega)⟩

/-- THE COLUMN SUMS. The second result array holds, in each column, the sum of Y's column over all 100000 rows. -/
theorem region2_sum :
    (Gen.dat2 (F := Ideal) V c).arrAt 5 cfg2.N
      = Spec.arrRow (Spec.colSum (Spec.lin (Spec.mat (V c (Pipeline.arrRef spec2 0))) (Spec.mat (V c (Pipeline.arrRef spec2 1))) (Spec.mat (V c (Pipeline.arrRef spec2 2))) (Spec.mat (V c (Pipeline.arrRef spec2 3))))) :=
  (dat2 V c).arrAt_eq_of_cover 5 (Spec.arrRow (Spec.colSum (linY V c))) (flushed5_eq V c) fun i =>
    ⟨lastPoint, (flush2_5 lastPoint).mpr rfl, mem_blk5 lastPoint i⟩

/-- THE COLUMN SUMS OF SQUARES. The third result array holds, in each column, the sum of the squares of Y's column. -/
theorem region2_sumsq :
    (Gen.dat2 (F := Ideal) V c).arrAt 6 cfg2.N
      = Spec.arrRow (Spec.colSumSq (Spec.lin (Spec.mat (V c (Pipeline.arrRef spec2 0))) (Spec.mat (V c (Pipeline.arrRef spec2 1))) (Spec.mat (V c (Pipeline.arrRef spec2 2))) (Spec.mat (V c (Pipeline.arrRef spec2 3))))) :=
  (dat2 V c).arrAt_eq_of_cover 6 (Spec.arrRow (Spec.colSumSq (linY V c))) (flushed6_eq V c) fun i =>
    ⟨lastPoint, (flush2_6 lastPoint).mpr rfl, mem_blk6 lastPoint i⟩

end Cert.KernelIdeal.RegionValue

end
-- ==== Proof.NormRegion1.lean ====
/-
  One normalise-scale-shift-clip layer, read off the blocks the pipeline moves.

  The 100000 rows are cut into 20 blocks of 5000 rows; grid point t works on block t.  Each of the mean, variance,
  scale and shift rows is one block, the same at every point.  At point t the body computes, for row p of the block
  and column q,  max(((y − mean)·rsqrt(var + eps))·g + be, 0)  with the four rows repeated down the block; row p of
  block t is row 5000·t + p of the array, so what point t writes back is block t of the array whose entry (r, q) is
  Spec.normAct at (r, q).  The blocks written back tile the array (row r lies in block r / 5000), hence the array
  after the run is that function everywhere.
-/
import proofs.«163791_j23218593202704_1_alg».proof.Proof.Gen.KernelIdeal.Frame
import proofs.«163791_j23218593202704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem hz1 : (![0, 0] : Fin 2 → Nat) = fun _ => 0 := funext fun a => by fin_cases a <;> rfl

/-- The body's arithmetic at row p, column q of a block: the four one-row operands are read at column q. -/
theorem pay1_apply (y : Vec Ideal S5000x128 .f32) (vr mn g be : Vec Ideal S1x128 .f32) (p : Fin 5000) (q : Fin 128) :
    k1_pay1 y vr mn g be (ix2 p q)
      = max ((y (ix2 p q) - mn (ix2 (0 : Fin 1) q)) * Ideal.rsqrt (vr (ix2 (0 : Fin 1) q) + Spec.eps) * g (ix2 (0 : Fin 1) q) + be (ix2 (0 : Fin 1) q)) 0 := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rw [show (FloatOps.ofBits FTy.f32 0#32 : Ideal .f32) = 0 from Ideal.ofBits_zero_f32]
  rfl

/-- The block indices, decided over the 20 grid points: the row-block windows (input 0, output 5) are at block (t, 0),
    the four one-row windows at block (0, 0). -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p, column q of input block t is row 5000·t + p, column q of the array. -/
theorem blk1_0_apply (c : Dev nD) (t : Fin cfg1.N) (p : Fin 5000) (q : Fin 128) (r : Fin 100000)
    (hr : r.val = t.val * 5000 + p.val) :
    (iblk1 V c 0 t : Vec Ideal S5000x128 .f32) (ix2 p q)
      = (V c (Pipeline.arrRef spec1 0) : S100000x128.Idx → EReal) (ix2 r q) := by
  obtain ⟨e0, e1, -⟩ := idx_facts1 t
  unfold iblk1
  show (V c (Pipeline.arrRef spec1 0) : S100000x128.Idx → EReal) (((cfg1.win 0).blk t).view.emb (ix2 p q)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- The one block of one-row window 1 is its whole array. -/
theorem blk1_1_apply (c : Dev nD) (t : Fin cfg1.N) (q : Fin 128) :
    (iblk1 V c 1 t : Vec Ideal S1x128 .f32) (ix2 (0 : Fin 1) q)
      = (V c (Pipeline.arrRef spec1 1) : S1x128.Idx → EReal) (ix2 (0 : Fin 1) q) := by
  obtain ⟨-, -, -, -, e10, e11, -⟩ := idx_facts1 t
  unfold iblk1
  show (V c (Pipeline.arrRef spec1 1) : S1x128.Idx → EReal) (((cfg1.win 1).blk t).view.emb (ix2 (0 : Fin 1) q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The one block of one-row window 2 is its whole array. -/
theorem blk1_2_apply (c : Dev nD) (t : Fin cfg1.N) (q : Fin 128) :
    (iblk1 V c 2 t : Vec Ideal S1x128 .f32) (ix2 (0 : Fin 1) q)
      = (V c (Pipeline.arrRef spec1 2) : S1x128.Idx → EReal) (ix2 (0 : Fin 1) q) := by
  obtain ⟨-, -, -, -, -, -, e20, e21, -⟩ := idx_facts1 t
  unfold iblk1
  show (V c (Pipeline.arrRef spec1 2) : S1x128.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The one block of one-row window 3 is its whole array. -/
theorem blk1_3_apply (c : Dev nD) (t : Fin cfg1.N) (q : Fin 128) :
    (iblk1 V c 3 t : Vec Ideal S1x128 .f32) (ix2 (0 : Fin 1) q)
      = (V c (Pipeline.arrRef spec1 3) : S1x128.Idx → EReal) (ix2 (0 : Fin 1) q) := by
  obtain ⟨-, -, -, -, -, -, -, -, e30, e31, -⟩ := idx_facts1 t
  unfold iblk1
  show (V c (Pipeline.arrRef spec1 3) : S1x128.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The one block of one-row window 4 is its whole array. -/
theorem blk1_4_apply (c : Dev nD) (t : Fin cfg1.N) (q : Fin 128) :
    (iblk1 V c 4 t : Vec Ideal S1x128 .f32) (ix2 (0 : Fin 1) q)
      = (V c (Pipeline.arrRef spec1 4) : S1x128.Idx → EReal) (ix2 (0 : Fin 1) q) := by
  obtain ⟨-, -, -, -, -, -, -, -, -, -, e40, e41⟩ := idx_facts1 t
  unfold iblk1
  show (V c (Pipeline.arrRef spec1 4) : S1x128.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The layer's result as one array: entry (r, q) is the normalised, scaled, shifted and clipped entry of the
    region's five operand arrays. -/
abbrev result1 (c : Dev nD) : S100000x128.Idx → EReal :=
  Spec.arr2 (Spec.normAct (Spec.mat (V c (Pipeline.arrRef spec1 0))) (Spec.row (V c (Pipeline.arrRef spec1 1)))
    (Spec.row (V c (Pipeline.arrRef spec1 2))) (Spec.row (V c (Pipeline.arrRef spec1 3))) (Spec.row (V c (Pipeline.arrRef spec1 4))))

/-- What point t writes back is block t of the result array. -/
theorem flushed1_eq (c : Dev nD) (t : Fin cfg1.N) :
    (dat1 V c).flushed 5 t = ((cfg1.win 5).blk t).view.read (Elt Ideal) (result1 V c) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S1x128) hz1]
  funext j
  obtain ⟨p, q, rfl⟩ : ∃ (p : Fin 5000) (q : Fin 128), j = ix2 p q := ⟨j 0, j 1, eq_ix2 j⟩
  have ht : t.val < 20 := lt_of_lt_of_eq t.isLt N_1
  have hp : p.val < 5000 := p.isLt
  obtain ⟨-, -, e50, e51, -⟩ := idx_facts1 t
  have hemb : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [View.read_apply, hemb]
  show k1_pay1 (iblk1 V c 0 t) (iblk1 V c 2 t) (iblk1 V c 1 t) (iblk1 V c 3 t) (iblk1 V c 4 t) (ix2 p q) = _
  rw [pay1_apply, blk1_0_apply V c t p q ⟨t.val * 5000 + p.val, by omega⟩ rfl, blk1_1_apply, blk1_2_apply,
    blk1_3_apply, blk1_4_apply]
  rfl

/-- A row of the array lies in point t's block iff it is one of the 5000 rows from 5000·t on. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Every entry of the array is written back by some point: row r by point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := by rw [show cfg1.N = 20 from N_1]; omega
  obtain ⟨-, -, e50, e51, -⟩ := idx_facts1 ⟨(i 0).val / 5000, hN⟩
  have e50' : win1_5.index ⟨(i 0).val / 5000, hN⟩ (0 : Fin 2) = (i 0).val / 5000 := e50
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    omega

/-- THE LAYER'S OUTPUT ARRAY after the region: the normalised, scaled, shifted and clipped entries of the operand
    arrays as the region finds them. -/
theorem region1_out (c : Dev nD) :
    (Gen.dat1 (F := Ideal) V c).arrAt 5 cfg1.N
      = Spec.arr2 (Spec.normAct (Spec.mat (V c (Pipeline.arrRef spec1 0))) (Spec.row (V c (Pipeline.arrRef spec1 1)))
          (Spec.row (V c (Pipeline.arrRef spec1 2))) (Spec.row (V c (Pipeline.arrRef spec1 3))) (Spec.row (V c (Pipeline.arrRef spec1 4)))) :=
  (dat1 V c).arrAt_eq_of_cover 5 (result1 V c) (fun t _ => flushed1_eq V c t) cover1

end Cert.KernelIdeal.RegionValue

end
-- ==== Proof.NormRegion3.lean ====
/-
  One normalise-scale-shift-clip layer, read off the blocks the pipeline moves.

  The 100000 rows are cut into 20 blocks of 5000 rows; grid point t works on block t.  Each of the mean, variance,
  scale and shift rows is one block, the same at every point.  At point t the body computes, for row p of the block
  and column q,  max(((y − mean)·rsqrt(var + eps))·g + be, 0)  with the four rows repeated down the block; row p of
  block t is row 5000·t + p of the array, so what point t writes back is block t of the array whose entry (r, q) is
  Spec.normAct at (r, q).  The blocks written back tile the array (row r lies in block r / 5000), hence the array
  after the run is that function everywhere.
-/
import proofs.«163791_j23218593202704_1_alg».proof.Proof.Gen.KernelIdeal.Frame
import proofs.«163791_j23218593202704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access, as a constant function. -/
theorem hz3 : (![0, 0] : Fin 2 → Nat) = fun _ => 0 := funext fun a => by fin_cases a <;> rfl

/-- The body's arithmetic at row p, column q of a block: the four one-row operands are read at column q. -/
theorem pay3_apply (y : Vec Ideal S5000x128 .f32) (vr mn g be : Vec Ideal S1x128 .f32) (p : Fin 5000) (q : Fin 128) :
    k3_pay1 y vr mn g be (ix2 p q)
      = max ((y (ix2 p q) - mn (ix2 (0 : Fin 1) q)) * Ideal.rsqrt (vr (ix2 (0 : Fin 1) q) + Spec.eps) * g (ix2 (0 : Fin 1) q) + be (ix2 (0 : Fin 1) q)) 0 := by
  unfold k3_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  rw [show (FloatOps.ofBits FTy.f32 0#32 : Ideal .f32) = 0 from Ideal.ofBits_zero_f32]
  rfl

/-- The block indices, decided over the 20 grid points: the row-block windows (input 0, output 5) are at block (t, 0),
    the four one-row windows at block (0, 0). -/
theorem idx_facts3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row p, column q of input block t is row 5000·t + p, column q of the array. -/
theorem blk3_0_apply (c : Dev nD) (t : Fin cfg3.N) (p : Fin 5000) (q : Fin 128) (r : Fin 100000)
    (hr : r.val = t.val * 5000 + p.val) :
    (iblk3 V c 0 t : Vec Ideal S5000x128 .f32) (ix2 p q)
      = (V c (Pipeline.arrRef spec3 0) : S100000x128.Idx → EReal) (ix2 r q) := by
  obtain ⟨e0, e1, -⟩ := idx_facts3 t
  unfold iblk3
  show (V c (Pipeline.arrRef spec3 0) : S100000x128.Idx → EReal) (((cfg3.win 0).blk t).view.emb (ix2 p q)) = _
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- The one block of one-row window 1 is its whole array. -/
theorem blk3_1_apply (c : Dev nD) (t : Fin cfg3.N) (q : Fin 128) :
    (iblk3 V c 1 t : Vec Ideal S1x128 .f32) (ix2 (0 : Fin 1) q)
      = (V c (Pipeline.arrRef spec3 1) : S1x128.Idx → EReal) (ix2 (0 : Fin 1) q) := by
  obtain ⟨-, -, -, -, e10, e11, -⟩ := idx_facts3 t
  unfold iblk3
  show (V c (Pipeline.arrRef spec3 1) : S1x128.Idx → EReal) (((cfg3.win 1).blk t).view.emb (ix2 (0 : Fin 1) q)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- The one block of one-row window 2 is its whole array. -/
theorem blk3_2_apply (c : Dev nD) (t : Fin cfg3.N) (q : Fin 128) :
    (iblk3 V c 2 t : Vec Ideal S1x128 .f32) (ix2 (0 : Fin 1) q)
      = (V c (Pipeline.arrRef spec3 2) : S1x128.Idx → EReal) (ix2 (0 : Fin 1) q) := by
  obtain ⟨-, -, -, -, -, -, e20, e21, -⟩ := idx_facts3 t
  unfold iblk3
  show (V c (Pipeline.arrRef spec3 2) : S1x128.Idx → EReal) (((cfg3.win 2).blk t).view.emb (ix2 (0 : Fin 1) q)) = _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- The one block of one-row window 3 is its whole array. -/
theorem blk3_3_apply (c : Dev nD) (t : Fin cfg3.N) (q : Fin 128) :
    (iblk3 V c 3 t : Vec Ideal S1x128 .f32) (ix2 (0 : Fin 1) q)
      = (V c (Pipeline.arrRef spec3 3) : S1x128.Idx → EReal) (ix2 (0 : Fin 1) q) := by
  obtain ⟨-, -, -, -, -, -, -, -, e30, e31, -⟩ := idx_facts3 t
  unfold iblk3
  show (V c (Pipeline.arrRef spec3 3) : S1x128.Idx → EReal) (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The one block of one-row window 4 is its whole array. -/
theorem blk3_4_apply (c : Dev nD) (t : Fin cfg3.N) (q : Fin 128) :
    (iblk3 V c 4 t : Vec Ideal S1x128 .f32) (ix2 (0 : Fin 1) q)
      = (V c (Pipeline.arrRef spec3 4) : S1x128.Idx → EReal) (ix2 (0 : Fin 1) q) := by
  obtain ⟨-, -, -, -, -, -, -, -, -, -, e40, e41⟩ := idx_facts3 t
  unfold iblk3
  show (V c (Pipeline.arrRef spec3 4) : S1x128.Idx → EReal) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- The layer's result as one array: entry (r, q) is the normalised, scaled, shifted and clipped entry of the
    region's five operand arrays. -/
abbrev result3 (c : Dev nD) : S100000x128.Idx → EReal :=
  Spec.arr2 (Spec.normAct (Spec.mat (V c (Pipeline.arrRef spec3 0))) (Spec.row (V c (Pipeline.arrRef spec3 1)))
    (Spec.row (V c (Pipeline.arrRef spec3 2))) (Spec.row (V c (Pipeline.arrRef spec3 3))) (Spec.row (V c (Pipeline.arrRef spec3 4))))

/-- What point t writes back is block t of the result array. -/
theorem flushed3_eq (c : Dev nD) (t : Fin cfg3.N) :
    (dat3 V c).flushed 5 t = ((cfg3.win 5).blk t).view.read (Elt Ideal) (result3 V c) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S1x128) hz3]
  funext j
  obtain ⟨p, q, rfl⟩ : ∃ (p : Fin 5000) (q : Fin 128), j = ix2 p q := ⟨j 0, j 1, eq_ix2 j⟩
  have ht : t.val < 20 := lt_of_lt_of_eq t.isLt N_3
  have hp : p.val < 5000 := p.isLt
  obtain ⟨-, -, e50, e51, -⟩ := idx_facts3 t
  have hemb : ((cfg3.win 5).blk t).view.emb (ix2 p q) = ix2 (⟨t.val * 5000 + p.val, by omega⟩ : Fin 100000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  rw [View.read_apply, hemb]
  show k3_pay1 (iblk3 V c 0 t) (iblk3 V c 2 t) (iblk3 V c 1 t) (iblk3 V c 3 t) (iblk3 V c 4 t) (ix2 p q) = _
  rw [pay3_apply, blk3_0_apply V c t p q ⟨t.val * 5000 + p.val, by omega⟩ rfl, blk3_1_apply, blk3_2_apply,
    blk3_3_apply, blk3_4_apply]
  rfl

/-- A row of the array lies in point t's block iff it is one of the 5000 rows from 5000·t on. -/
theorem mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v69).slice (win3_5.rect t)).set ↔ _
  rw [View.set_slice_whole, Rect.mem_set_unit]
  exact Iff.rfl

/-- Every entry of the array is written back by some point: row r by point r / 5000. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : (i 0).val / 5000 < cfg3.N := by rw [show cfg3.N = 20 from N_3]; omega
  obtain ⟨-, -, e50, e51, -⟩ := idx_facts3 ⟨(i 0).val / 5000, hN⟩
  have e50' : win3_5.index ⟨(i 0).val / 5000, hN⟩ (0 : Fin 2) = (i 0).val / 5000 := e50
  refine ⟨⟨(i 0).val / 5000, hN⟩, flush3_5 _, ?_⟩
  rw [mem_blk3]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    omega
  | ⟨1, _⟩ =>
    show win3_5.index ⟨(i 0).val / 5000, hN⟩ (1 : Fin 2) * 128 ≤ (i 1).val
      ∧ (i 1).val < win3_5.index ⟨(i 0).val / 5000, hN⟩ (1 : Fin 2) * 128 + 128
    omega

/-- THE LAYER'S OUTPUT ARRAY after the region: the normalised, scaled, shifted and clipped entries of the operand
    arrays as the region finds them. -/
theorem region3_out (c : Dev nD) :
    (Gen.dat3 (F := Ideal) V c).arrAt 5 cfg3.N
      = Spec.arr2 (Spec.normAct (Spec.mat (V c (Pipeline.arrRef spec3 0))) (Spec.row (V c (Pipeline.arrRef spec3 1)))
          (Spec.row (V c (Pipeline.arrRef spec3 2))) (Spec.row (V c (Pipeline.arrRef spec3 3))) (Spec.row (V c (Pipeline.arrRef spec3 4)))) :=
  (dat3 V c).arrAt_eq_of_cover 5 (result3 V c) (fun t _ => flushed3_eq V c t) cover3

end Cert.KernelIdeal.RegionValue

end
-- ==== Proof.LastRegion4.lean ====
/-
  The last layer, read off the blocks the pipeline moves.

  The 100000 rows are cut into 20 blocks of 5000 rows; grid point t works on block t of the aggregated rows and of
  the node rows.  The two 128 x 40 matrices and the bias row are one block each, the same at every point.  At point t
  the body forms, for row p of the block and column q, the sum over the 128 columns k of (aggregated entry (p, k))·W(k, q),
  the same sum of the node rows against L, adds the two and then the bias of column q.  (The body rounds its operands
  to a shorter format before the two products; on the extended reals that rounding is the identity.)  Row p of block t
  is row 5000·t + p of the array, so what point t writes back is block t of the array whose entry (r, q) is
  Spec.finalLin at (r, q).  The blocks written back tile the array (row r lies in block r / 5000), hence the array
  after the run is that function everywhere.
-/
import proofs.«163791_j23218593202704_1_alg».proof.Proof.Gen.KernelIdeal.Frame
import proofs.«163791_j23218593202704_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

open scoped BigOperators

variable (V : (c : Dev nD) → (b : Ref sig .tc) → Buf (Elt Ideal) ((c : Thread nD τ).loc b))

/-- The zero offsets of a whole-block access, as a constant function. -/
theorem hz4 : (![0, 0] : Fin 2 → Nat) = fun _ => 0 := funext fun a => by fin_cases a <;> rfl

/-- A block of 5000 rows times a 128 x 40 matrix, into a zero accumulator, at row p and column q: the sum over the
    128 contracted positions of the products of the entries. -/
theorem matmul4_apply (A : FVec Ideal S5000x128 .bf16) (B : FVec Ideal S128x40 .bf16) (p : Fin 5000) (q : Fin 40) :
    matmul dot_S5000x128_S128x40_S5000x40_1_0_0_1_n_n none A B (constant S5000x40 .f32 0x00000000#32) (ix2 p q)
      = ∑ k : Fin 128, A (ix2 p k) * B (ix2 k q) := by
  show FloatOps.matmul dot_S5000x128_S128x40_S5000x40_1_0_0_1_n_n none A B (constant S5000x40 .f32 0x00000000#32) (ix2 p q) = _
  rw [Ideal.matmul_constant_zero_apply, ← Equiv.sum_comp (contrEquiv1 dot_S5000x128_S128x40_S5000x40_1_0_0_1_n_n 128 rfl rfl).symm]
  refine Finset.sum_congr rfl fun k _ => ?_
  have ck := contrEquiv1_symm_val dot_S5000x128_S128x40_S5000x40_1_0_0_1_n_n 128 rfl rfl k
  have hl : (dot_S5000x128_S128x40_S5000x40_1_0_0_1_n_n).lhsIdx (ix2 p q) ((contrEquiv1 dot_S5000x128_S128x40_S5000x40_1_0_0_1_n_n 128 rfl rfl).symm k) = ix2 p k := by
    funext ax; apply Fin.ext
    match ax with
    | ⟨0, _⟩ => simp [DotDims.lhsIdx, dot_S5000x128_S128x40_S5000x40_1_0_0_1_n_n]; rfl
    | ⟨1, _⟩ => exact (DotDims.lhsIdx_val_of_single (d := dot_S5000x128_S128x40_S5000x40_1_0_0_1_n_n) (cl := 1) rfl (ix2 p q) _).trans ck
  have hr : (dot_S5000x128_S128x40_S5000x40_1_0_0_1_n_n).rhsIdx (ix2 p q) ((contrEquiv1 dot_S5000x128_S128x40_S5000x40_1_0_0_1_n_n 128 rfl rfl).symm k) = ix2 k q := by
    funext ax; apply Fin.ext
    match ax with
    | ⟨0, _⟩ => exact (DotDims.rhsIdx_val_of_single (d := dot_S5000x128_S128x40_S5000x40_1_0_0_1_n_n) (cr := 0) rfl (ix2 p q) _).trans ck
    | ⟨1, _⟩ => simp [DotDims.rhsIdx, dot_S5000x128_S128x40_S5000x40_1_0_0_1_n_n]; rfl
  rw [hl, hr]

/-- The body's arithmetic at row p, column q of a block: the two products' sums, added, plus the bias of column q. -/
theorem pay4_apply (a h : Vec Ideal S5000x128 .f32) (w l : Vec Ideal S128x40 .f32) (b : Vec Ideal S1x40 .f32)
    (p : Fin 5000) (q : Fin 40) :
    k4_pay1 a h w l b (ix2 p q)
      = ((∑ k : Fin 128, a (ix2 p k) * w (ix2 k q)) + ∑ k : Fin 128, h (ix2 p k) * l (ix2 k q)) + b (ix2 (0 : Fin 1) q) := by
  unfold k4_pay1
  simp only [shapeCast_self]
  rw [addf_apply, addf_apply, matmul4_apply, matmul4_apply, broadcastTo_1b_ab_apply]
  rfl

/-- The block indices, decided over the 20 grid points: the row-block windows (inputs 0 and 1, output 5) are at
    block (t, 0), the two matrices and the bias row at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_5.index t (0 : Fin 2) = t.val ∧ win4_5.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row p, column k of block t of row window 0 is row 5000·t + p, column k of its array. -/
theorem blk4_0_apply (c : Dev nD) (t : Fin cfg4.N) (p : Fin 5000) (k : Fin 128) (r : Fin 100000)
    (hr : r.val = t.val * 5000 + p.val) :
    (iblk4 V c 0 t : Vec Ideal S5000x128 .f32) (ix2 p k)
      = (V c (Pipeline.arrRef spec4 0) : S100000x128.Idx → EReal) (ix2 r k) := by
  obtain ⟨e0, e1, -⟩ := idx_facts4 t
  unfold iblk4
  show (V c (Pipeline.arrRef spec4 0) : S100000x128.Idx → EReal) (((cfg4.win 0).blk t).view.emb (ix2 p k)) = _
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- Row p, column k of block t of row window 1 is row 5000·t + p, column k of its array. -/
theorem blk4_1_apply (c : Dev nD) (t : Fin cfg4.N) (p : Fin 5000) (k : Fin 128) (r : Fin 100000)
    (hr : r.val = t.val * 5000 + p.val) :
    (iblk4 V c 1 t : Vec Ideal S5000x128 .f32) (ix2 p k)
      = (V c (Pipeline.arrRef spec4 1) : S100000x128.Idx → EReal) (ix2 r k) := by
  obtain ⟨-, -, e0, e1, -⟩ := idx_facts4 t
  unfold iblk4
  show (V c (Pipeline.arrRef spec4 1) : S100000x128.Idx → EReal) (((cfg4.win 1).blk t).view.emb (ix2 p k)) = _
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

/-- The one block of matrix window 2 is its whole array. -/
theorem blk4_2_apply (c : Dev nD) (t : Fin cfg4.N) (k : Fin 128) (q : Fin 40) :
    (iblk4 V c 2 t : Vec Ideal S128x40 .f32) (ix2 k q)
      = (V c (Pipeline.arrRef spec4 2) : S128x40.Idx → EReal) (ix2 k q) := by
  obtain ⟨-, -, -, -, -, -, e0, e1, -⟩ := idx_facts4 t
  unfold iblk4
  show (V c (Pipeline.arrRef spec4 2) : S128x40.Idx → EReal) (((cfg4.win 2).blk t).view.emb (ix2 k q)) = _
  refine congrArg _ (funext fun a => Fin.ext ?_)
  match a with
  | ⟨0, _⟩ => show win4_2.index t (0 : Fin 2) * 128 + 1 * k.val = k.val; omega
  | ⟨1, _⟩ => show win4_2.index t (1 : Fin 2) * 40 + 1 * q.val = q.val; omega

/-- The one block of matrix window 3 is its whole array. -/
theorem blk4_3_apply (c : Dev nD) (t : Fin cfg4.N) (k : Fin 128) (q : Fin 40) :
    (iblk4 V c 3 t : Vec Ideal S128x40 .f32) (ix2 k q)
      = (V c (Pipeline.arrRef spec4 3) : S128x40.Idx → EReal) (ix2 k q) := by
  obtain ⟨-, -, -, -, -, -, -, -, e0, e1, -⟩ := idx_facts4 t
  unfold iblk4
  show (V c (Pipeline.arrRef spec4 3) : S128x40.Idx → EReal) (((cfg4.win 3).blk t).view.emb (ix2 k q)) = _
  refine congrArg _ (funext fun a => Fin.ext ?_)
  match a with
  | ⟨0, _⟩ => show win4_3.index t (0 : Fin 2) * 128 + 1 * k.val = k.val; omega
  | ⟨1, _⟩ => show win4_3.index t (1 : Fin 2) * 40 + 1 * q.val = q.val; omega

/-- The one block of the bias window is its whole array. -/
theorem blk4_4_apply (c : Dev nD) (t : Fin cfg4.N) (q : Fin 40) :
    (iblk4 V c 4 t : Vec Ideal S1x40 .f32) (ix2 (0 : Fin 1) q)
      = (V c (Pipeline.arrRef spec4 4) : S1x40.Idx → EReal) (ix2 (0 : Fin 1) q) := by
  obtain ⟨-, -, -, -, -, -, -, -, -, -, e0, e1⟩ := idx_facts4 t
  unfold iblk4
  show (V c (Pipeline.arrRef spec4 4) : S1x40.Idx → EReal) (((cfg4.win 4).blk t).view.emb (ix2 (0 : Fin 1) q)) = _
  refine congrArg _ (funext fun a => Fin.ext ?_)
  match a with
  | ⟨0, _⟩ => show win4_4.index t (0 : Fin 2) * 1 + 1 * 0 = 0; omega
  | ⟨1, _⟩ => show win4_4.index t (1 : Fin 2) * 40 + 1 * q.val = q.val; omega

/-- The layer's result as one array: entry (r, q) is the linear layer plus the bias, of the region's five operand
    arrays. -/
abbrev result4 (c : Dev nD) : S100000x40.Idx → EReal :=
  Spec.arr2 (Spec.finalLin (Spec.mat (V c (Pipeline.arrRef spec4 0))) (Spec.mat (V c (Pipeline.arrRef spec4 1)))
    (Spec.mat (V c (Pipeline.arrRef spec4 2))) (Spec.mat (V c (Pipeline.arrRef spec4 3))) (Spec.row (V c (Pipeline.arrRef spec4 4))))

/-- What point t writes back is block t of the result array. -/
theorem flushed4_eq (c : Dev nD) (t : Fin cfg4.N) :
    (dat4 V c).flushed 5 t = ((cfg4.win 5).blk t).view.read (Elt Ideal) (result4 V c) := by
  show (cfg4.win 5).cut (grid4.coords t) ((dat4 V c).after 5 t) = _
  rw [after4_5]
  unfold out4_5
  rw [View.canon_unit_zero hz4]
  simp only [View.ld_unit_zero (S := S5000x128) hz4, View.ld_unit_zero (S := S128x40) hz4, View.ld_unit_zero (S := S1x40) hz4]
  funext j
  obtain ⟨p, q, rfl⟩ : ∃ (p : Fin 5000) (q : Fin 40), j = ix2 p q := ⟨j 0, j 1, eq_ix2 j⟩
  have ht : t.val < 20 := lt_of_lt_of_eq t.isLt N_4
  have hp : p.val < 5000 := p.isLt
  obtain ⟨r, hr⟩ : ∃ r : Fin 100000, r.val = t.val * 5000 + p.val := ⟨⟨t.val * 5000 + p.val, by omega⟩, rfl⟩
  obtain ⟨-, -, -, -, e50, e51, -⟩ := idx_facts4 t
  have hemb : ((cfg4.win 5).blk t).view.emb (ix2 p q) = ix2 r q := by
    funext a; apply Fin.ext
    match a with
    | ⟨0, _⟩ => show win4_5.index t (0 : Fin 2) * 5000 + 1 * p.val = r.val; omega
    | ⟨1, _⟩ => show win4_5.index t (1 : Fin 2) * 40 + 1 * q.val = q.val; omega
  rw [View.read_apply, hemb]
  show k4_pay1 (iblk4 V c 0 t) (iblk4 V c 1 t) (iblk4 V c 2 t) (iblk4 V c 3 t) (iblk4 V c 4 t) (ix2 p q)
    = ((∑ k : Fin 128, Spec.mat (V c (Pipeline.arrRef spec4 0)) r k * Spec.mat (V c (Pipeline.arrRef spec4 2)) k q)
        + ∑ k : Fin 128, Spec.mat (V c (Pipeline.arrRef spec4 1)) r k * Spec.mat (V c (Pipeline.arrRef spec4 3)) k q)
      + Spec.row (V c (Pipeline.arrRef spec4 4)) q
  rw [pay4_apply, blk4_4_apply V c t q]
  refine congrArg (· + _) (congrArg₂ (· + ·) (Finset.sum_congr rfl fun k _ => ?_) (Finset.sum_congr rfl fun k _ => ?_))
  · rw [blk4_0_apply V c t p k r hr, blk4_2_apply V c t k q]; rfl
  · rw [blk4_1_apply V c t p k r hr, blk4_3_apply V c t k q]; rfl

/-- A row of the array lies in point t's block iff it is one of the 5000 rows from 5000·t on. -/
theorem mem_blk4 (t : Fin cfg4.N) (i : S100000x40.Idx) :
    i ∈ ((cfg4.win 5).blk t).view.set ↔ ∀ a : Fin 2, win4_5.index t a * S5000x40.size a ≤ (i a).val
      ∧ (i a).val < win4_5.index t a * S5000x40.size a + S5000x40.size a := by
  show i ∈ ((View.whole main_v86).slice (win4_5.rect t)).set ↔ _
  rw [View.set_slice_whole, Rect.mem_set_unit]
  exact Iff.rfl

/-- Every entry of the array is written back by some point: row r by point r / 5000. -/
theorem cover4 (i : S100000x40.Idx) :
    ∃ t : Fin cfg4.N, (cfg4.win 5).flush t = true ∧ i ∈ ((cfg4.win 5).blk t).view.set := by
  have hi0 : (i 0).val < 100000 := (i 0).isLt
  have hi1 : (i 1).val < 40 := (i 1).isLt
  have hN : (i 0).val / 5000 < cfg4.N := by rw [show cfg4.N = 20 from N_4]; omega
  obtain ⟨-, -, -, -, e50, e51, -⟩ := idx_facts4 ⟨(i 0).val / 5000, hN⟩
  have e50' : win4_5.index ⟨(i 0).val / 5000, hN⟩ (0 : Fin 2) = (i 0).val / 5000 := e50
  refine ⟨⟨(i 0).val / 5000, hN⟩, flush4_5 _, ?_⟩
  rw [mem_blk4]
  intro a
  match a with
  | ⟨0, _⟩ =>
    show win4_5.index ⟨(i 0).val / 5000, hN⟩ (0 : Fin 2) * 5000 ≤ (i 0).val
      ∧ (i 0).val < win4_5.index ⟨(i 0).val / 5000, hN⟩ (0 : Fin 2) * 5000 + 5000
    omega
  | ⟨1, _⟩ =>
    show win4_5.index ⟨(i 0).val / 5000, hN⟩ (1 : Fin 2) * 40 ≤ (i 1).val
      ∧ (i 1).val < win4_5.index ⟨(i 0).val / 5000, hN⟩ (1 : Fin 2) * 40 + 40
    omega

/-- THE LAST LAYER'S OUTPUT ARRAY after the region: the linear layer plus the bias, of the operand arrays as the
    region finds them. -/
theorem region4_out (c : Dev nD) :
    (Gen.dat4 (F := Ideal) V c).arrAt 5 cfg4.N
      = Spec.arr2 (Spec.finalLin (Spec.mat (V c (Pipeline.arrRef spec4 0))) (Spec.mat (V c (Pipeline.arrRef spec4 1)))
          (Spec.mat (V c (Pipeline.arrRef spec4 2))) (Spec.mat (V c (Pipeline.arrRef spec4 3))) (Spec.row (V c (Pipeline.arrRef spec4 4)))) :=
  (dat4 V c).arrAt_eq_of_cover 5 (result4 V c) (fun t _ => flushed4_eq V c t) cover4

end Cert.KernelIdeal.RegionValue

end
-- ==== Proof.KerValue.lean ====
/-
  What every buffer the result depends on holds at each boundary of the idealized kernel program's fold.

  The fold runs: the host stretches that form the degree factors, the reshaped rows and the first normalised neighbour sum;
  then, three times, a region (the linear layer with its column sums; the normalisation; at the end the last layer) and
  the host stretch between. A buffer a step does not write keeps its contents; a buffer a stretch computes holds the named
  piece of the operands' contents; a region's output array holds the layer's function of the region's input arrays.
  Read back from the result buffer this gives the result as one function of the fourteen arguments.
-/
import proofs.«163791_j23218593202704_1_alg».proof.Proof.KerHost
import proofs.«163791_j23218593202704_1_alg».proof.Proof.KerForms
import proofs.«163791_j23218593202704_1_alg».proof.Proof.StatsRegion0
import proofs.«163791_j23218593202704_1_alg».proof.Proof.StatsRegion2
import proofs.«163791_j23218593202704_1_alg».proof.Proof.NormRegion1
import proofs.«163791_j23218593202704_1_alg».proof.Proof.NormRegion3
import proofs.«163791_j23218593202704_1_alg».proof.Proof.LastRegion4

set_option maxRecDepth 16384

noncomputable section

namespace Cert.KernelIdeal.ValueChain

open Idealize.ShloMosaic Idealize.ShloMosaic.TcCoe Idealize.ShloMosaic.StableHlo Idealize.SL.Sem
open Cert.KernelIdeal Cert.KernelIdeal.Gen Cert.KernelIdeal.HostTerms

variable (m : (ℓ : Loc nD τ sig) → Buf (Elt Ideal) ℓ) (ρ : Dev nD → PrngReg) (c : Dev nD)

/-! ## At the launch -/

theorem W0_arg0 : W0 m ρ c (Proc.devRef .tc main_arg0) = (ar0 m c) := rfl
theorem W0_arg1 : W0 m ρ c (Proc.devRef .tc main_arg1) = (ar1 m c) := rfl
theorem W0_arg2 : W0 m ρ c (Proc.devRef .tc main_arg2) = (ar2 m c) := rfl
theorem W0_arg3 : W0 m ρ c (Proc.devRef .tc main_arg3) = (ar3 m c) := rfl
theorem W0_arg4 : W0 m ρ c (Proc.devRef .tc main_arg4) = (ar4 m c) := rfl
theorem W0_arg5 : W0 m ρ c (Proc.devRef .tc main_arg5) = (ar5 m c) := rfl
theorem W0_arg6 : W0 m ρ c (Proc.devRef .tc main_arg6) = (ar6 m c) := rfl
theorem W0_arg7 : W0 m ρ c (Proc.devRef .tc main_arg7) = (ar7 m c) := rfl
theorem W0_arg8 : W0 m ρ c (Proc.devRef .tc main_arg8) = (ar8 m c) := rfl
theorem W0_arg9 : W0 m ρ c (Proc.devRef .tc main_arg9) = (ar9 m c) := rfl
theorem W0_arg10 : W0 m ρ c (Proc.devRef .tc main_arg10) = (ar10 m c) := rfl
theorem W0_arg11 : W0 m ρ c (Proc.devRef .tc main_arg11) = (ar11 m c) := rfl
theorem W0_arg12 : W0 m ρ c (Proc.devRef .tc main_arg12) = (ar12 m c) := rfl
theorem W0_arg13 : W0 m ρ c (Proc.devRef .tc main_arg13) = (ar13 m c) := rfl

/-! ## Boundary 1 -/

theorem W1_arg0 : W1 m ρ c (Proc.devRef .tc main_arg0) = (ar0 m c) := by
  show StableHlo.after Gen.hostOps0 (W0 m ρ c) (Proc.devRef .tc main_arg0) = _
  rw [HostRead.s0_keep_arg0]
  all_goals exact W0_arg0 m ρ c

theorem W1_arg1 : W1 m ρ c (Proc.devRef .tc main_arg1) = (ar1 m c) := by
  show StableHlo.after Gen.hostOps0 (W0 m ρ c) (Proc.devRef .tc main_arg1) = _
  rw [HostRead.s0_keep_arg1]
  all_goals exact W0_arg1 m ρ c

theorem W1_arg2 : W1 m ρ c (Proc.devRef .tc main_arg2) = (ar2 m c) := by
  show StableHlo.after Gen.hostOps0 (W0 m ρ c) (Proc.devRef .tc main_arg2) = _
  rw [HostRead.s0_keep_arg2]
  all_goals exact W0_arg2 m ρ c

theorem W1_arg3 : W1 m ρ c (Proc.devRef .tc main_arg3) = (ar3 m c) := by
  show StableHlo.after Gen.hostOps0 (W0 m ρ c) (Proc.devRef .tc main_arg3) = _
  rw [HostRead.s0_keep_arg3]
  all_goals exact W0_arg3 m ρ c

theorem W1_arg4 : W1 m ρ c (Proc.devRef .tc main_arg4) = (ar4 m c) := by
  show StableHlo.after Gen.hostOps0 (W0 m ρ c) (Proc.devRef .tc main_arg4) = _
  rw [HostRead.s0_keep_arg4]
  all_goals exact W0_arg4 m ρ c

theorem W1_arg5 : W1 m ρ c (Proc.devRef .tc main_arg5) = (ar5 m c) := by
  show StableHlo.after Gen.hostOps0 (W0 m ρ c) (Proc.devRef .tc main_arg5) = _
  rw [HostRead.s0_keep_arg5]
  all_goals exact W0_arg5 m ρ c

theorem W1_arg6 : W1 m ρ c (Proc.devRef .tc main_arg6) = (ar6 m c) := by
  show StableHlo.after Gen.hostOps0 (W0 m ρ c) (Proc.devRef .tc main_arg6) = _
  rw [HostRead.s0_keep_arg6]
  all_goals exact W0_arg6 m ρ c

theorem W1_arg7 : W1 m ρ c (Proc.devRef .tc main_arg7) = (ar7 m c) := by
  show StableHlo.after Gen.hostOps0 (W0 m ρ c) (Proc.devRef .tc main_arg7) = _
  rw [HostRead.s0_keep_arg7]
  all_goals exact W0_arg7 m ρ c

theorem W1_arg8 : W1 m ρ c (Proc.devRef .tc main_arg8) = (ar8 m c) := by
  show StableHlo.after Gen.hostOps0 (W0 m ρ c) (Proc.devRef .tc main_arg8) = _
  rw [HostRead.s0_keep_arg8]
  all_goals exact W0_arg8 m ρ c

theorem W1_arg9 : W1 m ρ c (Proc.devRef .tc main_arg9) = (ar9 m c) := by
  show StableHlo.after Gen.hostOps0 (W0 m ρ c) (Proc.devRef .tc main_arg9) = _
  rw [HostRead.s0_keep_arg9]
  all_goals exact W0_arg9 m ρ c

theorem W1_arg10 : W1 m ρ c (Proc.devRef .tc main_arg10) = (ar10 m c) := by
  show StableHlo.after Gen.hostOps0 (W0 m ρ c) (Proc.devRef .tc main_arg10) = _
  rw [HostRead.s0_keep_arg10]
  all_goals exact W0_arg10 m ρ c

theorem W1_arg11 : W1 m ρ c (Proc.devRef .tc main_arg11) = (ar11 m c) := by
  show StableHlo.after Gen.hostOps0 (W0 m ρ c) (Proc.devRef .tc main_arg11) = _
  rw [HostRead.s0_keep_arg11]
  all_goals exact W0_arg11 m ρ c

theorem W1_arg12 : W1 m ρ c (Proc.devRef .tc main_arg12) = (ar12 m c) := by
  show StableHlo.after Gen.hostOps0 (W0 m ρ c) (Proc.devRef .tc main_arg12) = _
  rw [HostRead.s0_keep_arg12]
  all_goals exact W0_arg12 m ρ c

theorem W1_arg13 : W1 m ρ c (Proc.devRef .tc main_arg13) = (ar13 m c) := by
  show StableHlo.after Gen.hostOps0 (W0 m ρ c) (Proc.devRef .tc main_arg13) = _
  rw [HostRead.s0_keep_arg13]
  all_goals exact W0_arg13 m ρ c

theorem W1_v3 : W1 m ρ c (Proc.devRef .tc main_v3) = (degree (ar1 m c)) := by
  show StableHlo.after Gen.hostOps0 (W0 m ρ c) (Proc.devRef .tc main_v3) = _
  rw [HostRead.s0_v3, W0_arg1 m ρ c]
  all_goals rfl

theorem W1_v6 : W1 m ρ c (Proc.devRef .tc main_v6) = (degree (ar2 m c)) := by
  show StableHlo.after Gen.hostOps0 (W0 m ρ c) (Proc.devRef .tc main_v6) = _
  rw [HostRead.s0_v6, W0_arg2 m ρ c]
  all_goals rfl

theorem W1_v8 : W1 m ρ c (Proc.devRef .tc main_v8) = (cmpf .ogt (degree (ar1 m c)) (broadcastInDim S100000 ![] Facts₀.bcast_S_S100000 (constant (F := Ideal) S_ .f32 0x00000000#32))) := by
  show StableHlo.after Gen.hostOps0 (W0 m ρ c) (Proc.devRef .tc main_v8) = _
  rw [HostRead.s0_v8, W0_arg1 m ρ c]
  all_goals rfl

theorem W1_cst_3 : W1 m ρ c (Proc.devRef .tc main_cst_3) = (constant (F := Ideal) S_ .f32 0x3F800000#32) := by
  show StableHlo.after Gen.hostOps0 (W0 m ρ c) (Proc.devRef .tc main_cst_3) = _
  rw [HostRead.s0_cst_3]
  all_goals rfl

/-! ## Boundary 2 -/

theorem W2_arg0 : W2 m ρ c (Proc.devRef .tc main_arg0) = (ar0 m c) := by
  show StableHlo.after Gen.hostOps0_1 (W1 m ρ c) (Proc.devRef .tc main_arg0) = _
  rw [HostRead.s1_keep_arg0]
  all_goals exact W1_arg0 m ρ c

theorem W2_arg1 : W2 m ρ c (Proc.devRef .tc main_arg1) = (ar1 m c) := by
  show StableHlo.after Gen.hostOps0_1 (W1 m ρ c) (Proc.devRef .tc main_arg1) = _
  rw [HostRead.s1_keep_arg1]
  all_goals exact W1_arg1 m ρ c

theorem W2_arg2 : W2 m ρ c (Proc.devRef .tc main_arg2) = (ar2 m c) := by
  show StableHlo.after Gen.hostOps0_1 (W1 m ρ c) (Proc.devRef .tc main_arg2) = _
  rw [HostRead.s1_keep_arg2]
  all_goals exact W1_arg2 m ρ c

theorem W2_arg3 : W2 m ρ c (Proc.devRef .tc main_arg3) = (ar3 m c) := by
  show StableHlo.after Gen.hostOps0_1 (W1 m ρ c) (Proc.devRef .tc main_arg3) = _
  rw [HostRead.s1_keep_arg3]
  all_goals exact W1_arg3 m ρ c

theorem W2_arg4 : W2 m ρ c (Proc.devRef .tc main_arg4) = (ar4 m c) := by
  show StableHlo.after Gen.hostOps0_1 (W1 m ρ c) (Proc.devRef .tc main_arg4) = _
  rw [HostRead.s1_keep_arg4]
  all_goals exact W1_arg4 m ρ c

theorem W2_arg5 : W2 m ρ c (Proc.devRef .tc main_arg5) = (ar5 m c) := by
  show StableHlo.after Gen.hostOps0_1 (W1 m ρ c) (Proc.devRef .tc main_arg5) = _
  rw [HostRead.s1_keep_arg5]
  all_goals exact W1_arg5 m ρ c

theorem W2_arg6 : W2 m ρ c (Proc.devRef .tc main_arg6) = (ar6 m c) := by
  show StableHlo.after Gen.hostOps0_1 (W1 m ρ c) (Proc.devRef .tc main_arg6) = _
  rw [HostRead.s1_keep_arg6]
  all_goals exact W1_arg6 m ρ c

theorem W2_arg7 : W2 m ρ c (Proc.devRef .tc main_arg7) = (ar7 m c) := by
  show StableHlo.after Gen.hostOps0_1 (W1 m ρ c) (Proc.devRef .tc main_arg7) = _
  rw [HostRead.s1_keep_arg7]
  all_goals exact W1_arg7 m ρ c

theorem W2_arg8 : W2 m ρ c (Proc.devRef .tc main_arg8) = (ar8 m c) := by
  show StableHlo.after Gen.hostOps0_1 (W1 m ρ c) (Proc.devRef .tc main_arg8) = _
  rw [HostRead.s1_keep_arg8]
  all_goals exact W1_arg8 m ρ c

theorem W2_arg9 : W2 m ρ c (Proc.devRef .tc main_arg9) = (ar9 m c) := by
  show StableHlo.after Gen.hostOps0_1 (W1 m ρ c) (Proc.devRef .tc main_arg9) = _
  rw [HostRead.s1_keep_arg9]
  all_goals exact W1_arg9 m ρ c

theorem W2_arg10 : W2 m ρ c (Proc.devRef .tc main_arg10) = (ar10 m c) := by
  show StableHlo.after Gen.hostOps0_1 (W1 m ρ c) (Proc.devRef .tc main_arg10) = _
  rw [HostRead.s1_keep_arg10]
  all_goals exact W1_arg10 m ρ c

theorem W2_arg11 : W2 m ρ c (Proc.devRef .tc main_arg11) = (ar11 m c) := by
  show StableHlo.after Gen.hostOps0_1 (W1 m ρ c) (Proc.devRef .tc main_arg11) = _
  rw [HostRead.s1_keep_arg11]
  all_goals exact W1_arg11 m ρ c

theorem W2_arg12 : W2 m ρ c (Proc.devRef .tc main_arg12) = (ar12 m c) := by
  show StableHlo.after Gen.hostOps0_1 (W1 m ρ c) (Proc.devRef .tc main_arg12) = _
  rw [HostRead.s1_keep_arg12]
  all_goals exact W1_arg12 m ρ c

theorem W2_arg13 : W2 m ρ c (Proc.devRef .tc main_arg13) = (ar13 m c) := by
  show StableHlo.after Gen.hostOps0_1 (W1 m ρ c) (Proc.devRef .tc main_arg13) = _
  rw [HostRead.s1_keep_arg13]
  all_goals exact W1_arg13 m ρ c

theorem W2_v6 : W2 m ρ c (Proc.devRef .tc main_v6) = (degree (ar2 m c)) := by
  show StableHlo.after Gen.hostOps0_1 (W1 m ρ c) (Proc.devRef .tc main_v6) = _
  rw [HostRead.s1_keep_v6]
  all_goals exact W1_v6 m ρ c

theorem W2_v9 : W2 m ρ c (Proc.devRef .tc main_v9) = (select (cmpf .ogt (degree (ar1 m c)) (broadcastInDim S100000 ![] Facts₀.bcast_S_S100000 (constant (F := Ideal) S_ .f32 0x00000000#32))) (degree (ar1 m c)) (broadcastInDim S100000 ![] Facts₀.bcast_S_S100000 (id (constant (F := Ideal) S_ .f32 0x3F800000#32)))) := by
  show StableHlo.after Gen.hostOps0_1 (W1 m ρ c) (Proc.devRef .tc main_v9) = _
  rw [HostRead.s1_v9, W1_v8 m ρ c, W1_v3 m ρ c, W1_cst_3 m ρ c]
  all_goals rfl

/-! ## Boundary 3 -/

theorem W3_arg0 : W3 m ρ c (Proc.devRef .tc main_arg0) = (ar0 m c) := by
  show StableHlo.after Gen.hostOps0_2 (W2 m ρ c) (Proc.devRef .tc main_arg0) = _
  rw [HostRead.s2_keep_arg0]
  all_goals exact W2_arg0 m ρ c

theorem W3_arg1 : W3 m ρ c (Proc.devRef .tc main_arg1) = (ar1 m c) := by
  show StableHlo.after Gen.hostOps0_2 (W2 m ρ c) (Proc.devRef .tc main_arg1) = _
  rw [HostRead.s2_keep_arg1]
  all_goals exact W2_arg1 m ρ c

theorem W3_arg2 : W3 m ρ c (Proc.devRef .tc main_arg2) = (ar2 m c) := by
  show StableHlo.after Gen.hostOps0_2 (W2 m ρ c) (Proc.devRef .tc main_arg2) = _
  rw [HostRead.s2_keep_arg2]
  all_goals exact W2_arg2 m ρ c

theorem W3_arg3 : W3 m ρ c (Proc.devRef .tc main_arg3) = (ar3 m c) := by
  show StableHlo.after Gen.hostOps0_2 (W2 m ρ c) (Proc.devRef .tc main_arg3) = _
  rw [HostRead.s2_keep_arg3]
  all_goals exact W2_arg3 m ρ c

theorem W3_arg4 : W3 m ρ c (Proc.devRef .tc main_arg4) = (ar4 m c) := by
  show StableHlo.after Gen.hostOps0_2 (W2 m ρ c) (Proc.devRef .tc main_arg4) = _
  rw [HostRead.s2_keep_arg4]
  all_goals exact W2_arg4 m ρ c

theorem W3_arg5 : W3 m ρ c (Proc.devRef .tc main_arg5) = (ar5 m c) := by
  show StableHlo.after Gen.hostOps0_2 (W2 m ρ c) (Proc.devRef .tc main_arg5) = _
  rw [HostRead.s2_keep_arg5]
  all_goals exact W2_arg5 m ρ c

theorem W3_arg6 : W3 m ρ c (Proc.devRef .tc main_arg6) = (ar6 m c) := by
  show StableHlo.after Gen.hostOps0_2 (W2 m ρ c) (Proc.devRef .tc main_arg6) = _
  rw [HostRead.s2_keep_arg6]
  all_goals exact W2_arg6 m ρ c

theorem W3_arg7 : W3 m ρ c (Proc.devRef .tc main_arg7) = (ar7 m c) := by
  show StableHlo.after Gen.hostOps0_2 (W2 m ρ c) (Proc.devRef .tc main_arg7) = _
  rw [HostRead.s2_keep_arg7]
  all_goals exact W2_arg7 m ρ c

theorem W3_arg8 : W3 m ρ c (Proc.devRef .tc main_arg8) = (ar8 m c) := by
  show StableHlo.after Gen.hostOps0_2 (W2 m ρ c) (Proc.devRef .tc main_arg8) = _
  rw [HostRead.s2_keep_arg8]
  all_goals exact W2_arg8 m ρ c

theorem W3_arg9 : W3 m ρ c (Proc.devRef .tc main_arg9) = (ar9 m c) := by
  show StableHlo.after Gen.hostOps0_2 (W2 m ρ c) (Proc.devRef .tc main_arg9) = _
  rw [HostRead.s2_keep_arg9]
  all_goals exact W2_arg9 m ρ c

theorem W3_arg10 : W3 m ρ c (Proc.devRef .tc main_arg10) = (ar10 m c) := by
  show StableHlo.after Gen.hostOps0_2 (W2 m ρ c) (Proc.devRef .tc main_arg10) = _
  rw [HostRead.s2_keep_arg10]
  all_goals exact W2_arg10 m ρ c

theorem W3_arg11 : W3 m ρ c (Proc.devRef .tc main_arg11) = (ar11 m c) := by
  show StableHlo.after Gen.hostOps0_2 (W2 m ρ c) (Proc.devRef .tc main_arg11) = _
  rw [HostRead.s2_keep_arg11]
  all_goals exact W2_arg11 m ρ c

theorem W3_arg12 : W3 m ρ c (Proc.devRef .tc main_arg12) = (ar12 m c) := by
  show StableHlo.after Gen.hostOps0_2 (W2 m ρ c) (Proc.devRef .tc main_arg12) = _
  rw [HostRead.s2_keep_arg12]
  all_goals exact W2_arg12 m ρ c

theorem W3_arg13 : W3 m ρ c (Proc.devRef .tc main_arg13) = (ar13 m c) := by
  show StableHlo.after Gen.hostOps0_2 (W2 m ρ c) (Proc.devRef .tc main_arg13) = _
  rw [HostRead.s2_keep_arg13]
  all_goals exact W2_arg13 m ρ c

theorem W3_v6 : W3 m ρ c (Proc.devRef .tc main_v6) = (degree (ar2 m c)) := by
  show StableHlo.after Gen.hostOps0_2 (W2 m ρ c) (Proc.devRef .tc main_v6) = _
  rw [HostRead.s2_keep_v6]
  all_goals exact W2_v6 m ρ c

theorem W3_v11 : W3 m ρ c (Proc.devRef .tc main_v11) = (degScale (ar1 m c)) := by
  show StableHlo.after Gen.hostOps0_2 (W2 m ρ c) (Proc.devRef .tc main_v11) = _
  rw [HostRead.s2_v11, W2_v9 m ρ c]
  all_goals rfl

theorem W3_v13 : W3 m ρ c (Proc.devRef .tc main_v13) = (cmpf .ogt (degree (ar2 m c)) (broadcastInDim S100000 ![] Facts₀.bcast_S_S100000 (constant (F := Ideal) S_ .f32 0x00000000#32))) := by
  show StableHlo.after Gen.hostOps0_2 (W2 m ρ c) (Proc.devRef .tc main_v13) = _
  rw [HostRead.s2_v13, W2_v6 m ρ c]
  all_goals rfl

theorem W3_cst_6 : W3 m ρ c (Proc.devRef .tc main_cst_6) = (constant (F := Ideal) S_ .f32 0x3F800000#32) := by
  show StableHlo.after Gen.hostOps0_2 (W2 m ρ c) (Proc.devRef .tc main_cst_6) = _
  rw [HostRead.s2_cst_6]
  all_goals rfl

/-! ## Boundary 4 -/

theorem W4_arg0 : W4 m ρ c (Proc.devRef .tc main_arg0) = (ar0 m c) := by
  show StableHlo.after Gen.hostOps0_3 (W3 m ρ c) (Proc.devRef .tc main_arg0) = _
  rw [HostRead.s3_keep_arg0]
  all_goals exact W3_arg0 m ρ c

theorem W4_arg1 : W4 m ρ c (Proc.devRef .tc main_arg1) = (ar1 m c) := by
  show StableHlo.after Gen.hostOps0_3 (W3 m ρ c) (Proc.devRef .tc main_arg1) = _
  rw [HostRead.s3_keep_arg1]
  all_goals exact W3_arg1 m ρ c

theorem W4_arg2 : W4 m ρ c (Proc.devRef .tc main_arg2) = (ar2 m c) := by
  show StableHlo.after Gen.hostOps0_3 (W3 m ρ c) (Proc.devRef .tc main_arg2) = _
  rw [HostRead.s3_keep_arg2]
  all_goals exact W3_arg2 m ρ c

theorem W4_arg3 : W4 m ρ c (Proc.devRef .tc main_arg3) = (ar3 m c) := by
  show StableHlo.after Gen.hostOps0_3 (W3 m ρ c) (Proc.devRef .tc main_arg3) = _
  rw [HostRead.s3_keep_arg3]
  all_goals exact W3_arg3 m ρ c

theorem W4_arg4 : W4 m ρ c (Proc.devRef .tc main_arg4) = (ar4 m c) := by
  show StableHlo.after Gen.hostOps0_3 (W3 m ρ c) (Proc.devRef .tc main_arg4) = _
  rw [HostRead.s3_keep_arg4]
  all_goals exact W3_arg4 m ρ c

theorem W4_arg5 : W4 m ρ c (Proc.devRef .tc main_arg5) = (ar5 m c) := by
  show StableHlo.after Gen.hostOps0_3 (W3 m ρ c) (Proc.devRef .tc main_arg5) = _
  rw [HostRead.s3_keep_arg5]
  all_goals exact W3_arg5 m ρ c

theorem W4_arg6 : W4 m ρ c (Proc.devRef .tc main_arg6) = (ar6 m c) := by
  show StableHlo.after Gen.hostOps0_3 (W3 m ρ c) (Proc.devRef .tc main_arg6) = _
  rw [HostRead.s3_keep_arg6]
  all_goals exact W3_arg6 m ρ c

theorem W4_arg7 : W4 m ρ c (Proc.devRef .tc main_arg7) = (ar7 m c) := by
  show StableHlo.after Gen.hostOps0_3 (W3 m ρ c) (Proc.devRef .tc main_arg7) = _
  rw [HostRead.s3_keep_arg7]
  all_goals exact W3_arg7 m ρ c

theorem W4_arg8 : W4 m ρ c (Proc.devRef .tc main_arg8) = (ar8 m c) := by
  show StableHlo.after Gen.hostOps0_3 (W3 m ρ c) (Proc.devRef .tc main_arg8) = _
  rw [HostRead.s3_keep_arg8]
  all_goals exact W3_arg8 m ρ c

theorem W4_arg9 : W4 m ρ c (Proc.devRef .tc main_arg9) = (ar9 m c) := by
  show StableHlo.after Gen.hostOps0_3 (W3 m ρ c) (Proc.devRef .tc main_arg9) = _
  rw [HostRead.s3_keep_arg9]
  all_goals exact W3_arg9 m ρ c

theorem W4_arg10 : W4 m ρ c (Proc.devRef .tc main_arg10) = (ar10 m c) := by
  show StableHlo.after Gen.hostOps0_3 (W3 m ρ c) (Proc.devRef .tc main_arg10) = _
  rw [HostRead.s3_keep_arg10]
  all_goals exact W3_arg10 m ρ c

theorem W4_arg11 : W4 m ρ c (Proc.devRef .tc main_arg11) = (ar11 m c) := by
  show StableHlo.after Gen.hostOps0_3 (W3 m ρ c) (Proc.devRef .tc main_arg11) = _
  rw [HostRead.s3_keep_arg11]
  all_goals exact W3_arg11 m ρ c

theorem W4_arg12 : W4 m ρ c (Proc.devRef .tc main_arg12) = (ar12 m c) := by
  show StableHlo.after Gen.hostOps0_3 (W3 m ρ c) (Proc.devRef .tc main_arg12) = _
  rw [HostRead.s3_keep_arg12]
  all_goals exact W3_arg12 m ρ c

theorem W4_arg13 : W4 m ρ c (Proc.devRef .tc main_arg13) = (ar13 m c) := by
  show StableHlo.after Gen.hostOps0_3 (W3 m ρ c) (Proc.devRef .tc main_arg13) = _
  rw [HostRead.s3_keep_arg13]
  all_goals exact W3_arg13 m ρ c

theorem W4_v11 : W4 m ρ c (Proc.devRef .tc main_v11) = (degScale (ar1 m c)) := by
  show StableHlo.after Gen.hostOps0_3 (W3 m ρ c) (Proc.devRef .tc main_v11) = _
  rw [HostRead.s3_keep_v11]
  all_goals exact W3_v11 m ρ c

theorem W4_v14 : W4 m ρ c (Proc.devRef .tc main_v14) = (select (cmpf .ogt (degree (ar2 m c)) (broadcastInDim S100000 ![] Facts₀.bcast_S_S100000 (constant (F := Ideal) S_ .f32 0x00000000#32))) (degree (ar2 m c)) (broadcastInDim S100000 ![] Facts₀.bcast_S_S100000 (id (constant (F := Ideal) S_ .f32 0x3F800000#32)))) := by
  show StableHlo.after Gen.hostOps0_3 (W3 m ρ c) (Proc.devRef .tc main_v14) = _
  rw [HostRead.s3_v14, W3_v13 m ρ c, W3_v6 m ρ c, W3_cst_6 m ρ c]
  all_goals rfl

/-! ## Boundary 5 -/

theorem W5_arg0 : W5 m ρ c (Proc.devRef .tc main_arg0) = (ar0 m c) := by
  show StableHlo.after Gen.hostOps0_4 (W4 m ρ c) (Proc.devRef .tc main_arg0) = _
  rw [HostRead.s4_keep_arg0]
  all_goals exact W4_arg0 m ρ c

theorem W5_arg1 : W5 m ρ c (Proc.devRef .tc main_arg1) = (ar1 m c) := by
  show StableHlo.after Gen.hostOps0_4 (W4 m ρ c) (Proc.devRef .tc main_arg1) = _
  rw [HostRead.s4_keep_arg1]
  all_goals exact W4_arg1 m ρ c

theorem W5_arg2 : W5 m ρ c (Proc.devRef .tc main_arg2) = (ar2 m c) := by
  show StableHlo.after Gen.hostOps0_4 (W4 m ρ c) (Proc.devRef .tc main_arg2) = _
  rw [HostRead.s4_keep_arg2]
  all_goals exact W4_arg2 m ρ c

theorem W5_arg3 : W5 m ρ c (Proc.devRef .tc main_arg3) = (ar3 m c) := by
  show StableHlo.after Gen.hostOps0_4 (W4 m ρ c) (Proc.devRef .tc main_arg3) = _
  rw [HostRead.s4_keep_arg3]
  all_goals exact W4_arg3 m ρ c

theorem W5_arg4 : W5 m ρ c (Proc.devRef .tc main_arg4) = (ar4 m c) := by
  show StableHlo.after Gen.hostOps0_4 (W4 m ρ c) (Proc.devRef .tc main_arg4) = _
  rw [HostRead.s4_keep_arg4]
  all_goals exact W4_arg4 m ρ c

theorem W5_arg5 : W5 m ρ c (Proc.devRef .tc main_arg5) = (ar5 m c) := by
  show StableHlo.after Gen.hostOps0_4 (W4 m ρ c) (Proc.devRef .tc main_arg5) = _
  rw [HostRead.s4_keep_arg5]
  all_goals exact W4_arg5 m ρ c

theorem W5_arg6 : W5 m ρ c (Proc.devRef .tc main_arg6) = (ar6 m c) := by
  show StableHlo.after Gen.hostOps0_4 (W4 m ρ c) (Proc.devRef .tc main_arg6) = _
  rw [HostRead.s4_keep_arg6]
  all_goals exact W4_arg6 m ρ c

theorem W5_arg7 : W5 m ρ c (Proc.devRef .tc main_arg7) = (ar7 m c) := by
  show StableHlo.after Gen.hostOps0_4 (W4 m ρ c) (Proc.devRef .tc main_arg7) = _
  rw [HostRead.s4_keep_arg7]
  all_goals exact W4_arg7 m ρ c

theorem W5_arg8 : W5 m ρ c (Proc.devRef .tc main_arg8) = (ar8 m c) := by
  show StableHlo.after Gen.hostOps0_4 (W4 m ρ c) (Proc.devRef .tc main_arg8) = _
  rw [HostRead.s4_keep_arg8]
  all_goals exact W4_arg8 m ρ c

theorem W5_v11 : W5 m ρ c (Proc.devRef .tc main_v11) = (degScale (ar1 m c)) := by
  show StableHlo.after Gen.hostOps0_4 (W4 m ρ c) (Proc.devRef .tc main_v11) = _
  rw [HostRead.s4_keep_v11]
  all_goals exact W4_v11 m ρ c

theorem W5_v16 : W5 m ρ c (Proc.devRef .tc main_v16) = (degScale (ar2 m c)) := by
  show StableHlo.after Gen.hostOps0_4 (W4 m ρ c) (Proc.devRef .tc main_v16) = _
  rw [HostRead.s4_v16, W4_v14 m ρ c]
  all_goals rfl

theorem W5_v17 : W5 m ρ c (Proc.devRef .tc main_v17) = (asRow128 (ar10 m c)) := by
  show StableHlo.after Gen.hostOps0_4 (W4 m ρ c) (Proc.devRef .tc main_v17) = _
  rw [HostRead.s4_v17, W4_arg10 m ρ c]
  all_goals rfl

theorem W5_v18 : W5 m ρ c (Proc.devRef .tc main_v18) = (asRow128 (ar11 m c)) := by
  show StableHlo.after Gen.hostOps0_4 (W4 m ρ c) (Proc.devRef .tc main_v18) = _
  rw [HostRead.s4_v18, W4_arg11 m ρ c]
  all_goals rfl

theorem W5_v19 : W5 m ρ c (Proc.devRef .tc main_v19) = (asRow128 (ar12 m c)) := by
  show StableHlo.after Gen.hostOps0_4 (W4 m ρ c) (Proc.devRef .tc main_v19) = _
  rw [HostRead.s4_v19, W4_arg12 m ρ c]
  all_goals rfl

theorem W5_v20 : W5 m ρ c (Proc.devRef .tc main_v20) = (asRow128 (ar13 m c)) := by
  show StableHlo.after Gen.hostOps0_4 (W4 m ρ c) (Proc.devRef .tc main_v20) = _
  rw [HostRead.s4_v20, W4_arg13 m ρ c]
  all_goals rfl

theorem W5_v21 : W5 m ρ c (Proc.devRef .tc main_v21) = (asRow40 (ar9 m c)) := by
  show StableHlo.after Gen.hostOps0_4 (W4 m ρ c) (Proc.devRef .tc main_v21) = _
  rw [HostRead.s4_v21, W4_arg9 m ρ c]
  all_goals rfl

theorem W5_v37 : W5 m ρ c (Proc.devRef .tc main_v37) = (sp m c (ar0 m c)) := by
  show StableHlo.after Gen.hostOps0_4 (W4 m ρ c) (Proc.devRef .tc main_v37) = _
  rw [HostRead.s4_v37, W4_arg0 m ρ c, W4_arg1 m ρ c, W4_arg2 m ρ c, W4_v11 m ρ c, W4_v14 m ρ c]
  all_goals rfl

/-! ## Boundary 6 -/

theorem W6_v17 : W6 m ρ c (Proc.devRef .tc main_v17) = (asRow128 (ar10 m c)) :=
  (Gen.W6_of_ne m ρ c main_v17 (by decide)).trans (W5_v17 m ρ c)

theorem W6_v18 : W6 m ρ c (Proc.devRef .tc main_v18) = (asRow128 (ar11 m c)) :=
  (Gen.W6_of_ne m ρ c main_v18 (by decide)).trans (W5_v18 m ρ c)

theorem W6_arg1 : W6 m ρ c (Proc.devRef .tc main_arg1) = (ar1 m c) :=
  (Gen.W6_of_ne m ρ c main_arg1 (by decide)).trans (W5_arg1 m ρ c)

theorem W6_arg2 : W6 m ρ c (Proc.devRef .tc main_arg2) = (ar2 m c) :=
  (Gen.W6_of_ne m ρ c main_arg2 (by decide)).trans (W5_arg2 m ρ c)

theorem W6_v11 : W6 m ρ c (Proc.devRef .tc main_v11) = (degScale (ar1 m c)) :=
  (Gen.W6_of_ne m ρ c main_v11 (by decide)).trans (W5_v11 m ρ c)

theorem W6_v16 : W6 m ρ c (Proc.devRef .tc main_v16) = (degScale (ar2 m c)) :=
  (Gen.W6_of_ne m ρ c main_v16 (by decide)).trans (W5_v16 m ρ c)

theorem W6_arg5 : W6 m ρ c (Proc.devRef .tc main_arg5) = (ar5 m c) :=
  (Gen.W6_of_ne m ρ c main_arg5 (by decide)).trans (W5_arg5 m ρ c)

theorem W6_arg6 : W6 m ρ c (Proc.devRef .tc main_arg6) = (ar6 m c) :=
  (Gen.W6_of_ne m ρ c main_arg6 (by decide)).trans (W5_arg6 m ρ c)

theorem W6_v19 : W6 m ρ c (Proc.devRef .tc main_v19) = (asRow128 (ar12 m c)) :=
  (Gen.W6_of_ne m ρ c main_v19 (by decide)).trans (W5_v19 m ρ c)

theorem W6_v20 : W6 m ρ c (Proc.devRef .tc main_v20) = (asRow128 (ar13 m c)) :=
  (Gen.W6_of_ne m ρ c main_v20 (by decide)).trans (W5_v20 m ρ c)

theorem W6_arg7 : W6 m ρ c (Proc.devRef .tc main_arg7) = (ar7 m c) :=
  (Gen.W6_of_ne m ρ c main_arg7 (by decide)).trans (W5_arg7 m ρ c)

theorem W6_arg8 : W6 m ρ c (Proc.devRef .tc main_arg8) = (ar8 m c) :=
  (Gen.W6_of_ne m ρ c main_arg8 (by decide)).trans (W5_arg8 m ρ c)

theorem W6_v21 : W6 m ρ c (Proc.devRef .tc main_v21) = (asRow40 (ar9 m c)) :=
  (Gen.W6_of_ne m ρ c main_v21 (by decide)).trans (W5_v21 m ρ c)

set_option maxHeartbeats 2000000 in
theorem W6_v38_0 : W6 m ρ c (Proc.devRef .tc main_v38_0) = (y0 m c) := by
  refine (Gen.W6_arr m ρ c 4).trans ((RegionValue.region0_y (Gen.V5 m ρ) c).trans ?_)
  rw [show Gen.V5 m ρ c (Pipeline.arrRef spec0 0) = (sp m c (ar0 m c)) from W5_v37 m ρ c,
    show Gen.V5 m ρ c (Pipeline.arrRef spec0 1) = (ar0 m c) from W5_arg0 m ρ c,
    show Gen.V5 m ρ c (Pipeline.arrRef spec0 2) = (ar3 m c) from W5_arg3 m ρ c,
    show Gen.V5 m ρ c (Pipeline.arrRef spec0 3) = (ar4 m c) from W5_arg4 m ρ c]
  all_goals rfl

set_option maxHeartbeats 2000000 in
theorem W6_v38_1 : W6 m ρ c (Proc.devRef .tc main_v38_1) = (Spec.arrRow (Spec.colSum (Spec.mat (y0 m c)))) := by
  refine (Gen.W6_arr m ρ c 5).trans ((RegionValue.region0_sum (Gen.V5 m ρ) c).trans ?_)
  rw [show Gen.V5 m ρ c (Pipeline.arrRef spec0 0) = (sp m c (ar0 m c)) from W5_v37 m ρ c,
    show Gen.V5 m ρ c (Pipeline.arrRef spec0 1) = (ar0 m c) from W5_arg0 m ρ c,
    show Gen.V5 m ρ c (Pipeline.arrRef spec0 2) = (ar3 m c) from W5_arg3 m ρ c,
    show Gen.V5 m ρ c (Pipeline.arrRef spec0 3) = (ar4 m c) from W5_arg4 m ρ c]
  all_goals rfl

set_option maxHeartbeats 2000000 in
theorem W6_v38_2 : W6 m ρ c (Proc.devRef .tc main_v38_2) = (Spec.arrRow (Spec.colSumSq (Spec.mat (y0 m c)))) := by
  refine (Gen.W6_arr m ρ c 6).trans ((RegionValue.region0_sumsq (Gen.V5 m ρ) c).trans ?_)
  rw [show Gen.V5 m ρ c (Pipeline.arrRef spec0 0) = (sp m c (ar0 m c)) from W5_v37 m ρ c,
    show Gen.V5 m ρ c (Pipeline.arrRef spec0 1) = (ar0 m c) from W5_arg0 m ρ c,
    show Gen.V5 m ρ c (Pipeline.arrRef spec0 2) = (ar3 m c) from W5_arg3 m ρ c,
    show Gen.V5 m ρ c (Pipeline.arrRef spec0 3) = (ar4 m c) from W5_arg4 m ρ c]
  all_goals rfl

/-! ## Boundary 7 -/

theorem W7_v38_0 : W7 m ρ c (Proc.devRef .tc main_v38_0) = (y0 m c) := by
  show StableHlo.after Gen.hostOps1 (W6 m ρ c) (Proc.devRef .tc main_v38_0) = _
  rw [HostRead.h1_keep_v38_0]
  all_goals exact W6_v38_0 m ρ c

theorem W7_v17 : W7 m ρ c (Proc.devRef .tc main_v17) = (asRow128 (ar10 m c)) := by
  show StableHlo.after Gen.hostOps1 (W6 m ρ c) (Proc.devRef .tc main_v17) = _
  rw [HostRead.h1_keep_v17]
  all_goals exact W6_v17 m ρ c

theorem W7_v18 : W7 m ρ c (Proc.devRef .tc main_v18) = (asRow128 (ar11 m c)) := by
  show StableHlo.after Gen.hostOps1 (W6 m ρ c) (Proc.devRef .tc main_v18) = _
  rw [HostRead.h1_keep_v18]
  all_goals exact W6_v18 m ρ c

theorem W7_arg1 : W7 m ρ c (Proc.devRef .tc main_arg1) = (ar1 m c) := by
  show StableHlo.after Gen.hostOps1 (W6 m ρ c) (Proc.devRef .tc main_arg1) = _
  rw [HostRead.h1_keep_arg1]
  all_goals exact W6_arg1 m ρ c

theorem W7_arg2 : W7 m ρ c (Proc.devRef .tc main_arg2) = (ar2 m c) := by
  show StableHlo.after Gen.hostOps1 (W6 m ρ c) (Proc.devRef .tc main_arg2) = _
  rw [HostRead.h1_keep_arg2]
  all_goals exact W6_arg2 m ρ c

theorem W7_v11 : W7 m ρ c (Proc.devRef .tc main_v11) = (degScale (ar1 m c)) := by
  show StableHlo.after Gen.hostOps1 (W6 m ρ c) (Proc.devRef .tc main_v11) = _
  rw [HostRead.h1_keep_v11]
  all_goals exact W6_v11 m ρ c

theorem W7_v16 : W7 m ρ c (Proc.devRef .tc main_v16) = (degScale (ar2 m c)) := by
  show StableHlo.after Gen.hostOps1 (W6 m ρ c) (Proc.devRef .tc main_v16) = _
  rw [HostRead.h1_keep_v16]
  all_goals exact W6_v16 m ρ c

theorem W7_arg5 : W7 m ρ c (Proc.devRef .tc main_arg5) = (ar5 m c) := by
  show StableHlo.after Gen.hostOps1 (W6 m ρ c) (Proc.devRef .tc main_arg5) = _
  rw [HostRead.h1_keep_arg5]
  all_goals exact W6_arg5 m ρ c

theorem W7_arg6 : W7 m ρ c (Proc.devRef .tc main_arg6) = (ar6 m c) := by
  show StableHlo.after Gen.hostOps1 (W6 m ρ c) (Proc.devRef .tc main_arg6) = _
  rw [HostRead.h1_keep_arg6]
  all_goals exact W6_arg6 m ρ c

theorem W7_v19 : W7 m ρ c (Proc.devRef .tc main_v19) = (asRow128 (ar12 m c)) := by
  show StableHlo.after Gen.hostOps1 (W6 m ρ c) (Proc.devRef .tc main_v19) = _
  rw [HostRead.h1_keep_v19]
  all_goals exact W6_v19 m ρ c

theorem W7_v20 : W7 m ρ c (Proc.devRef .tc main_v20) = (asRow128 (ar13 m c)) := by
  show StableHlo.after Gen.hostOps1 (W6 m ρ c) (Proc.devRef .tc main_v20) = _
  rw [HostRead.h1_keep_v20]
  all_goals exact W6_v20 m ρ c

theorem W7_arg7 : W7 m ρ c (Proc.devRef .tc main_arg7) = (ar7 m c) := by
  show StableHlo.after Gen.hostOps1 (W6 m ρ c) (Proc.devRef .tc main_arg7) = _
  rw [HostRead.h1_keep_arg7]
  all_goals exact W6_arg7 m ρ c

theorem W7_arg8 : W7 m ρ c (Proc.devRef .tc main_arg8) = (ar8 m c) := by
  show StableHlo.after Gen.hostOps1 (W6 m ρ c) (Proc.devRef .tc main_arg8) = _
  rw [HostRead.h1_keep_arg8]
  all_goals exact W6_arg8 m ρ c

theorem W7_v21 : W7 m ρ c (Proc.devRef .tc main_v21) = (asRow40 (ar9 m c)) := by
  show StableHlo.after Gen.hostOps1 (W6 m ρ c) (Proc.devRef .tc main_v21) = _
  rw [HostRead.h1_keep_v21]
  all_goals exact W6_v21 m ρ c

theorem W7_v40 : W7 m ρ c (Proc.devRef .tc main_v40) = (meanRow (Spec.arrRow (Spec.colSum (Spec.mat (y0 m c))))) := by
  show StableHlo.after Gen.hostOps1 (W6 m ρ c) (Proc.devRef .tc main_v40) = _
  rw [HostRead.h1_v40, W6_v38_1 m ρ c]
  all_goals rfl

theorem W7_v44 : W7 m ρ c (Proc.devRef .tc main_v44) = (varRow (Spec.arrRow (Spec.colSum (Spec.mat (y0 m c)))) (Spec.arrRow (Spec.colSumSq (Spec.mat (y0 m c))))) := by
  show StableHlo.after Gen.hostOps1 (W6 m ρ c) (Proc.devRef .tc main_v44) = _
  rw [HostRead.h1_v44, W6_v38_1 m ρ c, W6_v38_2 m ρ c]
  all_goals rfl

/-! ## Boundary 8 -/

theorem W8_arg1 : W8 m ρ c (Proc.devRef .tc main_arg1) = (ar1 m c) :=
  (Gen.W8_of_ne m ρ c main_arg1 (by decide)).trans (W7_arg1 m ρ c)

theorem W8_arg2 : W8 m ρ c (Proc.devRef .tc main_arg2) = (ar2 m c) :=
  (Gen.W8_of_ne m ρ c main_arg2 (by decide)).trans (W7_arg2 m ρ c)

theorem W8_v11 : W8 m ρ c (Proc.devRef .tc main_v11) = (degScale (ar1 m c)) :=
  (Gen.W8_of_ne m ρ c main_v11 (by decide)).trans (W7_v11 m ρ c)

theorem W8_v16 : W8 m ρ c (Proc.devRef .tc main_v16) = (degScale (ar2 m c)) :=
  (Gen.W8_of_ne m ρ c main_v16 (by decide)).trans (W7_v16 m ρ c)

theorem W8_arg5 : W8 m ρ c (Proc.devRef .tc main_arg5) = (ar5 m c) :=
  (Gen.W8_of_ne m ρ c main_arg5 (by decide)).trans (W7_arg5 m ρ c)

theorem W8_arg6 : W8 m ρ c (Proc.devRef .tc main_arg6) = (ar6 m c) :=
  (Gen.W8_of_ne m ρ c main_arg6 (by decide)).trans (W7_arg6 m ρ c)

theorem W8_v19 : W8 m ρ c (Proc.devRef .tc main_v19) = (asRow128 (ar12 m c)) :=
  (Gen.W8_of_ne m ρ c main_v19 (by decide)).trans (W7_v19 m ρ c)

theorem W8_v20 : W8 m ρ c (Proc.devRef .tc main_v20) = (asRow128 (ar13 m c)) :=
  (Gen.W8_of_ne m ρ c main_v20 (by decide)).trans (W7_v20 m ρ c)

theorem W8_arg7 : W8 m ρ c (Proc.devRef .tc main_arg7) = (ar7 m c) :=
  (Gen.W8_of_ne m ρ c main_arg7 (by decide)).trans (W7_arg7 m ρ c)

theorem W8_arg8 : W8 m ρ c (Proc.devRef .tc main_arg8) = (ar8 m c) :=
  (Gen.W8_of_ne m ρ c main_arg8 (by decide)).trans (W7_arg8 m ρ c)

theorem W8_v21 : W8 m ρ c (Proc.devRef .tc main_v21) = (asRow40 (ar9 m c)) :=
  (Gen.W8_of_ne m ρ c main_v21 (by decide)).trans (W7_v21 m ρ c)

set_option maxHeartbeats 2000000 in
theorem W8_v45 : W8 m ρ c (Proc.devRef .tc main_v45) = (k1 m c) := by
  refine (Gen.W8_arr m ρ c 5).trans ((RegionValue.region1_out (Gen.V7 m ρ) c).trans ?_)
  rw [show Gen.V7 m ρ c (Pipeline.arrRef spec1 0) = (y0 m c) from W7_v38_0 m ρ c,
    show Gen.V7 m ρ c (Pipeline.arrRef spec1 1) = (meanRow (Spec.arrRow (Spec.colSum (Spec.mat (y0 m c))))) from W7_v40 m ρ c,
    show Gen.V7 m ρ c (Pipeline.arrRef spec1 2) = (varRow (Spec.arrRow (Spec.colSum (Spec.mat (y0 m c)))) (Spec.arrRow (Spec.colSumSq (Spec.mat (y0 m c))))) from W7_v44 m ρ c,
    show Gen.V7 m ρ c (Pipeline.arrRef spec1 3) = (asRow128 (ar10 m c)) from W7_v17 m ρ c,
    show Gen.V7 m ρ c (Pipeline.arrRef spec1 4) = (asRow128 (ar11 m c)) from W7_v18 m ρ c]
  all_goals rfl

/-! ## Boundary 9 -/

theorem W9_v45 : W9 m ρ c (Proc.devRef .tc main_v45) = (k1 m c) := by
  show StableHlo.after Gen.hostOps2 (W8 m ρ c) (Proc.devRef .tc main_v45) = _
  rw [HostRead.h2_keep_v45]
  all_goals exact W8_v45 m ρ c

theorem W9_arg1 : W9 m ρ c (Proc.devRef .tc main_arg1) = (ar1 m c) := by
  show StableHlo.after Gen.hostOps2 (W8 m ρ c) (Proc.devRef .tc main_arg1) = _
  rw [HostRead.h2_keep_arg1]
  all_goals exact W8_arg1 m ρ c

theorem W9_arg2 : W9 m ρ c (Proc.devRef .tc main_arg2) = (ar2 m c) := by
  show StableHlo.after Gen.hostOps2 (W8 m ρ c) (Proc.devRef .tc main_arg2) = _
  rw [HostRead.h2_keep_arg2]
  all_goals exact W8_arg2 m ρ c

theorem W9_v11 : W9 m ρ c (Proc.devRef .tc main_v11) = (degScale (ar1 m c)) := by
  show StableHlo.after Gen.hostOps2 (W8 m ρ c) (Proc.devRef .tc main_v11) = _
  rw [HostRead.h2_keep_v11]
  all_goals exact W8_v11 m ρ c

theorem W9_v16 : W9 m ρ c (Proc.devRef .tc main_v16) = (degScale (ar2 m c)) := by
  show StableHlo.after Gen.hostOps2 (W8 m ρ c) (Proc.devRef .tc main_v16) = _
  rw [HostRead.h2_keep_v16]
  all_goals exact W8_v16 m ρ c

theorem W9_arg5 : W9 m ρ c (Proc.devRef .tc main_arg5) = (ar5 m c) := by
  show StableHlo.after Gen.hostOps2 (W8 m ρ c) (Proc.devRef .tc main_arg5) = _
  rw [HostRead.h2_keep_arg5]
  all_goals exact W8_arg5 m ρ c

theorem W9_arg6 : W9 m ρ c (Proc.devRef .tc main_arg6) = (ar6 m c) := by
  show StableHlo.after Gen.hostOps2 (W8 m ρ c) (Proc.devRef .tc main_arg6) = _
  rw [HostRead.h2_keep_arg6]
  all_goals exact W8_arg6 m ρ c

theorem W9_v19 : W9 m ρ c (Proc.devRef .tc main_v19) = (asRow128 (ar12 m c)) := by
  show StableHlo.after Gen.hostOps2 (W8 m ρ c) (Proc.devRef .tc main_v19) = _
  rw [HostRead.h2_keep_v19]
  all_goals exact W8_v19 m ρ c

theorem W9_v20 : W9 m ρ c (Proc.devRef .tc main_v20) = (asRow128 (ar13 m c)) := by
  show StableHlo.after Gen.hostOps2 (W8 m ρ c) (Proc.devRef .tc main_v20) = _
  rw [HostRead.h2_keep_v20]
  all_goals exact W8_v20 m ρ c

theorem W9_arg7 : W9 m ρ c (Proc.devRef .tc main_arg7) = (ar7 m c) := by
  show StableHlo.after Gen.hostOps2 (W8 m ρ c) (Proc.devRef .tc main_arg7) = _
  rw [HostRead.h2_keep_arg7]
  all_goals exact W8_arg7 m ρ c

theorem W9_arg8 : W9 m ρ c (Proc.devRef .tc main_arg8) = (ar8 m c) := by
  show StableHlo.after Gen.hostOps2 (W8 m ρ c) (Proc.devRef .tc main_arg8) = _
  rw [HostRead.h2_keep_arg8]
  all_goals exact W8_arg8 m ρ c

theorem W9_v21 : W9 m ρ c (Proc.devRef .tc main_v21) = (asRow40 (ar9 m c)) := by
  show StableHlo.after Gen.hostOps2 (W8 m ρ c) (Proc.devRef .tc main_v21) = _
  rw [HostRead.h2_keep_v21]
  all_goals exact W8_v21 m ρ c

theorem W9_v61 : W9 m ρ c (Proc.devRef .tc main_v61) = (sp m c (k1 m c)) := by
  show StableHlo.after Gen.hostOps2 (W8 m ρ c) (Proc.devRef .tc main_v61) = _
  rw [HostRead.h2_v61, W8_v45 m ρ c, W8_arg1 m ρ c, W8_arg2 m ρ c, W8_v11 m ρ c, W8_v16 m ρ c]
  all_goals rfl

/-! ## Boundary 10 -/

theorem W10_v19 : W10 m ρ c (Proc.devRef .tc main_v19) = (asRow128 (ar12 m c)) :=
  (Gen.W10_of_ne m ρ c main_v19 (by decide)).trans (W9_v19 m ρ c)

theorem W10_v20 : W10 m ρ c (Proc.devRef .tc main_v20) = (asRow128 (ar13 m c)) :=
  (Gen.W10_of_ne m ρ c main_v20 (by decide)).trans (W9_v20 m ρ c)

theorem W10_arg1 : W10 m ρ c (Proc.devRef .tc main_arg1) = (ar1 m c) :=
  (Gen.W10_of_ne m ρ c main_arg1 (by decide)).trans (W9_arg1 m ρ c)

theorem W10_arg2 : W10 m ρ c (Proc.devRef .tc main_arg2) = (ar2 m c) :=
  (Gen.W10_of_ne m ρ c main_arg2 (by decide)).trans (W9_arg2 m ρ c)

theorem W10_v11 : W10 m ρ c (Proc.devRef .tc main_v11) = (degScale (ar1 m c)) :=
  (Gen.W10_of_ne m ρ c main_v11 (by decide)).trans (W9_v11 m ρ c)

theorem W10_v16 : W10 m ρ c (Proc.devRef .tc main_v16) = (degScale (ar2 m c)) :=
  (Gen.W10_of_ne m ρ c main_v16 (by decide)).trans (W9_v16 m ρ c)

theorem W10_arg7 : W10 m ρ c (Proc.devRef .tc main_arg7) = (ar7 m c) :=
  (Gen.W10_of_ne m ρ c main_arg7 (by decide)).trans (W9_arg7 m ρ c)

theorem W10_arg8 : W10 m ρ c (Proc.devRef .tc main_arg8) = (ar8 m c) :=
  (Gen.W10_of_ne m ρ c main_arg8 (by decide)).trans (W9_arg8 m ρ c)

theorem W10_v21 : W10 m ρ c (Proc.devRef .tc main_v21) = (asRow40 (ar9 m c)) :=
  (Gen.W10_of_ne m ρ c main_v21 (by decide)).trans (W9_v21 m ρ c)

set_option maxHeartbeats 2000000 in
theorem W10_v62_0 : W10 m ρ c (Proc.devRef .tc main_v62_0) = (y1 m c) := by
  refine (Gen.W10_arr m ρ c 4).trans ((RegionValue.region2_y (Gen.V9 m ρ) c).trans ?_)
  rw [show Gen.V9 m ρ c (Pipeline.arrRef spec2 0) = (sp m c (k1 m c)) from W9_v61 m ρ c,
    show Gen.V9 m ρ c (Pipeline.arrRef spec2 1) = (k1 m c) from W9_v45 m ρ c,
    show Gen.V9 m ρ c (Pipeline.arrRef spec2 2) = (ar5 m c) from W9_arg5 m ρ c,
    show Gen.V9 m ρ c (Pipeline.arrRef spec2 3) = (ar6 m c) from W9_arg6 m ρ c]
  all_goals rfl

set_option maxHeartbeats 2000000 in
theorem W10_v62_1 : W10 m ρ c (Proc.devRef .tc main_v62_1) = (Spec.arrRow (Spec.colSum (Spec.mat (y1 m c)))) := by
  refine (Gen.W10_arr m ρ c 5).trans ((RegionValue.region2_sum (Gen.V9 m ρ) c).trans ?_)
  rw [show Gen.V9 m ρ c (Pipeline.arrRef spec2 0) = (sp m c (k1 m c)) from W9_v61 m ρ c,
    show Gen.V9 m ρ c (Pipeline.arrRef spec2 1) = (k1 m c) from W9_v45 m ρ c,
    show Gen.V9 m ρ c (Pipeline.arrRef spec2 2) = (ar5 m c) from W9_arg5 m ρ c,
    show Gen.V9 m ρ c (Pipeline.arrRef spec2 3) = (ar6 m c) from W9_arg6 m ρ c]
  all_goals rfl

set_option maxHeartbeats 2000000 in
theorem W10_v62_2 : W10 m ρ c (Proc.devRef .tc main_v62_2) = (Spec.arrRow (Spec.colSumSq (Spec.mat (y1 m c)))) := by
  refine (Gen.W10_arr m ρ c 6).trans ((RegionValue.region2_sumsq (Gen.V9 m ρ) c).trans ?_)
  rw [show Gen.V9 m ρ c (Pipeline.arrRef spec2 0) = (sp m c (k1 m c)) from W9_v61 m ρ c,
    show Gen.V9 m ρ c (Pipeline.arrRef spec2 1) = (k1 m c) from W9_v45 m ρ c,
    show Gen.V9 m ρ c (Pipeline.arrRef spec2 2) = (ar5 m c) from W9_arg5 m ρ c,
    show Gen.V9 m ρ c (Pipeline.arrRef spec2 3) = (ar6 m c) from W9_arg6 m ρ c]
  all_goals rfl

/-! ## Boundary 11 -/

theorem W11_v62_0 : W11 m ρ c (Proc.devRef .tc main_v62_0) = (y1 m c) := by
  show StableHlo.after Gen.hostOps3 (W10 m ρ c) (Proc.devRef .tc main_v62_0) = _
  rw [HostRead.h3_keep_v62_0]
  all_goals exact W10_v62_0 m ρ c

theorem W11_v19 : W11 m ρ c (Proc.devRef .tc main_v19) = (asRow128 (ar12 m c)) := by
  show StableHlo.after Gen.hostOps3 (W10 m ρ c) (Proc.devRef .tc main_v19) = _
  rw [HostRead.h3_keep_v19]
  all_goals exact W10_v19 m ρ c

theorem W11_v20 : W11 m ρ c (Proc.devRef .tc main_v20) = (asRow128 (ar13 m c)) := by
  show StableHlo.after Gen.hostOps3 (W10 m ρ c) (Proc.devRef .tc main_v20) = _
  rw [HostRead.h3_keep_v20]
  all_goals exact W10_v20 m ρ c

theorem W11_arg1 : W11 m ρ c (Proc.devRef .tc main_arg1) = (ar1 m c) := by
  show StableHlo.after Gen.hostOps3 (W10 m ρ c) (Proc.devRef .tc main_arg1) = _
  rw [HostRead.h3_keep_arg1]
  all_goals exact W10_arg1 m ρ c

theorem W11_arg2 : W11 m ρ c (Proc.devRef .tc main_arg2) = (ar2 m c) := by
  show StableHlo.after Gen.hostOps3 (W10 m ρ c) (Proc.devRef .tc main_arg2) = _
  rw [HostRead.h3_keep_arg2]
  all_goals exact W10_arg2 m ρ c

theorem W11_v11 : W11 m ρ c (Proc.devRef .tc main_v11) = (degScale (ar1 m c)) := by
  show StableHlo.after Gen.hostOps3 (W10 m ρ c) (Proc.devRef .tc main_v11) = _
  rw [HostRead.h3_keep_v11]
  all_goals exact W10_v11 m ρ c

theorem W11_v16 : W11 m ρ c (Proc.devRef .tc main_v16) = (degScale (ar2 m c)) := by
  show StableHlo.after Gen.hostOps3 (W10 m ρ c) (Proc.devRef .tc main_v16) = _
  rw [HostRead.h3_keep_v16]
  all_goals exact W10_v16 m ρ c

theorem W11_arg7 : W11 m ρ c (Proc.devRef .tc main_arg7) = (ar7 m c) := by
  show StableHlo.after Gen.hostOps3 (W10 m ρ c) (Proc.devRef .tc main_arg7) = _
  rw [HostRead.h3_keep_arg7]
  all_goals exact W10_arg7 m ρ c

theorem W11_arg8 : W11 m ρ c (Proc.devRef .tc main_arg8) = (ar8 m c) := by
  show StableHlo.after Gen.hostOps3 (W10 m ρ c) (Proc.devRef .tc main_arg8) = _
  rw [HostRead.h3_keep_arg8]
  all_goals exact W10_arg8 m ρ c

theorem W11_v21 : W11 m ρ c (Proc.devRef .tc main_v21) = (asRow40 (ar9 m c)) := by
  show StableHlo.after Gen.hostOps3 (W10 m ρ c) (Proc.devRef .tc main_v21) = _
  rw [HostRead.h3_keep_v21]
  all_goals exact W10_v21 m ρ c

theorem W11_v64 : W11 m ρ c (Proc.devRef .tc main_v64) = (meanRow (Spec.arrRow (Spec.colSum (Spec.mat (y1 m c))))) := by
  show StableHlo.after Gen.hostOps3 (W10 m ρ c) (Proc.devRef .tc main_v64) = _
  rw [HostRead.h3_v64, W10_v62_1 m ρ c]
  all_goals rfl

theorem W11_v68 : W11 m ρ c (Proc.devRef .tc main_v68) = (varRow (Spec.arrRow (Spec.colSum (Spec.mat (y1 m c)))) (Spec.arrRow (Spec.colSumSq (Spec.mat (y1 m c))))) := by
  show StableHlo.after Gen.hostOps3 (W10 m ρ c) (Proc.devRef .tc main_v68) = _
  rw [HostRead.h3_v68, W10_v62_1 m ρ c, W10_v62_2 m ρ c]
  all_goals rfl

/-! ## Boundary 12 -/

theorem W12_arg1 : W12 m ρ c (Proc.devRef .tc main_arg1) = (ar1 m c) :=
  (Gen.W12_of_ne m ρ c main_arg1 (by decide)).trans (W11_arg1 m ρ c)

theorem W12_arg2 : W12 m ρ c (Proc.devRef .tc main_arg2) = (ar2 m c) :=
  (Gen.W12_of_ne m ρ c main_arg2 (by decide)).trans (W11_arg2 m ρ c)

theorem W12_v11 : W12 m ρ c (Proc.devRef .tc main_v11) = (degScale (ar1 m c)) :=
  (Gen.W12_of_ne m ρ c main_v11 (by decide)).trans (W11_v11 m ρ c)

theorem W12_v16 : W12 m ρ c (Proc.devRef .tc main_v16) = (degScale (ar2 m c)) :=
  (Gen.W12_of_ne m ρ c main_v16 (by decide)).trans (W11_v16 m ρ c)

theorem W12_arg7 : W12 m ρ c (Proc.devRef .tc main_arg7) = (ar7 m c) :=
  (Gen.W12_of_ne m ρ c main_arg7 (by decide)).trans (W11_arg7 m ρ c)

theorem W12_arg8 : W12 m ρ c (Proc.devRef .tc main_arg8) = (ar8 m c) :=
  (Gen.W12_of_ne m ρ c main_arg8 (by decide)).trans (W11_arg8 m ρ c)

theorem W12_v21 : W12 m ρ c (Proc.devRef .tc main_v21) = (asRow40 (ar9 m c)) :=
  (Gen.W12_of_ne m ρ c main_v21 (by decide)).trans (W11_v21 m ρ c)

set_option maxHeartbeats 2000000 in
theorem W12_v69 : W12 m ρ c (Proc.devRef .tc main_v69) = (k2 m c) := by
  refine (Gen.W12_arr m ρ c 5).trans ((RegionValue.region3_out (Gen.V11 m ρ) c).trans ?_)
  rw [show Gen.V11 m ρ c (Pipeline.arrRef spec3 0) = (y1 m c) from W11_v62_0 m ρ c,
    show Gen.V11 m ρ c (Pipeline.arrRef spec3 1) = (meanRow (Spec.arrRow (Spec.colSum (Spec.mat (y1 m c))))) from W11_v64 m ρ c,
    show Gen.V11 m ρ c (Pipeline.arrRef spec3 2) = (varRow (Spec.arrRow (Spec.colSum (Spec.mat (y1 m c)))) (Spec.arrRow (Spec.colSumSq (Spec.mat (y1 m c))))) from W11_v68 m ρ c,
    show Gen.V11 m ρ c (Pipeline.arrRef spec3 3) = (asRow128 (ar12 m c)) from W11_v19 m ρ c,
    show Gen.V11 m ρ c (Pipeline.arrRef spec3 4) = (asRow128 (ar13 m c)) from W11_v20 m ρ c]
  all_goals rfl

/-! ## Boundary 13 -/

theorem W13_v69 : W13 m ρ c (Proc.devRef .tc main_v69) = (k2 m c) := by
  show StableHlo.after Gen.hostOps4 (W12 m ρ c) (Proc.devRef .tc main_v69) = _
  rw [HostRead.h4_keep_v69]
  all_goals exact W12_v69 m ρ c

theorem W13_arg7 : W13 m ρ c (Proc.devRef .tc main_arg7) = (ar7 m c) := by
  show StableHlo.after Gen.hostOps4 (W12 m ρ c) (Proc.devRef .tc main_arg7) = _
  rw [HostRead.h4_keep_arg7]
  all_goals exact W12_arg7 m ρ c

theorem W13_arg8 : W13 m ρ c (Proc.devRef .tc main_arg8) = (ar8 m c) := by
  show StableHlo.after Gen.hostOps4 (W12 m ρ c) (Proc.devRef .tc main_arg8) = _
  rw [HostRead.h4_keep_arg8]
  all_goals exact W12_arg8 m ρ c

theorem W13_v21 : W13 m ρ c (Proc.devRef .tc main_v21) = (asRow40 (ar9 m c)) := by
  show StableHlo.after Gen.hostOps4 (W12 m ρ c) (Proc.devRef .tc main_v21) = _
  rw [HostRead.h4_keep_v21]
  all_goals exact W12_v21 m ρ c

theorem W13_v85 : W13 m ρ c (Proc.devRef .tc main_v85) = (sp m c (k2 m c)) := by
  show StableHlo.after Gen.hostOps4 (W12 m ρ c) (Proc.devRef .tc main_v85) = _
  rw [HostRead.h4_v85, W12_v69 m ρ c, W12_arg1 m ρ c, W12_arg2 m ρ c, W12_v11 m ρ c, W12_v16 m ρ c]
  all_goals rfl

/-! ## Boundary 14 -/

set_option maxHeartbeats 2000000 in
theorem W14_v86 : W14 m ρ c (Proc.devRef .tc main_v86) = (out m c) := by
  refine (Gen.W14_arr m ρ c 5).trans ((RegionValue.region4_out (Gen.V13 m ρ) c).trans ?_)
  rw [show Gen.V13 m ρ c (Pipeline.arrRef spec4 0) = (sp m c (k2 m c)) from W13_v85 m ρ c,
    show Gen.V13 m ρ c (Pipeline.arrRef spec4 1) = (k2 m c) from W13_v69 m ρ c,
    show Gen.V13 m ρ c (Pipeline.arrRef spec4 2) = (ar7 m c) from W13_arg7 m ρ c,
    show Gen.V13 m ρ c (Pipeline.arrRef spec4 3) = (ar8 m c) from W13_arg8 m ρ c,
    show Gen.V13 m ρ c (Pipeline.arrRef spec4 4) = (asRow40 (ar9 m c)) from W13_v21 m ρ c]
  all_goals rfl

end Cert.KernelIdeal.ValueChain

end
-- ==== Proof.RefReadOps.lean ====
/-
  The reference's two matrix products and its column sum, read at an entry on the extended reals.

  A product of a 100000 × 128 array with a 128 × q array has at (r, c) the sum over k of the left array at (r, k)
  times the right array at (k, c): the contraction runs over the left array's second axis and the right array's
  first.  The sum of a 100000 × 128 array over its rows, from an initial value, has at column c the initial value
  plus the sum over r of the array at (r, c).
-/
import proofs.«163791_j23218593202704_1_alg».proof.ReferenceIdeal
import proofs.«163791_j23218593202704_1_alg».proof.Proof.Gen.ReferenceIdeal
import Idealize.ShloMosaic.Lib.ValueIdx
import Idealize.ShloMosaic.Lib.Pipeline.Value
import Idealize.ShloMosaic.PureOps.Ideal.Laws

noncomputable section

open scoped BigOperators

namespace Cert.ReferenceIdeal.Read

open Cert.ReferenceIdeal Cert.ReferenceIdeal.Facts₀ Idealize.ShloMosaic Idealize.ShloMosaic.ValueIdx

/-! ## The product into 128 columns -/

/-- the left array's row coordinate is the result's row -/
theorem dot128_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- the left array's column coordinate is the contraction position -/
theorem dot128_lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

/-- the right array's row coordinate is the contraction position -/
theorem dot128_rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

/-- the right array's column coordinate is the result's column -/
theorem dot128_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- THE PRODUCT AT (r, c): the sum over k of the left array at (r, k) times the right array at (k, c). -/
theorem dot128_apply (A : FVec Ideal S100000x128 .f32) (W : FVec Ideal S128x128 .f32) (r : Fin 100000) (c : Fin 128) :
    Host.dotGeneral (F := Ideal) dot_S100000x128_S128x128_S100000x128_1_0_0_1_n_n none A W (ix2 r c)
      = ∑ k : Fin 128, A (ix2 r k) * W (ix2 k c) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r c) ((contrEquiv1 dot_S100000x128_S128x128_S100000x128_1_0_0_1_n_n 128 rfl rfl).symm k) = ix2 r k :=
    funext fun a => Fin.ext (by
      match a with
      | ⟨0, _⟩ => exact dot128_lhs_0 _ _
      | ⟨1, _⟩ => exact (dot128_lhs_1 _ _).trans hk)
  have er : dot_S100000x128_S128x128_S100000x128_1_0_0_1_n_n.rhsIdx (ix2 r c) ((contrEquiv1 dot_S100000x128_S128x128_S100000x128_1_0_0_1_n_n 128 rfl rfl).symm k) = ix2 k c :=
    funext fun a => Fin.ext (by
      match a with
      | ⟨0, _⟩ => exact (dot128_rhs_0 _ _).trans hk
      | ⟨1, _⟩ => exact dot128_rhs_1 _ _)
  rw [el, er]

/-! ## The product into 40 columns -/

/-- the left array's row coordinate is the result's row -/
theorem dot40_lhs_0 (i : S100000x40.Idx) (q : dot_S100000x128_S128x40_S100000x40_1_0_0_1_n_n.contr.Idx) :
    (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl

/-- the left array's column coordinate is the contraction position -/
theorem dot40_lhs_1 (i : S100000x40.Idx) (q : dot_S100000x128_S128x40_S100000x40_1_0_0_1_n_n.contr.Idx) :
    (dot_S100000x128_S128x40_S100000x40_1_0_0_1_n_n.lhsIdx i q 1).val = (q ⟨0, by decide⟩).val :=
  dot_S100000x128_S128x40_S100000x40_1_0_0_1_n_n.lhsIdx_val_of_single rfl i q

/-- the right array's row coordinate is the contraction position -/
theorem dot40_rhs_0 (i : S100000x40.Idx) (q : dot_S100000x128_S128x40_S100000x40_1_0_0_1_n_n.contr.Idx) :
    (dot_S100000x128_S128x40_S100000x40_1_0_0_1_n_n.rhsIdx i q 0).val = (q ⟨0, by decide⟩).val :=
  dot_S100000x128_S128x40_S100000x40_1_0_0_1_n_n.rhsIdx_val_of_single rfl i q

/-- the right array's column coordinate is the result's column -/
theorem dot40_rhs_1 (i : S100000x40.Idx) (q : dot_S100000x128_S128x40_S100000x40_1_0_0_1_n_n.contr.Idx) :
    (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-- THE PRODUCT AT (r, c): the sum over k of the left array at (r, k) times the right array at (k, c). -/
theorem dot40_apply (A : FVec Ideal S100000x128 .f32) (W : FVec Ideal S128x40 .f32) (r : Fin 100000) (c : Fin 40) :
    Host.dotGeneral (F := Ideal) dot_S100000x128_S128x40_S100000x40_1_0_0_1_n_n none A W (ix2 r c)
      = ∑ k : Fin 128, A (ix2 r k) * W (ix2 k c) := by
  simp only [Host.dotGeneral]
  rw [Ideal.dotGeneral_apply, ← Equiv.sum_comp (contrEquiv1 dot_S100000x128_S128x40_S100000x40_1_0_0_1_n_n 128 rfl rfl).symm]
  refine Finset.sum_congr rfl fun k _ => ?_
  have hk := contrEquiv1_symm_val dot_S100000x128_S128x40_S100000x40_1_0_0_1_n_n 128 rfl rfl k
  have el : dot_S100000x128_S128x40_S100000x40_1_0_0_1_n_n.lhsIdx (ix2 r c) ((contrEquiv1 dot_S100000x128_S128x40_S100000x40_1_0_0_1_n_n 128 rfl rfl).symm k) = ix2 r k :=
    funext fun a => Fin.ext (by
      match a with
      | ⟨0, _⟩ => exact dot40_lhs_0 _ _
      | ⟨1, _⟩ => exact (dot40_lhs_1 _ _).trans hk)
  have er : dot_S100000x128_S128x40_S100000x40_1_0_0_1_n_n.rhsIdx (ix2 r c) ((contrEquiv1 dot_S100000x128_S128x40_S100000x40_1_0_0_1_n_n 128 rfl rfl).symm k) = ix2 k c :=
    funext fun a => Fin.ext (by
      match a with
      | ⟨0, _⟩ => exact (dot40_rhs_0 _ _).trans hk
      | ⟨1, _⟩ => exact dot40_rhs_1 _ _)
  rw [el, er]

/-! ## The sum over the rows -/

/-- THE COLUMN SUM AT c: the initial value plus the sum over the rows r of the array at (r, c). -/
theorem rowsSum_apply (Y : FVec Ideal S100000x128 .f32) (z : FVec Ideal S_ .f32) (c : Fin 128) :
    Host.reduceAdd (F := Ideal) Y z reducesTo_S100000x128_S128_d0 h_S_ (ix1 c)
      = z (Shape.Idx.first h_S_) + ∑ r : Fin 100000, Y (ix2 r c) := by
  have hR : S100000x128.Reduces [0] S128 := by decide
  simp only [Host.reduceAdd, Ideal.hostReduceAdd_def]
  rw [Ideal.hostReduceAdd_single reducesTo_S100000x128_S128_d0 hR]
  refine congrArg (_ + ·) ?_
  show ∑ k : Fin 100000, Y (hR.lift (ix1 c) k) = ∑ r : Fin 100000, Y (ix2 r c)
  refine Finset.sum_congr rfl fun k _ => congrArg Y (funext fun a => Fin.ext ?_)
  match a with
  | ⟨0, _⟩ => rfl
  | ⟨1, _⟩ => rfl

end Cert.ReferenceIdeal.Read

end
-- ==== Proof.RefRead.lean ====
/-
  The reference's pieces read at an entry, on the extended reals.

  A linear layer is, at (r, c), the aggregated row r through column c of one weight matrix plus the node's own row r
  through column c of the other; the last layer adds the bias of column c between the two.  A column's total is the
  sum of its 100000 entries, its mean the total divided by 100000, an entry's deviation the entry minus its
  column's mean, and a column's variance the sum of the squared deviations divided by 100000: the program divides
  by the row count less a correction of zero, and takes the quotient because that count is positive.  The
  normalising layer subtracts the mean, multiplies by the reciprocal square root of the variance plus a small
  number, scales, shifts, and clips below at zero.
-/
import proofs.«163791_j23218593202704_1_alg».proof.Proof.RefTerms
import proofs.«163791_j23218593202704_1_alg».proof.Proof.Spec
import proofs.«163791_j23218593202704_1_alg».proof.Proof.RefReadOps
import proofs.«163791_j23218593202704_1_alg».proof.Proof.LibHostReads
import proofs.«163791_j23218593202704_1_alg».proof.Proof.LibBroadcasts
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Read

open Cert.ReferenceIdeal Cert.ReferenceIdeal.Facts₀ Cert.ReferenceIdeal.Terms Idealize.ShloMosaic Idealize.ShloMosaic.ValueIdx

/-! ## The linear layers -/

/-- ONE LINEAR LAYER is the specification's, entry by entry. -/
theorem linear_eq (A H : FVec Ideal S100000x128 .f32) (W L : FVec Ideal S128x128 .f32) :
    Terms.linear A H W L = Spec.arr2 (Spec.lin (Spec.mat A) (Spec.mat H) (Spec.mat W) (Spec.mat L)) := by
  funext i
  obtain ⟨r, c, rfl⟩ : ∃ (r : Fin 100000) (c : Fin 128), i = ix2 r c := ⟨i 0, i 1, eq_ix2 i⟩
  unfold Terms.linear
  rw [addf_apply, dot128_apply, dot128_apply]
  rfl

/-- a row of 40 entries repeated down the 100000 rows reads entry c at (r, c) -/
theorem biasRows_apply (b : FVec Ideal S40 .f32) (r : Fin 100000) (c : Fin 40) :
    broadcastInDim S100000x40 ![0, 1] bcast_S1x40_S100000x40_0_1 (broadcastInDim S1x40 ![1] bcast_S40_S1x40_1 b) (ix2 r c)
      = b (ix1 c) := by
  rw [Broadcasts.repeat_apply, Broadcasts.row_apply]

/-- THE LAST LAYER at (r, c): the aggregated row's product, plus the bias of the column, plus the node row's product. -/
theorem lastLayer_apply (A H : FVec Ideal S100000x128 .f32) (W L : FVec Ideal S128x40 .f32) (b : FVec Ideal S40 .f32)
    (r : Fin 100000) (c : Fin 40) :
    Terms.lastLayer A H W L b (ix2 r c)
      = ((∑ k : Fin 128, A (ix2 r k) * W (ix2 k c)) + b (ix1 c)) + ∑ k : Fin 128, H (ix2 r k) * L (ix2 k c) := by
  unfold Terms.lastLayer
  rw [addf_apply, addf_apply, dot40_apply, dot40_apply, biasRows_apply]

/-! ## Broadcasts of a row of 128 entries and of a scalar -/

/-- a row of 128 entries repeated down the 100000 rows reads entry c at (r, c) -/
theorem perCol_apply (v : FVec Ideal S128 .f32) (r : Fin 100000) (c : Fin 128) : Terms.perCol v (ix2 r c) = v (ix1 c) := by
  unfold Terms.perCol
  rw [Broadcasts.repeat_apply, Broadcasts.row_apply]

/-! ## The row count -/

/-- the word of the row count denotes the real 100000 -/
theorem ofBits_rows : Ideal.ofBits .f32 0x47C35000#32 = ((100000 : ℝ) : EReal) := by
  simp [Ideal.ofBits, Ideal.ieee, -EReal.coe_mul]; norm_num

/-- the row count is positive -/
theorem rows_pos : (0 : EReal) < Ideal.ofBits .f32 0x47C35000#32 := by
  rw [ofBits_rows]
  exact_mod_cast (by norm_num : (0 : ℝ) < 100000)

/-- with a correction of zero the row count stays the row count -/
theorem rowCount_zero : Terms.rowCount (constantI S_ 32 0#32) ix0 = Ideal.ofBits .f32 0x47C35000#32 := by
  unfold Terms.rowCount
  rw [subf_apply, constant_apply, sitofp_apply]
  show Ideal.ofBits .f32 0x47C35000#32 - (((constantI S_ 32 0#32 ix0).toInt : ℝ) : EReal) = _
  simp [constantI]

/-! ## Totals, means, deviations and variances of the columns -/

/-- A COLUMN'S TOTAL: the sum of its entries. -/
theorem colTotal_apply (Y : FVec Ideal S100000x128 .f32) (c : Fin 128) :
    Terms.colTotal Y (ix1 c) = ∑ r : Fin 100000, Y (ix2 r c) := by
  unfold Terms.colTotal
  rw [rowsSum_apply, constant_apply, Ideal.ofBits_zero_f32, zero_add]

/-- A COLUMN'S MEAN: its total divided by the row count. -/
theorem colMean_apply (Y : FVec Ideal S100000x128 .f32) (c : Fin 128) :
    Terms.colMean Y (ix1 c) = Ideal.div (∑ r : Fin 100000, Y (ix2 r c)) (Ideal.ofBits .f32 0x47C35000#32) := by
  unfold Terms.colMean
  rw [HostReads.hostDivf_apply, Broadcasts.scalar_apply, constant_apply, colTotal_apply]

/-- AN ENTRY'S DEVIATION: the entry minus its column's mean. -/
theorem colDev_apply (Y : FVec Ideal S100000x128 .f32) (r : Fin 100000) (c : Fin 128) :
    Terms.colDev Y (ix2 r c)
      = Y (ix2 r c) - Ideal.div (∑ r' : Fin 100000, Y (ix2 r' c)) (Ideal.ofBits .f32 0x47C35000#32) := by
  unfold Terms.colDev
  rw [subf_apply, Broadcasts.repeat_apply, HostReads.hostDivf_apply, Broadcasts.row_apply, Broadcasts.scalar_apply,
    constant_apply, colTotal_apply]

/-- A COLUMN'S VARIANCE: the sum of the squared deviations divided by the row count. -/
theorem colVar_apply (Y : FVec Ideal S100000x128 .f32) (c : Fin 128) :
    Terms.colVar Y (constantI S_ 32 0#32) (ix1 c)
      = Ideal.div (∑ r : Fin 100000, Terms.colDev Y (ix2 r c) * Terms.colDev Y (ix2 r c))
          (Ideal.ofBits .f32 0x47C35000#32) := by
  unfold Terms.colVar
  rw [select_apply, Broadcasts.scalar_apply, cmpf_apply, rowCount_zero, constant_apply, Ideal.ofBits_zero_f32]
  have hc : FloatOps.cmpf (F := Ideal) (φ := .f32) .ogt (Ideal.ofBits .f32 0x47C35000#32) 0 = 1#1 := by
    show Ideal.cmp .ogt (Ideal.ofBits .f32 0x47C35000#32) 0 = 1#1
    simp [Ideal.cmp, rows_pos]
  rw [hc, select_one, HostReads.hostDivf_apply, Broadcasts.scalar_apply, rowCount_zero, colTotal_apply]
  rfl

/-! ## The normalising layer -/

/-- NORMALISE, SCALE, SHIFT, CLIP at (r, c). -/
theorem batchNormRelu_apply (Y : FVec Ideal S100000x128 .f32) (g be : FVec Ideal S128 .f32) (r : Fin 100000) (c : Fin 128) :
    Terms.batchNormRelu Y g be (ix2 r c)
      = max ((Y (ix2 r c) - Terms.colMean Y (ix1 c))
          * Ideal.rsqrt (Terms.colVar Y (constantI S_ 32 0#32) (ix1 c) + Spec.eps) * g (ix1 c) + be (ix1 c)) 0 := by
  unfold Terms.batchNormRelu
  rw [maximumf_apply, addf_apply, mulf_apply, mulf_apply, subf_apply, perCol_apply, perCol_apply, perCol_apply,
    perCol_apply, Broadcasts.scalar_apply, constant_apply, Ideal.ofBits_zero_f32]
  rfl

end Cert.ReferenceIdeal.Read

end
-- ==== Proof.Consts.lean ====
/-
  The float words the two programs spell, as the extended reals they denote.
-/
import Idealize.ShloMosaic.PureOps.Ideal

noncomputable section

namespace Cert.Consts

open Idealize.ShloMosaic

/-- the row count 100000.0 denotes the real 100000 -/
theorem ofBits_rows : Ideal.ofBits .f32 0x47C35000#32 = ((100000 : ℝ) : EReal) := by
  simp [Ideal.ofBits, Ideal.ieee, -EReal.coe_mul]; norm_num

/-- 1.0 denotes 1 -/
theorem ofBits_one : Ideal.ofBits .f32 0x3F800000#32 = ((1 : ℝ) : EReal) := by
  simp [Ideal.ofBits, Ideal.ieee, -EReal.coe_mul]; norm_num

/-- −0.5 denotes −1/2 -/
theorem ofBits_neg_half : Ideal.ofBits .f32 0xBF000000#32 = ((-(1 / 2) : ℝ) : EReal) := by
  simp [Ideal.ofBits, Ideal.ieee, -EReal.coe_mul]; norm_num

/-- the small number added to a variance denotes a positive real -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.RealLaws.lean ====
/-
  The laws of the real numbers that the two programs differ by.

  Both programs normalise a column by its mean and its variance. One forms the variance as the mean of the squares
  minus the square of the mean, the other as the mean of the squared deviations from the mean. On the real numbers
  these are one number; on the extended reals they are one number when every entry of the column is a real number,
  because then every intermediate value is a real number and the extended operations are the real ones.

  This file says what "is a real number" means for an extended real, shows that the operations the programs use keep
  that property, proves the identity of the two variances over an arbitrary finite index set of reals, and carries
  it to the extended reals.
-/
import proofs.«163791_j23218593202704_1_alg».proof.Proof.Spec
import proofs.«163791_j23218593202704_1_alg».proof.Proof.Consts

noncomputable section

open scoped BigOperators

namespace Cert.Laws

open Idealize.ShloMosaic Idealize.ShloMosaic.ValueIdx

/-- the row count 100000.0 as the programs spell it -/
local notation "𝐍" => Ideal.ofBits FTy.f32 0x47C35000#32

/-! ### Extended reals that are real numbers -/

/-- an extended real that is neither infinity -/
def IsReal (x : EReal) : Prop := x ≠ ⊥ ∧ x ≠ ⊤

theorem isReal_coe (r : ℝ) : IsReal (r : EReal) := ⟨EReal.coe_ne_bot r, EReal.coe_ne_top r⟩

theorem IsReal.exists_eq {x : EReal} (h : IsReal x) : ∃ r : ℝ, x = (r : EReal) := by
  lift x to ℝ using ⟨h.2, h.1⟩
  exact ⟨x, rfl⟩

theorem isReal_zero : IsReal (0 : EReal) := by
  rw [← EReal.coe_zero]; exact isReal_coe 0

theorem isReal_one : IsReal (1 : EReal) := by
  rw [← EReal.coe_one]; exact isReal_coe 1

theorem isReal_add {x y : EReal} (hx : IsReal x) (hy : IsReal y) : IsReal (x + y) := by
  obtain ⟨a, rfl⟩ := hx.exists_eq
  obtain ⟨b, rfl⟩ := hy.exists_eq
  rw [← EReal.coe_add]; exact isReal_coe _

theorem isReal_sub {x y : EReal} (hx : IsReal x) (hy : IsReal y) : IsReal (x - y) := by
  obtain ⟨a, rfl⟩ := hx.exists_eq
  obtain ⟨b, rfl⟩ := hy.exists_eq
  rw [← EReal.coe_sub]; exact isReal_coe _

theorem isReal_mul {x y : EReal} (hx : IsReal x) (hy : IsReal y) : IsReal (x * y) := by
  obtain ⟨a, rfl⟩ := hx.exists_eq
  obtain ⟨b, rfl⟩ := hy.exists_eq
  rw [← EReal.coe_mul]; exact isReal_coe _

theorem isReal_max {x y : EReal} (hx : IsReal x) (hy : IsReal y) : IsReal (max x y) := by
  rcases max_choice x y with h | h <;> rw [h] <;> assumption

theorem isReal_sum {ι : Type*} (s : Finset ι) (f : ι → EReal) (h : ∀ i ∈ s, IsReal (f i)) :
    IsReal (∑ i ∈ s, f i) :=
  Finset.sum_induction f IsReal (fun _ _ ha hb => isReal_add ha hb) isReal_zero h

/-- the cast of a finite sum of reals is the sum of the casts -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- dividing a real by the row count is the real quotient -/
theorem div_rows_coe (a : ℝ) : Ideal.div (a : EReal) 𝐍 = ((a / 100000 : ℝ) : EReal) := by
  rw [Cert.Consts.ofBits_rows, Ideal.div_coe (by norm_num), ← EReal.coe_mul, mul_one_div]

theorem isReal_div_rows {x : EReal} (hx : IsReal x) : IsReal (Ideal.div x 𝐍) := by
  obtain ⟨a, rfl⟩ := hx.exists_eq
  rw [div_rows_coe]; exact isReal_coe _

/-- the reciprocal square root of a positive real is a real -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := by
  rw [rsqrt_coe_pos h]; exact isReal_coe _

/-- a real to a real power is a real -/
theorem isReal_pow_coe (x y : ℝ) : IsReal (Ideal.pow (x : EReal) (y : EReal)) := by
  rw [Ideal.pow_coe_coe]; exact isReal_coe _

/-! ### The two forms of the variance, on the reals -/

/-- the sum of the squared deviations from any number m, expanded -/
theorem sum_sq_dev {n : ℕ} (y : Fin n → ℝ) (m : ℝ) :
    ∑ i, (y i - m) * (y i - m) = (∑ i, y i * y i) - 2 * m * (∑ i, y i) + (n : ℝ) * (m * m) := by
  have h : ∀ i, (y i - m) * (y i - m) = y i * y i - 2 * m * y i + m * m := fun i => by ring
  simp only [h]
  rw [Finset.sum_add_distrib, Finset.sum_sub_distrib, ← Finset.mul_sum, Finset.sum_const, Finset.card_univ,
    Fintype.card_fin, nsmul_eq_mul]

/-- THE LAW ON THE REALS: the mean of the squares minus the square of the mean is the mean of the squared
    deviations from the mean. -/
theorem real_var_two_ways {n : ℕ} (y : Fin n → ℝ) (M : ℝ) (hM : (n : ℝ) = M) (hM0 : M ≠ 0) :
    (∑ i, y i * y i) / M - (∑ i, y i) / M * ((∑ i, y i) / M)
      = (∑ i, (y i - (∑ j, y j) / M) * (y i - (∑ j, y j) / M)) / M := by
  rw [sum_sq_dev, hM]
  field_simp
  ring

/-! ### The two forms of the variance, on the extended reals -/

/-- a column of reals: its entries as real numbers -/
theorem exists_real_col (Y : Fin 100000 → Fin 128 → EReal) (c : Fin 128) (hY : ∀ r, IsReal (Y r c)) :
    ∃ y : Fin 100000 → ℝ, ∀ r, Y r c = (y r : EReal) := by
  choose y hy using fun r => (hY r).exists_eq
  exact ⟨y, hy⟩

/-- the column sum of a column of reals is the real sum -/
theorem colSum_coe (Y : Fin 100000 → Fin 128 → EReal) (c : Fin 128) (y : Fin 100000 → ℝ)
    (hy : ∀ r, Y r c = (y r : EReal)) : Spec.colSum Y c = ((∑ r, y r : ℝ) : EReal) := by
  rw [Spec.colSum, coe_finset_sum]; exact Finset.sum_congr rfl fun r _ => hy r

/-- the column sum of squares of a column of reals is the real sum of squares -/
theorem colSumSq_coe (Y : Fin 100000 → Fin 128 → EReal) (c : Fin 128) (y : Fin 100000 → ℝ)
    (hy : ∀ r, Y r c = (y r : EReal)) : Spec.colSumSq Y c = ((∑ r, y r * y r : ℝ) : EReal) := by
  rw [Spec.colSumSq, coe_finset_sum]
  exact Finset.sum_congr rfl fun r _ => by rw [hy r, ← EReal.coe_mul]

/-- the sum of the squared deviations of a column of reals from its mean is the real one -/
theorem sumSqDev_coe (Y : Fin 100000 → Fin 128 → EReal) (c : Fin 128) (y : Fin 100000 → ℝ)
    (hy : ∀ r, Y r c = (y r : EReal)) :
    (∑ r : Fin 100000, (Y r c - Ideal.div (Spec.colSum Y c) 𝐍) * (Y r c - Ideal.div (Spec.colSum Y c) 𝐍))
      = ((∑ r, (y r - (∑ j, y j) / 100000) * (y r - (∑ j, y j) / 100000) : ℝ) : EReal) := by
  rw [colSum_coe Y c y hy, div_rows_coe, coe_finset_sum]
  exact Finset.sum_congr rfl fun r _ => by rw [hy r, ← EReal.coe_sub, ← EReal.coe_mul]

/-- THE LAW: for a column of reals the two forms of the variance are one extended real. -/
theorem var_two_ways (Y : Fin 100000 → Fin 128 → EReal) (c : Fin 128) (hY : ∀ r, IsReal (Y r c)) :
    Ideal.div (Spec.colSumSq Y c) 𝐍 - Ideal.div (Spec.colSum Y c) 𝐍 * Ideal.div (Spec.colSum Y c) 𝐍
      = Ideal.div (∑ r : Fin 100000, (Y r c - Ideal.div (Spec.colSum Y c) 𝐍) * (Y r c - Ideal.div (Spec.colSum Y c) 𝐍)) 𝐍 := by
  obtain ⟨y, hy⟩ := exists_real_col Y c hY
  rw [sumSqDev_coe Y c y hy, colSum_coe Y c y hy, colSumSq_coe Y c y hy, div_rows_coe, div_rows_coe, div_rows_coe,
    ← EReal.coe_mul, ← EReal.coe_sub]
  exact congrArg _ (real_var_two_ways y 100000 (by norm_num) (by norm_num))

/-- the variance of a column of reals is a real that is not negative -/
theorem var_nonneg_real (Y : Fin 100000 → Fin 128 → EReal) (c : Fin 128) (hY : ∀ r, IsReal (Y r c)) :
    ∃ v : ℝ, 0 ≤ v ∧
      Ideal.div (∑ r : Fin 100000, (Y r c - Ideal.div (Spec.colSum Y c) 𝐍) * (Y r c - Ideal.div (Spec.colSum Y c) 𝐍)) 𝐍
        = (v : EReal) := by
  obtain ⟨y, hy⟩ := exists_real_col Y c hY
  refine ⟨(∑ r, (y r - (∑ j, y j) / 100000) * (y r - (∑ j, y j) / 100000)) / 100000, ?_, ?_⟩
  · exact div_nonneg (Finset.sum_nonneg fun r _ => mul_self_nonneg _) (by norm_num)
  · rw [sumSqDev_coe Y c y hy, div_rows_coe]

/-- the mean of a column of reals is a real -/
theorem mean_isReal (Y : Fin 100000 → Fin 128 → EReal) (c : Fin 128) (hY : ∀ r, IsReal (Y r c)) :
    IsReal (Ideal.div (Spec.colSum Y c) 𝐍) :=
  isReal_div_rows (isReal_sum _ _ fun r _ => hY r)

end Cert.Laws

end
-- ==== Proof.LayerBridge.lean ====
/-
  One layer of the network as the two programs form it: the same extended real at every entry.

  THE NORMALISING LAYER.  One program forms, for each column, the sum and the sum of squares over the 100000 rows,
  and from them the mean and the variance as the mean of the squares minus the square of the mean.  The other forms
  the mean, subtracts it from every entry, and takes the variance as the mean of the squared deviations.  When every
  entry is a real number the two variances are one number, and everything else in the layer — the subtraction of
  the mean, the reciprocal square root of the variance plus a small number, the scale, the shift, the clip below at
  zero — is the same operation on the same operands.

  THE LAST LAYER.  One program adds the bias of the column after the two products, the other between them; addition
  on the extended reals is commutative and associative, so the two sums are equal with no condition on the entries.
-/
import proofs.«163791_j23218593202704_1_alg».proof.Proof.KerHostTerms
import proofs.«163791_j23218593202704_1_alg».proof.Proof.RefRead
import proofs.«163791_j23218593202704_1_alg».proof.Proof.Spec
import proofs.«163791_j23218593202704_1_alg».proof.Proof.RealLaws

noncomputable section

open scoped BigOperators

namespace Cert.Bridge

open Idealize.ShloMosaic Idealize.ShloMosaic.ValueIdx Cert.ReferenceIdeal

/-- THE NORMALISING LAYER OVER ROWS OF SUMS, at (r, c): with s the column sums and ss the column sums of squares, the
    entry minus the column's mean, times the reciprocal square root of the mean of the squares minus the square of the
    mean plus a small number, scaled, shifted, clipped below at zero. -/
theorem normAct_rows_apply (Y : FVec Ideal S100000x128 .f32) (s ss : Fin 128 → EReal) (g be : FVec Ideal S128 .f32)
    (r : Fin 100000) (c : Fin 128) :
    Spec.normAct (Spec.mat Y) (Spec.row (Cert.KernelIdeal.HostTerms.meanRow (Spec.arrRow s)))
        (Spec.row (Cert.KernelIdeal.HostTerms.varRow (Spec.arrRow s) (Spec.arrRow ss)))
        (Spec.row (Cert.KernelIdeal.HostTerms.asRow128 g)) (Spec.row (Cert.KernelIdeal.HostTerms.asRow128 be)) r c
      = max ((Y (ix2 r c) - Ideal.div (s c) (Ideal.ofBits .f32 0x47C35000#32))
          * Ideal.rsqrt (Ideal.div (ss c) (Ideal.ofBits .f32 0x47C35000#32)
              - Ideal.div (s c) (Ideal.ofBits .f32 0x47C35000#32) * Ideal.div (s c) (Ideal.ofBits .f32 0x47C35000#32)
              + Spec.eps)
          * g (ix1 c) + be (ix1 c)) 0 := by
  show max ((Y (ix2 r c) - Cert.KernelIdeal.HostTerms.meanRow (Spec.arrRow s) (ix2 (0 : Fin 1) c))
      * Ideal.rsqrt (Cert.KernelIdeal.HostTerms.varRow (Spec.arrRow s) (Spec.arrRow ss) (ix2 (0 : Fin 1) c) + Spec.eps)
      * Cert.KernelIdeal.HostTerms.asRow128 g (ix2 (0 : Fin 1) c)
      + Cert.KernelIdeal.HostTerms.asRow128 be (ix2 (0 : Fin 1) c)) 0 = _
  rw [Cert.KernelIdeal.HostTerms.meanRow_apply, Cert.KernelIdeal.HostTerms.varRow_apply,
    Cert.KernelIdeal.HostTerms.asRow128_apply, Cert.KernelIdeal.HostTerms.asRow128_apply]
  rfl

/-- THE NORMALISING LAYER of the two programs is one array, when every entry of Y is a real number. -/
theorem hidden_bridge (Y : FVec Ideal S100000x128 .f32) (g be : FVec Ideal S128 .f32)
    (hY : ∀ i, Cert.Laws.IsReal (Y i)) :
    Spec.arr2 (Spec.normAct (Spec.mat Y)
        (Spec.row (Cert.KernelIdeal.HostTerms.meanRow (Spec.arrRow (Spec.colSum (Spec.mat Y)))))
        (Spec.row (Cert.KernelIdeal.HostTerms.varRow (Spec.arrRow (Spec.colSum (Spec.mat Y)))
          (Spec.arrRow (Spec.colSumSq (Spec.mat Y)))))
        (Spec.row (Cert.KernelIdeal.HostTerms.asRow128 g)) (Spec.row (Cert.KernelIdeal.HostTerms.asRow128 be)))
      = Cert.ReferenceIdeal.Terms.batchNormRelu Y g be := by
  funext i
  obtain ⟨r, c, rfl⟩ : ∃ (r : Fin 100000) (c : Fin 128), i = ix2 r c := ⟨i 0, i 1, eq_ix2 i⟩
  rw [Spec.arr2_apply, normAct_rows_apply, Read.batchNormRelu_apply, Read.colMean_apply, Read.colVar_apply]
  simp only [Read.colDev_apply]
  rw [Cert.Laws.var_two_ways (Spec.mat Y) c (fun r => hY (ix2 r c))]
  rfl

/-- THE LAST LAYER of the two programs is one array: the bias added last, or between the two products. -/
theorem last_bridge (A H : FVec Ideal S100000x128 .f32) (W L : FVec Ideal S128x40 .f32) (b : FVec Ideal S40 .f32) :
    Spec.arr2 (Spec.finalLin (Spec.mat A) (Spec.mat H) (Spec.mat W) (Spec.mat L)
        (Spec.row (Cert.KernelIdeal.HostTerms.asRow40 b)))
      = Cert.ReferenceIdeal.Terms.lastLayer A H W L b := by
  funext i
  obtain ⟨r, c, rfl⟩ : ∃ (r : Fin 100000) (c : Fin 40), i = ix2 r c := ⟨i 0, i 1, eq_ix2 i⟩
  rw [Spec.arr2_apply, Read.lastLayer_apply]
  show ((∑ k : Fin 128, A (ix2 r k) * W (ix2 k c)) + ∑ k : Fin 128, H (ix2 r k) * L (ix2 k c))
      + Cert.KernelIdeal.HostTerms.asRow40 b (ix2 (0 : Fin 1) c) = _
  rw [Cert.KernelIdeal.HostTerms.asRow40_apply, add_right_comm]

end Cert.Bridge

end
-- ==== Proof.LibRowOps.lean ====
/-
  Row operations of a two-axis array read at an index.

  A gather of rows: the operand is n × q, the start indices an m × 1 array of words, and row e of the result is the
  operand's row at the word of e read signed and clamped into 0 … n − 1 (the slice is one whole row, so the clamp's upper
  end is n − 1).  Its rank-1 sibling gathers entries of a vector of n entries.

  An accumulating scatter of rows: update row e is added to operand row i exactly when the word of e, read signed and
  not clamped, is i; the column is kept.  So entry (i, c) of the result is the operand's entry plus the sum, over the
  rows e whose word is i, of update entry (e, c).

  Two facts about extended reals used beside them: a finite sum times a factor that is nonnegative and not ⊤ distributes,
  and the guarded reciprocal square root (0 unless the argument is positive) is nonnegative and never ⊤.
-/
import Idealize.ShloMosaic.Lib.ValueIdx
import Idealize.ShloMosaic.PureOps.Ideal.Laws

noncomputable section

open scoped BigOperators

namespace RowOps

open Idealize.ShloMosaic Idealize.ShloMosaic.ValueIdx

/-- a word read signed, a negative one as 0, capped at n - 1 -/
def clampRow (n : Nat) (hn : 0 < n) {wd : Nat} (x : BitVec wd) : Fin n := ⟨min x.toInt.toNat (n - 1), by omega⟩

/-! ## A gather of rows -/

section GatherRows
variable {α : Type} {n m q wd : Nat}

/-- The dimension numbers of a gather of rows as a literal record over given conditions. -/
abbrev rowGatherDims (n m q : Nat)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

/-- The gather of rows read at (e, c), for the literal record: the operand at the clamped word of row e, column c. -/
theorem rowGatherDims_apply (wf : GatherDims.WF ⟨2, ![n, q]⟩ ⟨2, ![m, 1]⟩ ⟨2, ![m, q]⟩ [1] [0] [] [0] [] 1 ![1, q])
    (hn : 0 < n) (x : (⟨2, ![n, q]⟩ : Shape).Idx → α) (idx : IVec (⟨2, ![m, 1]⟩ : Shape) wd) (e : Fin m) (c : Fin q) :
    Host.gather (rowGatherDims n m q wf) x idx (ix2 e c) = x (ix2 (clampRow n hn (idx (ix2 e (0 : Fin 1)))) c) := by
  unfold Host.gather
  congr 1
  funext a
  refine Fin.ext ?_
  match a with
  | ⟨0, _⟩ =>
    show (rowGatherDims n m q wf).start (ix2 e c) idx 0 + (rowGatherDims n m q wf).batchCoord (ix2 e c) 0
      + (rowGatherDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n m q wf).startIndexMap from List.mem_singleton.mpr rfl)]
    have hsi : (rowGatherDims n m q wf).siIdx (ix2 e c) ⟨List.idxOf (0 : Fin 2) (rowGatherDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims n m q wf).start (ix2 e c) idx 1 + (rowGatherDims n m q wf).batchCoord (ix2 e c) 1
      + (rowGatherDims n m q wf).offCoord (ix2 e c) 1 = c.val
    rw [GatherDims.batchCoord_eq_zero _ _ _ List.not_mem_nil]
    have hst : (rowGatherDims n m q wf).start (ix2 e c) idx 1 = 0 := by
      unfold GatherDims.start
      rw [dif_neg (show ¬ (1 : Fin 2) ∈ ([0] : List (Fin 2)) by decide)]
    have hoff : (rowGatherDims n m q wf).offCoord (ix2 e c) 1 = c.val := by
      unfold GatherDims.offCoord
      have hmem : (1 : Fin 2) ∈ (rowGatherDims n m q wf).sKept :=
        (GatherDims.mem_sKept _ _).mpr ⟨show ¬ (1 : Fin 2) ∈ ([0] : List (Fin 2)) by decide, List.not_mem_nil⟩
      rw [dif_pos hmem]
      rfl
    rw [hst, hoff]; simp

/-- THE GATHER OF ROWS READ AT (e, c), for any record with these fields: the operand at the word of row e, read signed
    and clamped into 0 … n − 1, column c. -/
theorem gather_rows_apply {α : Type} {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) wd) (e : Fin m) (c : Fin q) :
    Host.gather gd x idx (ix2 e c) = x (ix2 (clampRow n hn (idx (ix2 e (0 : Fin 1)))) c) := by
  obtain ⟨od, cd, ob, sb, sm, iv, ss, wf⟩ := gd
  dsimp only at ho hc hob hsb hm hv hs
  subst ho hc hob hsb hm hv hs
  exact rowGatherDims_apply wf hn x idx e c

end GatherRows

/-! ## An accumulating scatter of rows -/

section ScatterRows
variable {n m q wd : Nat}

/-- The dimension numbers of a scatter of rows as a literal record over given conditions. -/
abbrev rowScatterDims (n m q : Nat) (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

/-- On the row axis, start plus window coordinate of update (e, c') is the word of row e read signed. -/
theorem rowScatterDims_axis0 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 0 + ((rowScatterDims n m q wf).window (ix2 e c') 0 : Nat)
      = (idx (ix2 e (0 : Fin 1))).toInt := by
  have hw : (rowScatterDims n m q wf).window (ix2 e c') 0 = 0 := by
    unfold ScatterDims.window
    have hmem : ¬ (0 : Fin 2) ∈ (rowScatterDims n m q wf).sKept := by
      show ¬ (0 : Fin 2) ∈ (List.finRange 2).filter (· ∉ ([0] : List (Fin 2)))
      decide
    rw [dif_neg hmem]
  have hs : (rowScatterDims n m q wf).start (ix2 e c') idx 0 = (idx (ix2 e (0 : Fin 1))).toInt := by
    unfold ScatterDims.start
    rw [dif_pos (show (0 : Fin 2) ∈ (rowScatterDims n m q wf).scatterDimsToOperandDims from List.mem_cons_self)]
    have hsi : (rowScatterDims n m q wf).siIdx (ix2 e c')
        ⟨List.idxOf (0 : Fin 2) (rowScatterDims n m q wf).scatterDimsToOperandDims,
          List.idxOf_lt_length_iff.2 List.mem_cons_self⟩ = ix2 e (0 : Fin 1) := by
      funext b; refine Fin.ext ?_
      match b with
      | ⟨0, _⟩ => rfl
      | ⟨1, _⟩ => rfl
    rw [hsi]
  rw [hw, hs]; simp

/-- On the column axis, start plus window coordinate of update (e, c') is c'. -/
theorem rowScatterDims_axis1 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 1 + ((rowScatterDims n m q wf).window (ix2 e c') 1 : Nat)
      = (c'.val : Int) := by
  have hw : (rowScatterDims n m q wf).window (ix2 e c') 1 = c'.val := by
    unfold ScatterDims.window
    have hmem : (1 : Fin 2) ∈ (rowScatterDims n m q wf).sKept := by
      show (1 : Fin 2) ∈ (List.finRange 2).filter (· ∉ ([0] : List (Fin 2)))
      decide
    rw [dif_pos hmem]
    rfl
  have hs : (rowScatterDims n m q wf).start (ix2 e c') idx 1 = 0 := by
    unfold ScatterDims.start
    rw [dif_neg (show ¬ (1 : Fin 2) ∈ ([0] : List (Fin 2)) by decide)]
  rw [hw, hs]; simp

/-- Update (e, c') lands on entry (i, c) exactly when the word of row e read signed is i and c' = c: the literal
    record. -/
theorem rowScatterDims_resultIdx (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) (i : Fin n) (c : Fin q) :
    (rowScatterDims n m q wf).resultIdx? (ix2 e c') idx = some (ix2 i c)
      ↔ (idx (ix2 e (0 : Fin 1))).toInt = (i.val : Int) ∧ c' = c := by
  have h0 := rowScatterDims_axis0 wf idx e c'
  have h1 := rowScatterDims_axis1 wf idx e c'
  have hi := i.isLt
  have hc' := c'.isLt
  unfold ScatterDims.resultIdx?
  constructor
  · intro h
    split at h
    · have e0 := congrArg Fin.val (congrFun (Option.some.inj h) 0)
      have e1 := congrArg Fin.val (congrFun (Option.some.inj h) 1)
      change ((rowScatterDims n m q wf).start (ix2 e c') idx 0
        + ((rowScatterDims n m q wf).window (ix2 e c') 0 : Nat)).toNat = i.val at e0
      change ((rowScatterDims n m q wf).start (ix2 e c') idx 1
        + ((rowScatterDims n m q wf).window (ix2 e c') 1 : Nat)).toNat = c.val at e1
      rename_i hall
      have a0 := hall 0
      rw [h0] at e0 a0
      rw [h1] at e1
      exact ⟨by omega, Fin.ext (by omega)⟩
    · cases h
  · rintro ⟨hw, rfl⟩
    have hall : ∀ a : Fin 2, 0 ≤ (rowScatterDims n m q wf).start (ix2 e c') idx a
          + ((rowScatterDims n m q wf).window (ix2 e c') a : Nat)
        ∧ (rowScatterDims n m q wf).start (ix2 e c') idx a + ((rowScatterDims n m q wf).window (ix2 e c') a : Nat)
          < ((⟨2, ![n, q]⟩ : Shape).size a : Nat) := by
      intro a
      match a with
      | ⟨0, _⟩ =>
        show 0 ≤ (rowScatterDims n m q wf).start (ix2 e c') idx 0 + ((rowScatterDims n m q wf).window (ix2 e c') 0 : Nat)
          ∧ (rowScatterDims n m q wf).start (ix2 e c') idx 0 + ((rowScatterDims n m q wf).window (ix2 e c') 0 : Nat)
            < (n : Int)
        rw [h0]; omega
      | ⟨1, _⟩ =>
        show 0 ≤ (rowScatterDims n m q wf).start (ix2 e c') idx 1 + ((rowScatterDims n m q wf).window (ix2 e c') 1 : Nat)
          ∧ (rowScatterDims n m q wf).start (ix2 e c') idx 1 + ((rowScatterDims n m q wf).window (ix2 e c') 1 : Nat)
            < (q : Int)
        rw [h1]; omega
    rw [dif_pos hall]
    congr 1
    funext a
    refine Fin.ext ?_
    match a with
    | ⟨0, _⟩ =>
      show ((rowScatterDims n m q wf).start (ix2 e c') idx 0
        + ((rowScatterDims n m q wf).window (ix2 e c') 0 : Nat)).toNat = i.val
      rw [h0]; omega
    | ⟨1, _⟩ =>
      show ((rowScatterDims n m q wf).start (ix2 e c') idx 1
        + ((rowScatterDims n m q wf).window (ix2 e c') 1 : Nat)).toNat = c'.val
      rw [h1]; omega

/-- UPDATE (e, c') LANDS ON ENTRY (i, c) EXACTLY WHEN THE WORD OF ROW e READ SIGNED IS i AND c' = c, for any record with
    these fields. -/
theorem resultIdx_rows (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (idx : IVec (⟨2, ![m, 1]⟩ : Shape) wd) (e : Fin m) (c' : Fin q) (i : Fin n) (c : Fin q) :
    d.resultIdx? (ix2 e c') idx = some (ix2 i c) ↔ (idx (ix2 e (0 : Fin 1))).toInt = (i.val : Int) ∧ c' = c := by
  obtain ⟨uw, iw, sd, iv, wf⟩ := d
  dsimp only at hu hi hs hv
  subst hu hi hs hv
  exact rowScatterDims_resultIdx wf idx e c' i c

/-- ENTRY (i, c) OF THE ACCUMULATING SCATTER OF ROWS: the operand's entry plus the sum, over the update rows whose word
    read signed is i, of their entries in column c. -/
theorem scatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Ideal.hostScatterAdd d x idx upd (ix2 i c)
      = x (ix2 i c) + ∑ e ∈ Finset.univ.filter (fun e : Fin m => (idx (ix2 e (0 : Fin 1))).toInt = (i.val : Int)), upd (ix2 e c) := by
  unfold Ideal.hostScatterAdd
  congr 1
  rw [Finset.sum_filter, Finset.sum_filter, sum_idx2]
  refine Finset.sum_congr rfl fun e _ => ?_
  have hterm : ∀ c' : Fin q,
      (if d.resultIdx? (ix2 e c') idx = some (ix2 i c) then upd (ix2 e c') else 0)
        = if c' = c then (if (idx (ix2 e (0 : Fin 1))).toInt = (i.val : Int) then upd (ix2 e c) else 0) else 0 := by
    intro c'
    rw [if_congr (resultIdx_rows d hu hi hs hv idx e c' i c) rfl rfl]
    by_cases hcc : c' = c
    · subst hcc; simp
    · simp [hcc]
  rw [Finset.sum_congr rfl fun c' _ => hterm c']
  simp

end ScatterRows

/-! ## A gather of entries of a vector -/

section GatherVec
variable {α : Type} {n m wd : Nat}

/-- The dimension numbers of a gather of entries of a vector as a literal record over given conditions. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The gather of entries read at e, for the literal record: the operand at the clamped word of row e. -/
theorem vecGatherDims_apply (wf : GatherDims.WF ⟨1, ![n]⟩ ⟨2, ![m, 1]⟩ ⟨1, ![m]⟩ [] [0] [] [0] [] 1 ![1])
    (hn : 0 < n) (x : (⟨1, ![n]⟩ : Shape).Idx → α) (idx : IVec (⟨2, ![m, 1]⟩ : Shape) wd) (e : Fin m) :
    Host.gather (vecGatherDims n m wf) x idx (ix1 e) = x (ix1 (clampRow n hn (idx (ix2 e (0 : Fin 1))))) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES OF A VECTOR READ AT e, for any record with these fields: the operand at the word of row e,
    read signed and clamped into 0 … n − 1. -/
theorem gather_vec_apply {α : Type} {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    (x : (⟨1, ![n]⟩ : Shape).Idx → α) (idx : IVec (⟨2, ![m, 1]⟩ : Shape) wd) (e : Fin m) :
    Host.gather gd x idx (ix1 e) = x (ix1 (clampRow n hn (idx (ix2 e (0 : Fin 1))))) := by
  obtain ⟨od, cd, ob, sb, sm, iv, ss, wf⟩ := gd
  dsimp only at ho hc hob hsb hm hv hs
  subst ho hc hob hsb hm hv hs
  exact vecGatherDims_apply wf hn x idx e

end GatherVec

/-! ## Extended reals: a sum times a factor, and the guarded reciprocal square root -/

/-- A finite sum times a factor that is nonnegative and not ⊤ is the sum of the products. -/
theorem sum_mul_of_nonneg_ne_top {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root guarded by "the argument is positive" (0 otherwise) is nonnegative and never ⊤: at ⊤ it is
    0, at a positive real r it is the real (√r)⁻¹, and everywhere else the guard gives 0. -/
theorem dinv_nonneg_ne_top (x : EReal) :
    0 ≤ (Scalar.select (Ideal.cmp .ogt x 0) (Ideal.rsqrt x) (0 : EReal))
      ∧ (Scalar.select (Ideal.cmp .ogt x 0) (Ideal.rsqrt x) (0 : EReal)) ≠ ⊤ := by
  by_cases hx : 0 < x
  · have hcmp : Ideal.cmp .ogt x 0 = 1#1 := by simp [Ideal.cmp, hx]
    rw [hcmp, select_one]
    induction x using EReal.rec with
    | bot => exact absurd hx (by simp)
    | top =>
      have hval : Ideal.rsqrt (⊤ : EReal) = 0 := rfl
      rw [hval]
      exact ⟨le_refl _, EReal.zero_ne_top⟩
    | coe r =>
      have hr : 0 < r := by exact_mod_cast hx
      have hval : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hval]
      exact ⟨by exact_mod_cast inv_nonneg.mpr (Real.sqrt_nonneg r), EReal.coe_ne_top _⟩
  · have hcmp : Ideal.cmp .ogt x 0 = 0#1 := by simp [Ideal.cmp, hx]
    rw [hcmp, select_zero]
    exact ⟨le_refl _, EReal.zero_ne_top⟩

end RowOps

end
-- ==== Proof.LibHostScatter.lean ====
/-
  The host's accumulating row scatter on the extended reals, read at an entry, stated for the host operation itself.

  On the extended reals the host's accumulating scatter is the exact sum.  Stated at arbitrary sizes, where the
  identification of the host operation with that sum is a matter of unfolding and nothing is enumerated, and then used at
  any literal sizes by rewriting.
-/
import proofs.«163791_j23218593202704_1_alg».proof.Proof.LibRowOps

noncomputable section

open scoped BigOperators

namespace RowOps

open Idealize.ShloMosaic Idealize.ShloMosaic.ValueIdx

/-- ENTRY (i, c) OF THE HOST'S ACCUMULATING ROW SCATTER on the extended reals: the operand's entry plus the sum, over the
    update rows whose word read signed is i, of the rows' entry c. -/
theorem hostScatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Host.scatterAdd (F := Ideal) (φ := .f32) d x idx upd (ix2 i c)
      = x (ix2 i c) + ∑ e ∈ Finset.univ.filter (fun e : Fin m => (idx (ix2 e (0 : Fin 1))).toInt = (i.val : Int)), upd (ix2 e c) :=
  scatterAdd_rows_apply d hu hi hs hv x idx upd i c

end RowOps

end
-- ==== Proof.LibVecScatter.lean ====
/-
  An accumulating scatter of a vector of m updates into a vector of n entries, the targets given by an m × 1 array of
  words.

  Update j lands on entry i exactly when its word, read signed, is i: the start of the one-entry window is the word
  itself, not clamped, the window has no coordinate of its own, and a word outside 0 … n − 1 drops the update.  So
  entry i of the result is entry i of the operand plus the sum of the updates whose word is i.  Stated for the literal
  record and for any record with these fields.
-/
import Idealize.ShloMosaic.Lib.ValueIdx
import Idealize.ShloMosaic.PureOps.Ideal.Laws

noncomputable section

open scoped BigOperators

namespace VecScatter

open Idealize.ShloMosaic Idealize.ShloMosaic.ValueIdx

variable {n m wd : ℕ}

/-- A rank-1 index set is its coordinate range. -/
def idxEquiv1 {k : ℕ} : (⟨1, ![k]⟩ : Shape).Idx ≃ Fin k where
  toFun y := y 0
  invFun j := ix1 j
  left_inv y := (eq_ix1 y).symm
  right_inv _ := rfl

/-- The dimension numbers as a literal record over given conditions. -/
abbrev vecDims (n m : ℕ) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

/-- Start plus window coordinate of update j on the operand's one axis is j's word read signed. -/
theorem vecDims_start_window (wf : ScatterDims.WF ⟨1, ![n]⟩ ⟨2, ![m, 1]⟩ ⟨1, ![m]⟩ [] [0] [0] 1)
    (idx : IVec (⟨2, ![m, 1]⟩ : Shape) wd) (j : Fin m) (a : Fin 1) :
    (vecDims n m wf).start (ix1 j) idx a + (vecDims n m wf).window (ix1 j) a = (idx (ix2 j (0 : Fin 1))).toInt := by
  match a with
  | ⟨0, _⟩ =>
    have hw : (vecDims n m wf).window (ix1 j) 0 = 0 := by
      unfold ScatterDims.window
      rw [dif_neg (fun h => by
        have h2 := (List.mem_filter.1 h).2
        simp at h2)]
    have hs : (vecDims n m wf).start (ix1 j) idx 0 = (idx (ix2 j (0 : Fin 1))).toInt := by
      unfold ScatterDims.start
      rw [dif_pos (show (0 : Fin 1) ∈ (vecDims n m wf).scatterDimsToOperandDims from List.mem_cons_self)]
      have hsi : (vecDims n m wf).siIdx (ix1 j) ⟨List.idxOf (0 : Fin 1) (vecDims n m wf).scatterDimsToOperandDims,
          List.idxOf_lt_length_iff.2 List.mem_cons_self⟩ = ix2 j (0 : Fin 1) := by
        funext b; refine Fin.ext ?_
        match b with
        | ⟨0, _⟩ => rfl
        | ⟨1, _⟩ => rfl
      rw [hsi]
    show (vecDims n m wf).start (ix1 j) idx 0 + ((vecDims n m wf).window (ix1 j) 0 : ℕ) = _
    rw [hw, hs]; simp

/-- Update j lands on entry i exactly when its word read signed is i: the literal record. -/
theorem vecDims_resultIdx (wf : ScatterDims.WF ⟨1, ![n]⟩ ⟨2, ![m, 1]⟩ ⟨1, ![m]⟩ [] [0] [0] 1)
    (idx : IVec (⟨2, ![m, 1]⟩ : Shape) wd) (j : Fin m) (i : Fin n) :
    (vecDims n m wf).resultIdx? (ix1 j) idx = some (ix1 i) ↔ (idx (ix2 j (0 : Fin 1))).toInt = (i.val : Int) := by
  have hsw := vecDims_start_window wf idx j
  have hi := i.isLt
  unfold ScatterDims.resultIdx?
  constructor
  · intro h
    split at h
    · rename_i hc
      have h0 := congrArg Fin.val (congrFun (Option.some.inj h) 0)
      have hc0 := hc 0
      rw [hsw 0] at hc0
      change ((vecDims n m wf).start (ix1 j) idx 0 + ((vecDims n m wf).window (ix1 j) 0 : ℕ)).toNat = i.val at h0
      rw [hsw 0] at h0
      omega
    · cases h
  · intro h
    have hc : ∀ a : Fin 1, 0 ≤ (vecDims n m wf).start (ix1 j) idx a + ((vecDims n m wf).window (ix1 j) a : ℕ)
        ∧ (vecDims n m wf).start (ix1 j) idx a + ((vecDims n m wf).window (ix1 j) a : ℕ)
          < ((⟨1, ![n]⟩ : Shape).size a : ℕ) := by
      intro a
      rw [hsw a]
      match a with
      | ⟨0, _⟩ =>
        refine ⟨by omega, ?_⟩
        show (idx (ix2 j (0 : Fin 1))).toInt < (n : Int)
        omega
    rw [dif_pos hc]
    congr 1
    funext a
    match a with
    | ⟨0, _⟩ =>
      refine Fin.ext ?_
      show ((vecDims n m wf).start (ix1 j) idx 0 + ((vecDims n m wf).window (ix1 j) 0 : ℕ)).toNat = i.val
      rw [hsw 0]; omega

/-- UPDATE j LANDS ON ENTRY i EXACTLY WHEN ITS WORD READ SIGNED IS i, for any record with these fields. -/
theorem resultIdx_vec (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (idx : IVec (⟨2, ![m, 1]⟩ : Shape) wd) (j : Fin m) (i : Fin n) :
    d.resultIdx? (ix1 j) idx = some (ix1 i) ↔ (idx (ix2 j (0 : Fin 1))).toInt = (i.val : Int) := by
  obtain ⟨uw, iw, sd, iv, wf⟩ := d
  dsimp only at hu hi hs hv
  subst hu hi hs hv
  exact vecDims_resultIdx wf idx j i

/-- ENTRY i OF THE ACCUMULATING SCATTER: the operand's entry plus the sum of the updates whose word is i. -/
theorem scatterAdd_vec_apply (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (x : (⟨1, ![n]⟩ : Shape).Idx → EReal) (idx : IVec (⟨2, ![m, 1]⟩ : Shape) wd)
    (upd : (⟨1, ![m]⟩ : Shape).Idx → EReal) (i : Fin n) :
    Ideal.hostScatterAdd d x idx upd (ix1 i)
      = x (ix1 i) + ∑ j ∈ Finset.univ.filter (fun j : Fin m => (idx (ix2 j (0 : Fin 1))).toInt = (i.val : Int)),
          upd (ix1 j) := by
  unfold Ideal.hostScatterAdd
  congr 1
  rw [Finset.sum_filter, Finset.sum_filter]
  refine Fintype.sum_equiv idxEquiv1 _ _ fun y => ?_
  obtain ⟨j, rfl⟩ : ∃ j, y = ix1 j := ⟨y 0, eq_ix1 y⟩
  exact if_congr (resultIdx_vec d hu hi hs hv idx j i) rfl rfl

end VecScatter

end
-- ==== Proof.FiniteProp.lean ====
/-
  Real numbers stay real numbers through every piece of the two programs.

  Under the precondition every float input is a real number (neither infinity). This file carries that property
  through each piece, entry by entry: a linear layer is a finite sum of products; the normalisation subtracts a mean
  (a finite sum over a real count), multiplies by the reciprocal square root of a variance plus a small positive
  number (a positive real, so the reciprocal square root is a real), scales, shifts and clips; the degree factor is a
  count of edges, replaced by one where it is zero, to the power −1/2 (a positive real to a real power); and the
  normalised sum over neighbours is a finite sum of entries of the scaled node rows, scaled again.
-/
import proofs.«163791_j23218593202704_1_alg».proof.Proof.Spec
import proofs.«163791_j23218593202704_1_alg».proof.Proof.Consts
import proofs.«163791_j23218593202704_1_alg».proof.Proof.RefTerms
import proofs.«163791_j23218593202704_1_alg».proof.Proof.RealLaws
import proofs.«163791_j23218593202704_1_alg».proof.Proof.LibRowOps
import proofs.«163791_j23218593202704_1_alg».proof.Proof.LibHostScatter
import proofs.«163791_j23218593202704_1_alg».proof.Proof.LibVecScatter
import proofs.«163791_j23218593202704_1_alg».proof.Proof.LibBroadcasts

noncomputable section

open scoped BigOperators

namespace Cert.Laws

open Idealize.ShloMosaic Idealize.ShloMosaic.ValueIdx Cert.ReferenceIdeal

/-- the row count 100000.0 as the programs spell it -/
local notation "𝐍" => Ideal.ofBits FTy.f32 0x47C35000#32

/-! ### The linear layer and the normalisation -/

/-- a linear layer's entry is a real when the two rows and the two columns it is formed from are -/
theorem lin_isReal {q : ℕ} (A H : Fin 100000 → Fin 128 → EReal) (W L : Fin 128 → Fin q → EReal)
    (r : Fin 100000) (c : Fin q) (hA : ∀ k, IsReal (A r k)) (hH : ∀ k, IsReal (H r k))
    (hW : ∀ k, IsReal (W k c)) (hL : ∀ k, IsReal (L k c)) : IsReal (Spec.lin A H W L r c) := by
  unfold Spec.lin
  exact isReal_add (isReal_sum _ _ fun k _ => isReal_mul (hA k) (hW k))
    (isReal_sum _ _ fun k _ => isReal_mul (hH k) (hL k))

/-- the normalised, scaled, shifted and clipped entry is a real when the column is, the mean and variance are the
    column's, and the scale and shift of the column are reals: the variance is a real that is not negative, so with
    the small positive number added it is a positive real and its reciprocal square root is a real -/
theorem normAct_isReal (Y : Fin 100000 → Fin 128 → EReal) (mean var g be : Fin 128 → EReal) (r : Fin 100000)
    (c : Fin 128) (hY : ∀ r', IsReal (Y r' c)) (hm : mean c = Ideal.div (Spec.colSum Y c) 𝐍)
    (hv : var c = Ideal.div (∑ r' : Fin 100000, (Y r' c - Ideal.div (Spec.colSum Y c) 𝐍)
      * (Y r' c - Ideal.div (Spec.colSum Y c) 𝐍)) 𝐍)
    (hg : IsReal (g c)) (hb : IsReal (be c)) : IsReal (Spec.normAct Y mean var g be r c) := by
  obtain ⟨v, hv0, hvv⟩ := var_nonneg_real Y c hY
  obtain ⟨e, he, hee⟩ := Cert.Consts.ofBits_eps
  have hrs : IsReal (Ideal.rsqrt (var c + Spec.eps)) := by
    rw [hv, hvv, Spec.eps, hee, ← EReal.coe_add]
    exact isReal_rsqrt_pos (by linarith)
  have hmean : IsReal (mean c) := by rw [hm]; exact mean_isReal Y c hY
  unfold Spec.normAct
  exact isReal_max (isReal_add (isReal_mul (isReal_mul (isReal_sub (hY r) hmean) hrs) hg) hb) isReal_zero

/-! ### The float words 0.0 and 1.0 spread over an array -/

/-- the word 0.0 denotes 0 -/
theorem ofBits_zero : Ideal.ofBits .f32 0x00000000#32 = (0 : EReal) := by
  simp [Ideal.ofBits, Ideal.ieee]

/-- a vector's entries repeated along each row, read at an entry -/
theorem perRow_apply (d : FVec Ideal S100000 .f32) (r : Fin 100000) (c : Fin 128) :
    Terms.perRow d (ix2 r c) = d (ix1 r) := by
  unfold Terms.perRow
  rw [Broadcasts.widen_apply, Broadcasts.column_apply]

/-! ### The normalised sum over neighbours -/

/-- the normalised sum over neighbours is a real at every entry when the node rows and both degree factors are -/
theorem spmm_isReal (h : FVec Ideal S100000x128 .f32) (src dst : IVec S1600000 32) (dso dsi : FVec Ideal S100000 .f32)
    (hh : ∀ i, IsReal (h i)) (ho : ∀ i, IsReal (dso i)) (hi : ∀ i, IsReal (dsi i)) (j : S100000x128.Idx) :
    IsReal (Terms.spmm h src dst dso dsi j) := by
  obtain ⟨r, c, rfl⟩ : ∃ (r : Fin 100000) (c : Fin 128), j = ix2 r c := ⟨j 0, j 1, eq_ix2 j⟩
  unfold Terms.spmm
  rw [mulf_apply]
  refine isReal_mul ?_ ?_
  · rw [RowOps.hostScatterAdd_rows_apply scatter_S100000x128_S1600000x1_S1600000x128_1_0_0_1 rfl rfl rfl rfl]
    refine isReal_add ?_ (isReal_sum _ _ fun e _ => ?_)
    · rw [Broadcasts.scalar_apply, constant_apply, ofBits_zero]; exact isReal_zero
    · rw [RowOps.gather_rows_apply gather_S100000x128_S1600000x1_S1600000x128_1_0_n_n_0_1_1128 rfl rfl rfl rfl rfl rfl rfl
        (by norm_num), mulf_apply, perRow_apply]
      exact isReal_mul (hh _) (ho _)
  · rw [perRow_apply]; exact hi _

/-! ### The degree factor -/

/-- the host's accumulating scatter of a vector, read at an entry: the operand's entry plus the sum of the updates
    whose word is that entry's number -/
theorem hostScatterAdd_vec_apply {n m wd : ℕ}
    (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (x : (⟨1, ![n]⟩ : Shape).Idx → EReal) (idx : IVec (⟨2, ![m, 1]⟩ : Shape) wd)
    (upd : (⟨1, ![m]⟩ : Shape).Idx → EReal) (i : Fin n) :
    Host.scatterAdd (F := Ideal) (φ := .f32) d x idx upd (ix1 i)
      = x (ix1 i) + ∑ j ∈ Finset.univ.filter (fun j : Fin m => (idx (ix2 j (0 : Fin 1))).toInt = (i.val : Int)),
          upd (ix1 j) :=
  VecScatter.scatterAdd_vec_apply d hu hi hs hv x idx upd i

/-- a finite sum of ones is a real that is not negative -/
theorem sum_ones_nonneg_real {ι : Type*} (s : Finset ι) (f : ι → EReal) (hf : ∀ j, f j = ((1 : ℝ) : EReal)) :
    ∃ k : ℝ, 0 ≤ k ∧ ∑ j ∈ s, f j = (k : EReal) :=
  ⟨∑ _j ∈ s, (1 : ℝ), Finset.sum_nonneg fun _ _ => zero_le_one, by
    rw [coe_finset_sum]; exact Finset.sum_congr rfl fun j _ => hf j⟩

/-- the degree of a node is a real that is not negative: zero plus a one for every edge that names the node -/
theorem degree_nonneg_real (idx : IVec S1600000 32) (a : Fin 100000) :
    ∃ k : ℝ, 0 ≤ k ∧ Terms.degree idx (ix1 a) = (k : EReal) := by
  unfold Terms.degree
  rw [hostScatterAdd_vec_apply (n := 100000) (m := 1600000) (wd := 32) scatter_S100000_S1600000x1_S1600000_n_0_0_1 rfl rfl rfl rfl,
    Broadcasts.scalar_apply, constant_apply, ofBits_zero, zero_add]
  exact sum_ones_nonneg_real _ _ fun j => by
    rw [Broadcasts.scalar_apply, constant_apply, Cert.Consts.ofBits_one]

/-- "x where x is greater than z, else o", to the power e, read at an entry -/
theorem powf_select_apply {s : Shape} (x z o e : FVec Ideal s .f32) (i : s.Idx) :
    Host.powf (F := Ideal) (select (cmpf .ogt x z) x o) e i
      = Ideal.pow (Scalar.select (Ideal.cmp .ogt (x i) (z i)) (x i) (o i)) (e i) := rfl

/-- the degree factor of a node is a positive real: the degree where it is positive and one where it is zero, a
    positive real either way, to the power −1/2 -/
theorem degScale_pos_real (idx : IVec S1600000 32) (i : S100000.Idx) :
    ∃ d : ℝ, 0 < d ∧ Terms.degScale idx i = (d : EReal) := by
  obtain ⟨a, rfl⟩ : ∃ a : Fin 100000, i = ix1 a := ⟨i 0, eq_ix1 i⟩
  obtain ⟨k, hk0, hk⟩ := degree_nonneg_real idx a
  have hbase : ∃ b : ℝ, 0 < b ∧
      Scalar.select (Ideal.cmp .ogt (Terms.degree idx (ix1 a)) (0 : EReal)) (Terms.degree idx (ix1 a)) (((1 : ℝ) : EReal))
        = (b : EReal) := by
    rw [hk]
    by_cases hpos : 0 < k
    · have hcmp : Ideal.cmp .ogt ((k : ℝ) : EReal) 0 = 1#1 := by
        have : (0 : EReal) < (k : EReal) := by exact_mod_cast hpos
        simp [Ideal.cmp, this]
      exact ⟨k, hpos, by rw [hcmp, select_one]⟩
    · have hcmp : Ideal.cmp .ogt ((k : ℝ) : EReal) 0 = 0#1 := by
        have : ¬ (0 : EReal) < (k : EReal) := by exact_mod_cast hpos
        simp [Ideal.cmp, this]
      exact ⟨1, one_pos, by rw [hcmp, select_zero]⟩
  obtain ⟨b, hb0, hb⟩ := hbase
  refine ⟨Real.rpow b (-(1 / 2)), Real.rpow_pos_of_pos hb0 _, ?_⟩
  unfold Terms.degScale
  rw [powf_select_apply]
  rw [Broadcasts.scalar_apply, Broadcasts.scalar_apply, Broadcasts.scalar_apply, id_eq, constant_apply, constant_apply,
    constant_apply, ofBits_zero, Cert.Consts.ofBits_one, Cert.Consts.ofBits_neg_half, hb, Ideal.pow_coe_coe]

/-- the degree factor of a node is a real -/
theorem degScale_isReal (idx : IVec S1600000 32) (i : S100000.Idx) : IsReal (Terms.degScale idx i) := by
  obtain ⟨d, _, hd⟩ := degScale_pos_real idx i
  rw [hd]; exact isReal_coe d

end Cert.Laws

end
-- ==== Proof.RefFinite.lean ====
/-
  Real numbers stay real numbers along the reference program's chain of pieces.

  Each piece of the reference has been read entry by entry: a linear layer is the sum of two finite sums of products;
  the normalisation subtracts the column's mean, multiplies by the reciprocal square root of the column's variance
  (the mean of the squared deviations) plus a small positive number, scales, shifts and clips. With those readings the
  entry-wise facts about real numbers apply to the reference's own terms, and compose: the rows aggregated from the
  neighbours with the degree factors are real, so the linear layer on them is, so the normalised layer is.
-/
import proofs.«163791_j23218593202704_1_alg».proof.Proof.FiniteProp
import proofs.«163791_j23218593202704_1_alg».proof.Proof.RefRead

noncomputable section

open scoped BigOperators

namespace Cert.Laws

open Idealize.ShloMosaic Idealize.ShloMosaic.ValueIdx Cert.ReferenceIdeal

/-- the row count 100000.0 as the programs spell it -/
local notation "𝐍" => Ideal.ofBits FTy.f32 0x47C35000#32

/-- a linear layer of the reference is a real at every entry when its four operands are -/
theorem linear_isReal (A H : FVec Ideal S100000x128 .f32) (W L : FVec Ideal S128x128 .f32)
    (hA : ∀ i, IsReal (A i)) (hH : ∀ i, IsReal (H i)) (hW : ∀ i, IsReal (W i)) (hL : ∀ i, IsReal (L i))
    (i : S100000x128.Idx) : IsReal (Terms.linear A H W L i) := by
  obtain ⟨r, c, rfl⟩ : ∃ (r : Fin 100000) (c : Fin 128), i = ix2 r c := ⟨i 0, i 1, eq_ix2 i⟩
  rw [Read.linear_eq, Spec.arr2_apply]
  exact lin_isReal _ _ _ _ r c (fun k => hA _) (fun k => hH _) (fun k => hW _) (fun k => hL _)

/-- the normalised, scaled, shifted and clipped layer of the reference is a real at every entry when the layer it
    normalises, the scales and the shifts are: the mean and the variance it uses are the column's own -/
theorem batchNormRelu_isReal (Y : FVec Ideal S100000x128 .f32) (g be : FVec Ideal S128 .f32)
    (hY : ∀ i, IsReal (Y i)) (hg : ∀ i, IsReal (g i)) (hb : ∀ i, IsReal (be i)) (i : S100000x128.Idx) :
    IsReal (Terms.batchNormRelu Y g be i) := by
  obtain ⟨r, c, rfl⟩ : ∃ (r : Fin 100000) (c : Fin 128), i = ix2 r c := ⟨i 0, i 1, eq_ix2 i⟩
  have hm : Terms.colMean Y (ix1 c) = Ideal.div (Spec.colSum (Spec.mat Y) c) 𝐍 := Read.colMean_apply Y c
  have hv : Terms.colVar Y (constantI S_ 32 0#32) (ix1 c)
      = Ideal.div (∑ r' : Fin 100000, (Spec.mat Y r' c - Ideal.div (Spec.colSum (Spec.mat Y) c) 𝐍)
          * (Spec.mat Y r' c - Ideal.div (Spec.colSum (Spec.mat Y) c) 𝐍)) 𝐍 := by
    rw [Read.colVar_apply]
    refine congrArg (fun s => Ideal.div s 𝐍) (Finset.sum_congr rfl fun r' _ => ?_)
    rw [Read.colDev_apply]
    rfl
  have key := normAct_isReal (Spec.mat Y) (fun c' => Terms.colMean Y (ix1 c'))
    (fun c' => Terms.colVar Y (constantI S_ 32 0#32) (ix1 c')) (fun c' => g (ix1 c')) (fun c' => be (ix1 c')) r c
    (fun r' => hY _) hm hv (hg _) (hb _)
  rw [Read.batchNormRelu_apply]
  exact key

/-- the layer before the normalisation is a real at every entry: the rows aggregated from the neighbours with the
    two degree factors are real, and so is the linear layer on them and on the node rows -/
theorem preNorm_isReal (h : FVec Ideal S100000x128 .f32) (src dst : IVec S1600000 32) (W L : FVec Ideal S128x128 .f32)
    (hh : ∀ i, IsReal (h i)) (hW : ∀ i, IsReal (W i)) (hL : ∀ i, IsReal (L i)) (i : S100000x128.Idx) :
    IsReal (Terms.linear (Terms.spmm h src dst (Terms.degScale src) (Terms.degScale dst)) h W L i) :=
  linear_isReal _ h W L
    (spmm_isReal h src dst _ _ hh (degScale_isReal src) (degScale_isReal dst)) hh hW hL i

/-- one hidden layer of the reference is a real at every entry when the node rows, the two weight matrices, the
    scales and the shifts are -/
theorem hidden_isReal (h : FVec Ideal S100000x128 .f32) (src dst : IVec S1600000 32) (W L : FVec Ideal S128x128 .f32)
    (g be : FVec Ideal S128 .f32) (hh : ∀ i, IsReal (h i)) (hW : ∀ i, IsReal (W i)) (hL : ∀ i, IsReal (L i))
    (hg : ∀ i, IsReal (g i)) (hb : ∀ i, IsReal (be i)) (i : S100000x128.Idx) :
    IsReal (Terms.hidden h src dst W L g be i) := by
  unfold Terms.hidden
  exact batchNormRelu_isReal _ g be (preNorm_isReal h src dst W L hh hW hL) hg hb i

end Cert.Laws

end
-- ==== Proof.PreFinite.lean ====
/-
  From the precondition to real entries.

  The precondition is a printed predicate: for each of the twelve float arguments it compares the absolute value of
  every entry with +∞, takes the conjunction over the array, and the conjunction of the twelve results is required to
  be 1. Read back, every entry of every float argument has an absolute value below +∞; on the extended reals an
  absolute value max x (−x) is below ⊤ exactly when x is neither infinity, that is, a real number.
-/
import proofs.«163791_j23218593202704_1_alg».proof.Defs
import proofs.«163791_j23218593202704_1_alg».proof.Proof.Gen.Pre_finite_inputs
import proofs.«163791_j23218593202704_1_alg».proof.Proof.RealLaws
import Idealize.ShloMosaic.Lib.ReduceAll
import Idealize.ShloMosaic.Lib.ValueIdx
import Idealize.ShloMosaic.Lib.Pipeline.Value

noncomputable section

namespace Cert.Laws

open Idealize.ShloMosaic Idealize.SL.Sem Idealize.ShloMosaic.ValueIdx

/-- the scalar shape has one index -/
instance subsingleton_scalar_idx : Subsingleton (⟨0, ![]⟩ : Shape).Idx := ⟨fun _ _ => funext fun d => d.elim0⟩

/-- the word 0x7F800000 denotes +∞ -/
theorem ofBits_inf : Ideal.ofBits .f32 0x7F800000#32 = (⊤ : EReal) := by
  simp [Ideal.ofBits, Ideal.ieee]

/-- an extended real whose absolute value is below +∞ is a real number -/
theorem isReal_of_abs_lt_top (x : EReal) (h : Ideal.cmp .olt (max x (-x)) ⊤ = 1#1) : IsReal x := by
  induction x using EReal.rec with
  | bot => simp [Ideal.cmp] at h
  | top => simp [Ideal.cmp] at h
  | coe r => exact isReal_coe r

/-- a conjunction of two one-bit arrays at an index -/
theorem andi_apply {s : Shape} {w : ℕ} (x y : IVec s w) (i : s.Idx) : andi x y i = IntOp.andi (x i) (y i) := rfl

/-- "every entry's absolute value is below +∞", as the predicate prints it, gives a real at every entry -/
theorem isReal_of_all_finite {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have hi := Host.reduce_andi_all _ _ hr hu ix0 e i
  rw [cmpf_apply, broadcastInDim_apply _ hb _ i ix0 (fun a => a.elim0), constant_apply, ofBits_inf] at hi
  exact isReal_of_abs_lt_top (x i) hi

/-- THE PRECONDITION READ BACK, over any twelve float arrays and two index arrays: where the printed predicate is 1,
    every entry of every float array is a real number. -/
theorem fn_isReal (a0 : FVec Ideal Cert.Pre_finite_inputs.S100000x128 .f32) (a1 a2 : IVec Cert.Pre_finite_inputs.S1600000 32)
    (a3 a4 a5 a6 : FVec Ideal Cert.Pre_finite_inputs.S128x128 .f32) (a7 a8 : FVec Ideal Cert.Pre_finite_inputs.S128x40 .f32)
    (a9 : FVec Ideal Cert.Pre_finite_inputs.S40 .f32) (a10 a11 a12 a13 : FVec Ideal Cert.Pre_finite_inputs.S128 .f32)
    (h : Cert.Pre_finite_inputs.fn (F := Ideal) a0 a1 a2 a3 a4 a5 a6 a7 a8 a9 a10 a11 a12 a13 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) := by
  have h0 := congrFun h ix0
  dsimp only [Cert.Pre_finite_inputs.fn, Cert.Pre_finite_inputs.fn_part1, Cert.Pre_finite_inputs.fn_part2,
    Cert.Pre_finite_inputs.fn_part3] at h0
  simp only [andi_apply, IntOp.andi_eq_one] at h0
  obtain ⟨⟨⟨⟨⟨⟨⟨⟨⟨⟨⟨r0, r3⟩, r4⟩, r5⟩, r6⟩, r7⟩, r8⟩, r9⟩, r10⟩, r11⟩, r12⟩, r13⟩ := h0
  exact ⟨isReal_of_all_finite a0 _ _ _ r0, isReal_of_all_finite a3 _ _ _ r3, isReal_of_all_finite a4 _ _ _ r4,
    isReal_of_all_finite a5 _ _ _ r5, isReal_of_all_finite a6 _ _ _ r6, isReal_of_all_finite a7 _ _ _ r7,
    isReal_of_all_finite a8 _ _ _ r8, isReal_of_all_finite a9 _ _ _ r9, isReal_of_all_finite a10 _ _ _ r10,
    isReal_of_all_finite a11 _ _ _ r11, isReal_of_all_finite a12 _ _ _ r12, isReal_of_all_finite a13 _ _ _ r13⟩

/-- under the precondition every entry of each of the twelve float arguments of the program is a real number -/
theorem args_isReal (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i)) :=
  fn_isReal _ _ _ _ _ _ _ _ _ _ _ _ _ _ (hpre c)

end Cert.Laws

end
-- ==== Proof.Bridge.lean ====
/-
  The kernel program's result is the reference's result.

  The kernel program's result is written as three layers over the launched arguments; so is the reference's. Layer by
  layer the two agree: the normalised neighbour sums are the same operations; the linear layers are the same sums of
  products; the normalising layers agree when every entry they normalise is a real number (the two forms of the variance
  are one number then); the last layers add the same bias at two places of one sum. The precondition makes every float
  argument real at every entry, and real entries stay real through each layer, so the hypothesis of the normalising
  layers' agreement holds both times it is needed.
-/
import proofs.«163791_j23218593202704_1_alg».proof.Proof.KerForms
import proofs.«163791_j23218593202704_1_alg».proof.Proof.LayerBridge
import proofs.«163791_j23218593202704_1_alg».proof.Proof.RefRead
import proofs.«163791_j23218593202704_1_alg».proof.Proof.RefFinite
import proofs.«163791_j23218593202704_1_alg».proof.Proof.PreFinite

noncomputable section

namespace Cert.Bridge

open Idealize.ShloMosaic Idealize.SL.Sem Cert.KernelIdeal.ValueChain Cert.Laws

/-! ### Each piece of the kernel program's chain as the reference's piece, over any arrays -/

/-- the linear layer's array is the reference's linear layer -/
theorem yOf_eq (A H : FVec Ideal Cert.ReferenceIdeal.S100000x128 .f32) (W L : FVec Ideal Cert.ReferenceIdeal.S128x128 .f32) :
    yOf A H W L = Cert.ReferenceIdeal.Terms.linear A H W L :=
  (Cert.ReferenceIdeal.Read.linear_eq A H W L).symm

/-- the normalising layer's array is the reference's normalising layer, when every entry normalised is a real -/
theorem hidOf_eq (Y : FVec Ideal Cert.ReferenceIdeal.S100000x128 .f32) (g be : FVec Ideal Cert.ReferenceIdeal.S128 .f32)
    (hY : ∀ i, IsReal (Y i)) : hidOf Y g be = Cert.ReferenceIdeal.Terms.batchNormRelu Y g be :=
  hidden_bridge Y g be hY

/-- the last layer's array is the reference's last layer -/
theorem outOf_eq (A H : FVec Ideal Cert.ReferenceIdeal.S100000x128 .f32) (W L : FVec Ideal Cert.ReferenceIdeal.S128x40 .f32)
    (b : FVec Ideal Cert.ReferenceIdeal.S40 .f32) : outOf A H W L b = Cert.ReferenceIdeal.Terms.lastLayer A H W L b :=
  last_bridge A H W L b

/-- the normalised neighbour sum over the launched edges is the reference's, with the reference's degree factors -/
theorem sp_eq (m : (ℓ : Loc Cert.KernelIdeal.nD Cert.KernelIdeal.τ Cert.KernelIdeal.sig) → Buf (Elt Ideal) ℓ)
    (c : Dev Cert.KernelIdeal.nD) (h : FVec Ideal Cert.ReferenceIdeal.S100000x128 .f32) :
    sp m c h = Cert.ReferenceIdeal.Terms.spmm h (ar1 m c) (ar2 m c) (Cert.ReferenceIdeal.Terms.degScale (ar1 m c))
      (Cert.ReferenceIdeal.Terms.degScale (ar2 m c)) := by
  unfold sp
  rw [Cert.KernelIdeal.HostTerms.spmm_eq, Cert.KernelIdeal.HostTerms.degScale_eq, Cert.KernelIdeal.HostTerms.degScale_eq]

/-- one hidden layer of the reference, spelled out -/
theorem hidden_def (h : FVec Ideal Cert.ReferenceIdeal.S100000x128 .f32) (src dst : IVec Cert.ReferenceIdeal.S1600000 32)
    (W L : FVec Ideal Cert.ReferenceIdeal.S128x128 .f32) (g be : FVec Ideal Cert.ReferenceIdeal.S128 .f32) :
    Cert.ReferenceIdeal.Terms.hidden h src dst W L g be
      = Cert.ReferenceIdeal.Terms.batchNormRelu
          (Cert.ReferenceIdeal.Terms.linear
            (Cert.ReferenceIdeal.Terms.spmm h src dst (Cert.ReferenceIdeal.Terms.degScale src)
              (Cert.ReferenceIdeal.Terms.degScale dst)) h W L) g be := rfl

/-- one hidden layer of the kernel program's chain is the reference's hidden layer, when the node rows, the two weight
    matrices are real at every entry -/
theorem layer_eq (m : (ℓ : Loc Cert.KernelIdeal.nD Cert.KernelIdeal.τ Cert.KernelIdeal.sig) → Buf (Elt Ideal) ℓ)
    (c : Dev Cert.KernelIdeal.nD) (h : FVec Ideal Cert.ReferenceIdeal.S100000x128 .f32)
    (W L : FVec Ideal Cert.ReferenceIdeal.S128x128 .f32) (g be : FVec Ideal Cert.ReferenceIdeal.S128 .f32)
    (hh : ∀ i, IsReal (h i)) (hW : ∀ i, IsReal (W i)) (hL : ∀ i, IsReal (L i)) :
    hidOf (yOf (sp m c h) h W L) g be = Cert.ReferenceIdeal.Terms.hidden h (ar1 m c) (ar2 m c) W L g be := by
  rw [yOf_eq, sp_eq, hidOf_eq _ _ _ (preNorm_isReal h (ar1 m c) (ar2 m c) W L hh hW hL)]
  exact (hidden_def _ _ _ _ _ _ _).symm

/-! ### The whole chain -/

/-- THE KERNEL PROGRAM'S RESULT IS THE REFERENCE'S RESULT of the same fourteen launched arguments, under the precondition. -/
theorem out_eq_result (m : (ℓ : Loc Cert.KernelIdeal.nD Cert.KernelIdeal.τ Cert.KernelIdeal.sig) → Buf (Elt Ideal) ℓ)
    (c : Dev Cert.KernelIdeal.nD)
    (hpre : Cert.Pre_KernelIdeal (hPre_finite_inputs := Cert.Pre_finite_inputs.Gen.facts) m) :
    Cert.KernelIdeal.ValueChain.out m c
      = Cert.ReferenceIdeal.Terms.result (ar0 m c) (ar1 m c) (ar2 m c) (ar3 m c) (ar4 m c) (ar5 m c) (ar6 m c) (ar7 m c)
          (ar8 m c) (ar9 m c) (ar10 m c) (ar11 m c) (ar12 m c) (ar13 m c) := by
  obtain ⟨h0, h3, h4, h5, h6, _h7, _h8, _h9, h10, h11, _h12, _h13⟩ := args_isReal m hpre c
  have e1 : k1 m c = Cert.ReferenceIdeal.Terms.hidden (ar0 m c) (ar1 m c) (ar2 m c) (ar3 m c) (ar4 m c) (ar10 m c)
      (ar11 m c) := by
    unfold k1 y0
    exact layer_eq m c (ar0 m c) (ar3 m c) (ar4 m c) (ar10 m c) (ar11 m c) h0 h3 h4
  have r1 : ∀ i, IsReal (Cert.ReferenceIdeal.Terms.hidden (ar0 m c) (ar1 m c) (ar2 m c) (ar3 m c) (ar4 m c) (ar10 m c)
      (ar11 m c) i) :=
    hidden_isReal (ar0 m c) (ar1 m c) (ar2 m c) (ar3 m c) (ar4 m c) (ar10 m c) (ar11 m c) h0 h3 h4 h10 h11
  have e2 : k2 m c = Cert.ReferenceIdeal.Terms.hidden
      (Cert.ReferenceIdeal.Terms.hidden (ar0 m c) (ar1 m c) (ar2 m c) (ar3 m c) (ar4 m c) (ar10 m c) (ar11 m c))
      (ar1 m c) (ar2 m c) (ar5 m c) (ar6 m c) (ar12 m c) (ar13 m c) := by
    unfold k2 y1
    rw [e1]
    exact layer_eq m c _ (ar5 m c) (ar6 m c) (ar12 m c) (ar13 m c) r1 h5 h6
  unfold Cert.KernelIdeal.ValueChain.out Cert.ReferenceIdeal.Terms.result
  rw [e2, outOf_eq, sp_eq]

end Cert.Bridge

end
-- ==== Proof.LibAfterStep.lean ====
/-
  Reading a straight line of host operations one operation at a time.

  A line of operations in single-assignment form (each buffer written by one operation, every operand written before
  the operation that reads it) leaves in the buffer an operation writes the operation's function of what the line
  leaves in its operands.  "Written" is a list of references, one per operation, so that "no later operation writes r"
  is a membership test on a list of references.  The line is cut at the operation's position: the operations after it
  keep its result and its operands, and the operation itself computes the result from the contents before it.
-/
import Idealize.ShloMosaic.Lib.StableHlo.Run

noncomputable section

namespace AfterStep

open Idealize.ShloMosaic Idealize.ShloMosaic.StableHlo Idealize.ShloMosaic.TcCoe

variable {τ : Topo} {sig : RefSig} {Val : EltTy → Type}

/-- Operation by operation, the line writes at most the listed reference. -/
def Writes (ops : List (HloOp τ sig Val)) (Wl : List (Ref sig .tc)) : Prop :=
  List.Forall₂ (fun op r => op.writes ⊆ {(Proc.devRef .tc r : DevRef τ sig)}) ops Wl

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The tail of a line from position k writes only the listed references from position k on. -/
theorem Writes.drop {ops : List (HloOp τ sig Val)} {Wl : List (Ref sig .tc)} (h : Writes ops Wl) (k : Nat) :
    Writes (ops.drop k) (Wl.drop k) := by
  induction h generalizing k with
  | nil => rw [List.drop_nil, List.drop_nil]; exact List.Forall₂.nil
  | cons hab hrest ih =>
    cases k with
    | zero => exact List.Forall₂.cons hab hrest
    | succ k => exact ih k

/-- A reference no listed write names keeps its contents through the line. -/
theorem keep {ops : List (HloOp τ sig Val)} {Wl : List (Ref sig .tc)} (h : Writes ops Wl) (r : Ref sig .tc)
    (hr : r ∉ Wl) (V : Valuation τ sig Val) : after ops V (Proc.devRef .tc r) = V (Proc.devRef .tc r) := by
  induction h generalizing V with
  | nil => rfl
  | @cons op w ops' Wl' hab _ ih =>
    rw [after_cons, ih (fun hm => hr (List.mem_cons_of_mem _ hm))]
    refine op.result_of_not_mem V fun hm => hr ?_
    have := Finset.mem_singleton.mp (hab hm)
    rw [Proc.devRef_injective _ this]
    exact List.mem_cons_self

/-- The line cut at position k. -/
theorem after_cut (ops : List (HloOp τ sig Val)) (k : Nat) (op : HloOp τ sig Val) (hk : ops[k]? = some op)
    (V : Valuation τ sig Val) : after ops V = after (ops.drop (k + 1)) (op.result (after (ops.take k) V)) := by
  have hlt : k < ops.length := by
    rcases Nat.lt_or_ge k ops.length with h | h
    · exact h
    · rw [List.getElem?_eq_none h] at hk; cases hk
  have hop : ops[k] = op := by
    rw [List.getElem?_eq_getElem hlt] at hk; exact Option.some.inj hk
  conv_lhs => rw [← List.take_append_drop k ops, List.drop_eq_getElem_cons hlt, hop]
  rw [after_append, after_cons]

/-- What the line leaves in a reference written at position k and not after. -/
theorem written {ops : List (HloOp τ sig Val)} {Wl : List (Ref sig .tc)} (h : Writes ops Wl) (k : Nat)
    (op : HloOp τ sig Val) (hk : ops[k]? = some op) (y : Ref sig .tc) (hy : y ∉ Wl.drop (k + 1))
    (V : Valuation τ sig Val) :
    after ops V (Proc.devRef .tc y) = op.result (after (ops.take k) V) (Proc.devRef .tc y) := by
  rw [after_cut ops k op hk V, keep (h.drop (k + 1)) y hy]

/-- What the line leaves in a reference not written from position k on: what it held before position k. -/
theorem read {ops : List (HloOp τ sig Val)} {Wl : List (Ref sig .tc)} (h : Writes ops Wl) (k : Nat)
    (a : Ref sig .tc) (ha : a ∉ Wl.drop k) (V : Valuation τ sig Val) :
    after ops V (Proc.devRef .tc a) = after (ops.take k) V (Proc.devRef .tc a) := by
  conv_lhs => rw [← List.take_append_drop k ops]
  rw [after_append, keep (h.drop k) a ha]

variable {ops : List (HloOp τ sig Val)} {Wl : List (Ref sig .tc)}

theorem nullary_at (h : Writes ops Wl) (k : Nat) {y : Ref sig .tc} {v : y.ty.Contents Val} {hy}
    (hk : ops[k]? = some (nullary y v hy)) (h1 : y ∉ Wl.drop (k + 1)) (V : Valuation τ sig Val) :
    after ops V (Proc.devRef .tc y) = v := by
  rw [written h k _ hk y h1, nullary_result]

theorem unary_at (h : Writes ops Wl) (k : Nat) {x y : Ref sig .tc} {f : x.ty.Contents Val → y.ty.Contents Val} {hx hy}
    (hk : ops[k]? = some (unary x y f hx hy)) (h1 : y ∉ Wl.drop (k + 1)) (h2 : x ∉ Wl.drop k)
    (V : Valuation τ sig Val) :
    after ops V (Proc.devRef .tc y) = f (after ops V (Proc.devRef .tc x)) := by
  rw [written h k _ hk y h1, read h k x h2, unary_result]

theorem binary_at (h : Writes ops Wl) (k : Nat) {a b y : Ref sig .tc}
    {f : a.ty.Contents Val → b.ty.Contents Val → y.ty.Contents Val} {ha hb hy}
    (hk : ops[k]? = some (binary a b y f ha hb hy)) (h1 : y ∉ Wl.drop (k + 1)) (h2 : a ∉ Wl.drop k)
    (h3 : b ∉ Wl.drop k) (V : Valuation τ sig Val) :
    after ops V (Proc.devRef .tc y) = f (after ops V (Proc.devRef .tc a)) (after ops V (Proc.devRef .tc b)) := by
  rw [written h k _ hk y h1, read h k a h2, read h k b h3, binary_result]

theorem ternary_at (h : Writes ops Wl) (k : Nat) {c a b y : Ref sig .tc}
    {f : c.ty.Contents Val → a.ty.Contents Val → b.ty.Contents Val → y.ty.Contents Val} {hc ha hb hy}
    (hk : ops[k]? = some (ternary c a b y f hc ha hb hy)) (h1 : y ∉ Wl.drop (k + 1)) (h2 : c ∉ Wl.drop k)
    (h3 : a ∉ Wl.drop k) (h4 : b ∉ Wl.drop k) (V : Valuation τ sig Val) :
    after ops V (Proc.devRef .tc y)
      = f (after ops V (Proc.devRef .tc c)) (after ops V (Proc.devRef .tc a)) (after ops V (Proc.devRef .tc b)) := by
  rw [written h k _ hk y h1, read h k c h2, read h k a h3, read h k b h4, ternary_result]

theorem reshape_at (h : Writes ops Wl) (k : Nat) {x y : Ref sig .tc} {he : x.ty.elt = y.ty.elt}
    {hn : x.ty.shape.ShapeCasts y.ty.shape} {hx hy}
    (hk : ops[k]? = some (reshape x y he hn hx hy)) (h1 : y ∉ Wl.drop (k + 1)) (h2 : x ∉ Wl.drop k)
    (V : Valuation τ sig Val) :
    after ops V (Proc.devRef .tc y) = fun i => he ▸ shapeCast y.ty.shape (after ops V (Proc.devRef .tc x)) hn i := by
  rw [written h k _ hk y h1, read h k x h2, reshape_result]

theorem nary_at (h : Writes ops Wl) (k : Nat) {n : Nat} {xs : Fin n → Ref sig .tc} {y : Ref sig .tc}
    {f : ((j : Fin n) → (xs j).ty.Contents Val) → y.ty.Contents Val} {hxs hy}
    (hk : ops[k]? = some (nary xs y f hxs hy)) (h1 : y ∉ Wl.drop (k + 1)) (h2 : ∀ j, xs j ∉ Wl.drop k)
    (V : Valuation τ sig Val) :
    after ops V (Proc.devRef .tc y) = f (fun j => after ops V (Proc.devRef .tc (xs j))) := by
  rw [written h k _ hk y h1, nary_result]
  exact congrArg f (funext fun j => (read h k (xs j) (h2 j) V).symm)

end AfterStep

end
-- ==== Proof.RefOps.lean ====
/-
  The reference program's run, read back.

  @main is a straight line of host operations: the three windows it is printed in, one after the other, and inside them
  six calls of module-local functions (the choice between two values twice, the variance twice — which itself calls a
  choice —, the clip at zero twice), each of which runs the callee's operations on the caller's buffers.  Written
  out, that is one list of 193 operations, cut here into eight stretches that each compute one named piece.  Every
  weakly fair execution of the line terminates, and a buffer then holds the fold of the operations' results over the
  launch contents; a buffer no stretch writes holds what it held at launch.
-/
import proofs.«163791_j23218593202704_1_alg».proof.ReferenceIdeal
import proofs.«163791_j23218593202704_1_alg».proof.Proof.Gen.ReferenceIdeal
import proofs.«163791_j23218593202704_1_alg».proof.Proof.RefTerms
import proofs.«163791_j23218593202704_1_alg».proof.Proof.LibAfterStep
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

section Program

variable {F : FTy → Type} [FloatOps F]

/-- The two degree counts and their scale factors: for each index word, count the edges naming each node, replace a
    zero count by one (the choice between the count and one, its three operations in line), raise to the power −1/2. -/
def sA : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (.of main_cst_3 : TRef sig ⟨S_, .f32⟩) main_call0.v0 id,
    TRef.unary main_call0.v0 main_call0.v1 (broadcastInDim S100000 ![] bcast_S_S100000),
    TRef.ternary (.of main_v8 : TRef sig ⟨S100000, .i1⟩) (.of main_v3 : TRef sig ⟨S100000, .f32⟩) main_call0.v1 main_call0.v2 select,
    nullary main_cst_4 (constant S_ .f32 0xBF000000#32),
    unary main_cst_4 main_v10 (broadcastInDim S100000 ![] bcast_S_S100000 : (⟨S_, .f32⟩ : BufTy).Contents (Elt F) → (⟨S100000, .f32⟩ : BufTy).Contents (Elt F)),
    binary main_v9 main_v10 main_v11 (Host.powf : (⟨S100000, .f32⟩ : BufTy).Contents (Elt F) → (⟨S100000, .f32⟩ : BufTy).Contents (Elt F) → (⟨S100000, .f32⟩ : BufTy).Contents (Elt F)),
    nullary main_cst_5 (constant S_ .f32 0x00000000#32),
    unary main_cst_5 main_v12 (broadcastInDim S100000 ![] bcast_S_S100000 : (⟨S_, .f32⟩ : BufTy).Contents (Elt F) → (⟨S100000, .f32⟩ : BufTy).Contents (Elt F)),
    binary main_v6 main_v12 main_v13 (cmpf .ogt : (⟨S100000, .f32⟩ : BufTy).Contents (Elt F) → (⟨S100000, .f32⟩ : BufTy).Contents (Elt F) → (⟨S100000, .i1⟩ : BufTy).Contents (Elt F)),
    nullary main_cst_6 (constant S_ .f32 0x3F800000#32),
    TRef.unary (.of main_cst_6 : TRef sig ⟨S_, .f32⟩) main_call1.v0 id,
    TRef.unary main_call1.v0 main_call1.v1 (broadcastInDim S100000 ![] bcast_S_S100000),
    TRef.ternary (.of main_v13 : TRef sig ⟨S100000, .i1⟩) (.of main_v6 : TRef sig ⟨S100000, .f32⟩) main_call1.v1 main_call1.v2 select,
    nullary main_cst_7 (constant S_ .f32 0xBF000000#32),
    unary main_cst_7 main_v15 (broadcastInDim S100000 ![] bcast_S_S100000 : (⟨S_, .f32⟩ : BufTy).Contents (Elt F) → (⟨S100000, .f32⟩ : BufTy).Contents (Elt F)),
    binary main_v14 main_v15 main_v16 (Host.powf : (⟨S100000, .f32⟩ : BufTy).Contents (Elt F) → (⟨S100000, .f32⟩ : BufTy).Contents (Elt F) → (⟨S100000, .f32⟩ : BufTy).Contents (Elt F)) ]

/-- The buffers the stretch writes, one per operation. -/
def wA : List (Ref sig .tc) :=
  [main_cst, main_v0, main_cst_0, main_v1, main_v2, main_v3,
   main_cst_1, main_v4, main_v5, main_v6, main_cst_2, main_v7,
   main_v8, main_cst_3, main_call0.v0.ref, main_call0.v1.ref, main_call0.v2.ref, main_cst_4,
   main_v10, main_v11, main_cst_5, main_v12, main_v13, main_cst_6,
   main_call1.v0.ref, main_call1.v1.ref, main_call1.v2.ref, main_cst_7, main_v15, main_v16]

/-- The first layer's aggregation and linear map: scale the node rows, wrap negative source words, copy rows along
    the sources, add them up at the targets, scale again; then the two matrix products and their sum. -/
def sB : List (HloOp τ sig (Elt F)) :=
  [ unary main_v11 main_v17 (broadcastInDim S100000x1 ![0] bcast_S100000_S100000x1_0 : (⟨S100000, .f32⟩ : BufTy).Contents (Elt F) → (⟨S100000x1, .f32⟩ : BufTy).Contents (Elt F)),
    unary main_v17 main_v18 (broadcastInDim S100000x128 ![0, 1] bcast_S100000x1_S100000x128_0_1 : (⟨S100000x1, .f32⟩ : BufTy).Contents (Elt F) → (⟨S100000x128, .f32⟩ : BufTy).Contents (Elt F)),
    binary main_arg0 main_v18 main_v19 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v20 (broadcastInDim S1600000 ![] bcast_S_S1600000 : (⟨S_, .i32⟩ : BufTy).Contents (Elt F) → (⟨S1600000, .i32⟩ : BufTy).Contents (Elt F)),
    binary main_arg1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v22 (broadcastInDim S1600000 ![] bcast_S_S1600000 : (⟨S_, .i32⟩ : BufTy).Contents (Elt F) → (⟨S1600000, .i32⟩ : BufTy).Contents (Elt F)),
    binary main_arg1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v19 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v27 (broadcastInDim S100000x128 ![] bcast_S_S100000x128 : (⟨S_, .f32⟩ : BufTy).Contents (Elt F) → (⟨S100000x128, .f32⟩ : BufTy).Contents (Elt F)),
    unary main_arg2 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v30 (broadcastInDim S100000x1 ![0] bcast_S100000_S100000x1_0 : (⟨S100000, .f32⟩ : BufTy).Contents (Elt F) → (⟨S100000x1, .f32⟩ : BufTy).Contents (Elt F)),
    unary main_v30 main_v31 (broadcastInDim S100000x128 ![0, 1] bcast_S100000x1_S100000x128_0_1 : (⟨S100000x1, .f32⟩ : BufTy).Contents (Elt F) → (⟨S100000x128, .f32⟩ : BufTy).Contents (Elt F)),
    binary main_v29 main_v31 main_v32 (mulf : (⟨S100000x128, .f32⟩ : BufTy).Contents (Elt F) → (⟨S100000x128, .f32⟩ : BufTy).Contents (Elt F) → (⟨S100000x128, .f32⟩ : BufTy).Contents (Elt F)),
    binary main_v32 main_arg3 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg4 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v33 main_v34 main_v35 (addf : (⟨S100000x128, .f32⟩ : BufTy).Contents (Elt F) → (⟨S100000x128, .f32⟩ : BufTy).Contents (Elt F) → (⟨S100000x128, .f32⟩ : BufTy).Contents (Elt F)) ]

/-- The buffers the stretch writes, one per operation. -/
def wB : List (Ref sig .tc) :=
  [main_v17, main_v18, main_v19, main_c, main_v20, main_v21,
   main_c_8, main_v22, main_v23, main_v24, main_v25, main_v26,
   main_cst_9, main_v27, main_v28, main_v29, main_v30, main_v31,
   main_v32, main_v33, main_v34, main_v35]

/-- The first layer's column statistics: the column means, the variance function's operations in line (its own mean
    as a one-row array, the squared deviations, their column sums over the row count, and the choice that guards a
    non-positive count), the deviations from the mean, and the small number's broadcast. -/
def sC1 : List (HloOp τ sig (Elt F)) :=
  [ nullary main_cst_10 (constant S_ .f32 0x00000000#32),
    binary main_v35 main_cst_10 main_v36 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v37 (broadcastInDim S128 ![] bcast_S_S128 : (⟨S_, .f32⟩ : BufTy).Contents (Elt F) → (⟨S128, .f32⟩ : BufTy).Contents (Elt F)),
    binary main_v36 main_v37 main_v38 (Host.divf : (⟨S128, .f32⟩ : BufTy).Contents (Elt F) → (⟨S128, .f32⟩ : BufTy).Contents (Elt F) → (⟨S128, .f32⟩ : BufTy).Contents (Elt F)),
    nullary main_c_12 (constantI S_ 32 0#32),
    TRef.nullary main_call2.cst (constant S_ .f32 0x00000000#32),
    TRef.binary (.of main_v35 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v35 : TRef sig ⟨S100000x128, .f32⟩) main_call2.v4 main_call2.v5 subf,
    TRef.binary main_call2.v5 main_call2.v5 main_call2.v6 mulf,
    TRef.unary (.of main_c_12 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v38 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v35 main_v41 main_v42 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v43 (broadcastInDim S128 ![] bcast_S_S128 : (⟨S_, .f32⟩ : BufTy).Contents (Elt F) → (⟨S128, .f32⟩ : BufTy).Contents (Elt F)) ]

/-- The buffers the stretch writes, one per operation. -/
def wC1 : List (Ref sig .tc) :=
  [main_cst_10, main_v36, main_cst_11, main_v37, main_v38, main_c_12,
   main_call2.cst.ref, main_call2.v0.ref, main_call2.v1.ref, main_call2.cst_0.ref, main_call2.v2.ref, main_call2.v3.ref,
   main_call2.v4.ref, main_call2.v5.ref, main_call2.v6.ref, main_call2.v7.ref, main_call2.cst_1.ref, main_call2.v8.ref,
   main_call2.cst_2.ref, main_call2.v9.ref, main_call2.v10.ref, main_call2.v11.ref, main_call2.cst_3.ref, main_call2.v12.ref,
   main_call2.cst_4.ref, main_call2.call0.v0.ref, main_call2.call0.v1.ref, main_call2.call0.v2.ref, main_v40, main_v41,
   main_v42, main_cst_13, main_v43]

/-- The first layer's normalisation: reciprocal square root of variance plus the small number, the scale row and the
    shift row, and the clip at zero (its three operations in line). -/
def sC2 : List (HloOp τ sig (Elt F)) :=
  [ binary main_v39 main_v43 main_v44 (addf : (⟨S128, .f32⟩ : BufTy).Contents (Elt F) → (⟨S128, .f32⟩ : BufTy).Contents (Elt F) → (⟨S128, .f32⟩ : BufTy).Contents (Elt F)),
    unary main_v44 main_v45 (Host.rsqrt : (⟨S128, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v42 main_v47 main_v48 (mulf : (⟨S100000x128, .f32⟩ : BufTy).Contents (Elt F) → (⟨S100000x128, .f32⟩ : BufTy).Contents (Elt F) → (⟨S100000x128, .f32⟩ : BufTy).Contents (Elt F)),
    unary main_arg10 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (mulf : (⟨S100000x128, .f32⟩ : BufTy).Contents (Elt F) → (⟨S100000x128, .f32⟩ : BufTy).Contents (Elt F) → (⟨S100000x128, .f32⟩ : BufTy).Contents (Elt F)),
    unary main_arg11 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v51 main_v53 main_v54 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v54 : TRef sig ⟨S100000x128, .f32⟩) main_call3.v0 main_call3.v1 maximumf ]

/-- The buffers the stretch writes, one per operation. -/
def wC2 : List (Ref sig .tc) :=
  [main_v44, main_v45, main_v46, main_v47, main_v48, main_v49,
   main_v50, main_v51, main_v52, main_v53, main_v54, main_call3.cst.ref,
   main_call3.v0.ref, main_call3.v1.ref]

/-- The second layer's aggregation and linear map. -/
def sE : List (HloOp τ sig (Elt F)) :=
  [ unary main_v11 main_v56 (broadcastInDim S100000x1 ![0] bcast_S100000_S100000x1_0 : (⟨S100000, .f32⟩ : BufTy).Contents (Elt F) → (⟨S100000x1, .f32⟩ : BufTy).Contents (Elt F)),
    unary main_v56 main_v57 (broadcastInDim S100000x128 ![0, 1] bcast_S100000x1_S100000x128_0_1 : (⟨S100000x1, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)),
    nullary main_c_14 (constantI S_ 32 0#32),
    unary main_c_14 main_v59 (broadcastInDim S1600000 ![] bcast_S_S1600000 : (⟨S_, .i32⟩ : BufTy).Contents (Elt F) → (⟨S1600000, .i32⟩ : BufTy).Contents (Elt F)),
    binary main_arg1 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v61 (broadcastInDim S1600000 ![] bcast_S_S1600000 : (⟨S_, .i32⟩ : BufTy).Contents (Elt F) → (⟨S1600000, .i32⟩ : BufTy).Contents (Elt F)),
    binary main_arg1 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_arg1 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v58 main_v64 main_v65 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v66 (broadcastInDim S100000x128 ![] bcast_S_S100000x128 : (⟨S_, .f32⟩ : BufTy).Contents (Elt F) → (⟨S100000x128, .f32⟩ : BufTy).Contents (Elt F)),
    unary main_arg2 main_v67 (broadcastInDim S1600000x1 ![0] bcast_S1600000_S1600000x1_0 : (⟨S1600000, .i32⟩ : BufTy).Contents (Elt F) → (⟨S1600000x1, .i32⟩ : BufTy).Contents (Elt F)),
    ternary main_v66 main_v67 main_v65 main_v68 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v69 (broadcastInDim S100000x1 ![0] bcast_S100000_S100000x1_0 : (⟨S100000, .f32⟩ : BufTy).Contents (Elt F) → (⟨S100000x1, .f32⟩ : BufTy).Contents (Elt F)),
    unary main_v69 main_v70 (broadcastInDim S100000x128 ![0, 1] bcast_S100000x1_S100000x128_0_1 : (⟨S100000x1, .f32⟩ : BufTy).Contents (Elt F) → (⟨S100000x128, .f32⟩ : BufTy).Contents (Elt F)),
    binary main_v68 main_v70 main_v71 (mulf : (⟨S100000x128, .f32⟩ : BufTy).Contents (Elt F) → (⟨S100000x128, .f32⟩ : BufTy).Contents (Elt F) → (⟨S100000x128, .f32⟩ : BufTy).Contents (Elt F)),
    binary main_v71 main_arg5 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v55 main_arg6 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v72 main_v73 main_v74 (addf : (⟨S100000x128, .f32⟩ : BufTy).Contents (Elt F) → (⟨S100000x128, .f32⟩ : BufTy).Contents (Elt F) → (⟨S100000x128, .f32⟩ : BufTy).Contents (Elt F)) ]

/-- The buffers the stretch writes, one per operation. -/
def wE : List (Ref sig .tc) :=
  [main_v56, main_v57, main_v58, main_c_14, main_v59, main_v60,
   main_c_15, main_v61, main_v62, main_v63, main_v64, main_v65,
   main_cst_16, main_v66, main_v67, main_v68, main_v69, main_v70,
   main_v71, main_v72, main_v73, main_v74]

/-- The second layer's column statistics, normalisation and clip. -/
def sF : List (HloOp τ sig (Elt F)) :=
  [ nullary main_cst_17 (constant S_ .f32 0x00000000#32),
    binary main_v74 main_cst_17 main_v75 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v76 (broadcastInDim S128 ![] bcast_S_S128 : (⟨S_, .f32⟩ : BufTy).Contents (Elt F) → (⟨S128, .f32⟩ : BufTy).Contents (Elt F)),
    binary main_v75 main_v76 main_v77 (Host.divf : (⟨S128, .f32⟩ : BufTy).Contents (Elt F) → (⟨S128, .f32⟩ : BufTy).Contents (Elt F) → (⟨S128, .f32⟩ : BufTy).Contents (Elt F)),
    nullary main_c_19 (constantI S_ 32 0#32),
    TRef.nullary main_call4.cst (constant S_ .f32 0x00000000#32),
    TRef.binary (.of main_v74 : TRef sig ⟨S100000x128, .f32⟩) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v74 : TRef sig ⟨S100000x128, .f32⟩) main_call4.v4 main_call4.v5 subf,
    TRef.binary main_call4.v5 main_call4.v5 main_call4.v6 mulf,
    TRef.unary (.of main_c_19 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v77 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v74 main_v80 main_v81 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v82 (broadcastInDim S128 ![] bcast_S_S128 : (⟨S_, .f32⟩ : BufTy).Contents (Elt F) → (⟨S128, .f32⟩ : BufTy).Contents (Elt F)),
    binary main_v78 main_v82 main_v83 (addf : (⟨S128, .f32⟩ : BufTy).Contents (Elt F) → (⟨S128, .f32⟩ : BufTy).Contents (Elt F) → (⟨S128, .f32⟩ : BufTy).Contents (Elt F)),
    unary main_v83 main_v84 (Host.rsqrt : (⟨S128, .f32⟩ : BufTy).Contents (Elt F) → (⟨S128, .f32⟩ : BufTy).Contents (Elt F)),
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v81 main_v86 main_v87 (mulf : (⟨S100000x128, .f32⟩ : BufTy).Contents (Elt F) → (⟨S100000x128, .f32⟩ : BufTy).Contents (Elt F) → (⟨S100000x128, .f32⟩ : BufTy).Contents (Elt F)),
    unary main_arg12 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (mulf : (⟨S100000x128, .f32⟩ : BufTy).Contents (Elt F) → (⟨S100000x128, .f32⟩ : BufTy).Contents (Elt F) → (⟨S100000x128, .f32⟩ : BufTy).Contents (Elt F)),
    unary main_arg13 main_v91 (broadcastInDim S1x128 ![1] bcast_S128_S1x128_1 : (⟨S128, .f32⟩ : BufTy).Contents (Elt F) → (⟨S1x128, .f32⟩ : BufTy).Contents (Elt F)),
    unary main_v91 main_v92 (broadcastInDim S100000x128 ![0, 1] bcast_S1x128_S100000x128_0_1 : (⟨S1x128, .f32⟩ : BufTy).Contents (Elt F) → (⟨S100000x128, .f32⟩ : BufTy).Contents (Elt F)),
    binary main_v90 main_v92 main_v93 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v93 : TRef sig ⟨S100000x128, .f32⟩) main_call5.v0 main_call5.v1 maximumf ]

/-- The buffers the stretch writes, one per operation. -/
def wF : List (Ref sig .tc) :=
  [main_cst_17, main_v75, main_cst_18, main_v76, main_v77, main_c_19,
   main_call4.cst.ref, main_call4.v0.ref, main_call4.v1.ref, main_call4.cst_0.ref, main_call4.v2.ref, main_call4.v3.ref,
   main_call4.v4.ref, main_call4.v5.ref, main_call4.v6.ref, main_call4.v7.ref, main_call4.cst_1.ref, main_call4.v8.ref,
   main_call4.cst_2.ref, main_call4.v9.ref, main_call4.v10.ref, main_call4.v11.ref, main_call4.cst_3.ref, main_call4.v12.ref,
   main_call4.cst_4.ref, main_call4.call0.v0.ref, main_call4.call0.v1.ref, main_call4.call0.v2.ref, main_v79, main_v80,
   main_v81, main_cst_20, main_v82, main_v83, main_v84, main_v85,
   main_v86, main_v87, main_v88, main_v89, main_v90, main_v91,
   main_v92, main_v93, main_call5.cst.ref, main_call5.v0.ref, main_call5.v1.ref]

/-- The source-side degree factor repeated along the rows, for the last aggregation. -/
def sG1 : List (HloOp τ sig (Elt F)) :=
  [ unary main_v11 main_v95 (broadcastInDim S100000x1 ![0] bcast_S100000_S100000x1_0 : (⟨S100000, .f32⟩ : BufTy).Contents (Elt F) → (⟨S100000x1, .f32⟩ : BufTy).Contents (Elt F)),
    unary main_v95 main_v96 (broadcastInDim S100000x128 ![0, 1] bcast_S100000x1_S100000x128_0_1 : (⟨S100000x1, .f32⟩ : BufTy).Contents (Elt F) → (⟨S100000x128, .f32⟩ : BufTy).Contents (Elt F)) ]

/-- The buffers the stretch writes, one per operation. -/
def wG1 : List (Ref sig .tc) :=
  [main_v95, main_v96]

/-- The last aggregation and the last linear map with its bias row. -/
def sG2 : List (HloOp τ sig (Elt F)) :=
  [ binary main_v94 main_v96 main_v97 (mulf : (⟨S100000x128, .f32⟩ : BufTy).Contents (Elt F) → (⟨S100000x128, .f32⟩ : BufTy).Contents (Elt F) → (⟨S100000x128, .f32⟩ : BufTy).Contents (Elt F)),
    nullary main_c_21 (constantI S_ 32 0#32),
    unary main_c_21 main_v98 (broadcastInDim S1600000 ![] bcast_S_S1600000 : (⟨S_, .i32⟩ : BufTy).Contents (Elt F) → (⟨S1600000, .i32⟩ : BufTy).Contents (Elt F)),
    binary main_arg1 main_v98 main_v99 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v100 (broadcastInDim S1600000 ![] bcast_S_S1600000 : (⟨S_, .i32⟩ : BufTy).Contents (Elt F) → (⟨S1600000, .i32⟩ : BufTy).Contents (Elt F)),
    binary main_arg1 main_v100 main_v101 (addi : (⟨S1600000, .i32⟩ : BufTy).Contents (Elt F) → (⟨S1600000, .i32⟩ : BufTy).Contents (Elt F) → (⟨S1600000, .i32⟩ : BufTy).Contents (Elt F)),
    ternary main_v99 main_v101 main_arg1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v102 main_v103 (broadcastInDim S1600000x1 ![0] bcast_S1600000_S1600000x1_0 : (⟨S1600000, .i32⟩ : BufTy).Contents (Elt F) → (⟨S1600000x1, .i32⟩ : BufTy).Contents (Elt F)),
    binary main_v97 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_23 (constant S_ .f32 0x00000000#32),
    unary main_cst_23 main_v105 (broadcastInDim S100000x128 ![] bcast_S_S100000x128 : (⟨S_, .f32⟩ : BufTy).Contents (Elt F) → (⟨S100000x128, .f32⟩ : BufTy).Contents (Elt F)),
    unary main_arg2 main_v106 (broadcastInDim S1600000x1 ![0] bcast_S1600000_S1600000x1_0 : (⟨S1600000, .i32⟩ : BufTy).Contents (Elt F) → (⟨S1600000x1, .i32⟩ : BufTy).Contents (Elt F)),
    ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v16 main_v108 (broadcastInDim S100000x1 ![0] bcast_S100000_S100000x1_0 : (⟨S100000, .f32⟩ : BufTy).Contents (Elt F) → (⟨S100000x1, .f32⟩ : BufTy).Contents (Elt F)),
    unary main_v108 main_v109 (broadcastInDim S100000x128 ![0, 1] bcast_S100000x1_S100000x128_0_1 : (⟨S100000x1, .f32⟩ : BufTy).Contents (Elt F) → (⟨S100000x128, .f32⟩ : BufTy).Contents (Elt F)),
    binary main_v107 main_v109 main_v110 (mulf : (⟨S100000x128, .f32⟩ : BufTy).Contents (Elt F) → (⟨S100000x128, .f32⟩ : BufTy).Contents (Elt F) → (⟨S100000x128, .f32⟩ : BufTy).Contents (Elt F)),
    binary main_v110 main_arg7 main_v111 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg9 main_v112 (broadcastInDim S1x40 ![1] bcast_S40_S1x40_1 : (⟨S40, .f32⟩ : BufTy).Contents (Elt F) → (⟨S1x40, .f32⟩ : BufTy).Contents (Elt F)),
    unary main_v112 main_v113 (broadcastInDim S100000x40 ![0, 1] bcast_S1x40_S100000x40_0_1 : (⟨S1x40, .f32⟩ : BufTy).Contents (Elt F) → (⟨S100000x40, .f32⟩ : BufTy).Contents (Elt F)),
    binary main_v111 main_v113 main_v114 (addf : (⟨S100000x40, .f32⟩ : BufTy).Contents (Elt F) → (⟨S100000x40, .f32⟩ : BufTy).Contents (Elt F) → (⟨S100000x40, .f32⟩ : BufTy).Contents (Elt F)),
    binary main_v94 main_arg8 main_v115 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v114 main_v115 main_v116 (addf : (⟨S100000x40, .f32⟩ : BufTy).Contents (Elt F) → (⟨S100000x40, .f32⟩ : BufTy).Contents (Elt F) → (⟨S100000x40, .f32⟩ : BufTy).Contents (Elt F)) ]

/-- The buffers the stretch writes, one per operation. -/
def wG2 : List (Ref sig .tc) :=
  [main_v97, main_c_21, main_v98, main_v99, main_c_22, main_v100,
   main_v101, main_v102, main_v103, main_v104, main_cst_23, main_v105,
   main_v106, main_v107, main_v108, main_v109, main_v110, main_v111,
   main_v112, main_v113, main_v114, main_v115, main_v116]

/-- The three windows @main is printed in, as their stretches. -/
def ops0 : List (HloOp τ sig (Elt F)) := sA ++ (sB ++ sC1)
def ops1 : List (HloOp τ sig (Elt F)) := sC2 ++ (sE ++ (sF ++ sG1))
def ops2 : List (HloOp τ sig (Elt F)) := sG2

/-- @main's operations in order. -/
def ops : List (HloOp τ sig (Elt F)) := ops0 ++ (ops1 ++ ops2)

set_option maxRecDepth 8192 in
set_option maxHeartbeats 4000000 in
/-- The first window is its operations in line: a call unfolds to the callee's operations on the call's buffers. -/
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

/-- @main is the three windows in order, hence the whole line. -/
theorem main_eq (c : Dev nD) : main (F := F) c = seq ops := by
  rw [ops, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem sA_sub : (sA : List (HloOp τ sig (Elt F))).Forall fun op => op.bufs ⊆ tcRefs τ sig := by
  unfold sA
  exact ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..⟩

set_option maxRecDepth 8192 in
theorem sB_sub : (sB : List (HloOp τ sig (Elt F))).Forall fun op => op.bufs ⊆ tcRefs τ sig := by
  unfold sB
  exact ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., binary_bufs_sub .., binary_bufs_sub ..⟩

set_option maxRecDepth 8192 in
theorem sC1_sub : (sC1 : List (HloOp τ sig (Elt F))).Forall fun op => op.bufs ⊆ tcRefs τ sig := by
  unfold sC1
  exact ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub ..⟩

set_option maxRecDepth 8192 in
theorem sC2_sub : (sC2 : List (HloOp τ sig (Elt F))).Forall fun op => op.bufs ⊆ tcRefs τ sig := by
  unfold sC2
  exact ⟨binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩

set_option maxRecDepth 8192 in
theorem sE_sub : (sE : List (HloOp τ sig (Elt F))).Forall fun op => op.bufs ⊆ tcRefs τ sig := by
  unfold sE
  exact ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., binary_bufs_sub .., binary_bufs_sub ..⟩

set_option maxRecDepth 8192 in
theorem sF_sub : (sF : List (HloOp τ sig (Elt F))).Forall fun op => op.bufs ⊆ tcRefs τ sig := by
  unfold sF
  exact ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

set_option maxRecDepth 8192 in
theorem sG1_sub : (sG1 : List (HloOp τ sig (Elt F))).Forall fun op => op.bufs ⊆ tcRefs τ sig := by
  unfold sG1
  exact ⟨unary_bufs_sub .., unary_bufs_sub ..⟩

set_option maxRecDepth 8192 in
theorem sG2_sub : (sG2 : List (HloOp τ sig (Elt F))).Forall fun op => op.bufs ⊆ tcRefs τ sig := by
  unfold sG2
  exact ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    unary_bufs_sub .., unary_bufs_sub .., binary_bufs_sub .., binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, ops0, ops1, ops2, List.mem_append] at h
    rcases h with (h | h | h) | (h | h | h | h) | h
    exacts [List.forall_iff_forall_mem.mp sA_sub op h, List.forall_iff_forall_mem.mp sB_sub op h,
      List.forall_iff_forall_mem.mp sC1_sub op h, List.forall_iff_forall_mem.mp sC2_sub op h,
      List.forall_iff_forall_mem.mp sE_sub op h, List.forall_iff_forall_mem.mp sF_sub op h,
      List.forall_iff_forall_mem.mp sG1_sub op h, List.forall_iff_forall_mem.mp sG2_sub op h]

set_option maxRecDepth 8192 in
/-- From any memory with zero counters every weakly fair execution of @main terminates, and each TensorCore buffer
    ends at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## What a stretch leaves alone

Each stretch writes the buffers of its list and no other, so any other buffer reads after it as before it. -/

set_option maxRecDepth 8192 in
theorem sA_writes : AfterStep.Writes (sA (F := F)) wA := by
  unfold sA wA AfterStep.Writes
  repeat (first | exact List.Forall₂.nil | refine List.Forall₂.cons (Finset.Subset.refl _) ?_)

theorem sA_keep (r : Ref sig .tc) (hr : r ∉ wA) (W : Valuation τ sig (Elt F)) :
    after (sA (F := F)) W (Proc.devRef .tc r) = W (Proc.devRef .tc r) := AfterStep.keep sA_writes r hr W

set_option maxRecDepth 8192 in
theorem sB_writes : AfterStep.Writes (sB (F := F)) wB := by
  unfold sB wB AfterStep.Writes
  repeat (first | exact List.Forall₂.nil | refine List.Forall₂.cons (Finset.Subset.refl _) ?_)

theorem sB_keep (r : Ref sig .tc) (hr : r ∉ wB) (W : Valuation τ sig (Elt F)) :
    after (sB (F := F)) W (Proc.devRef .tc r) = W (Proc.devRef .tc r) := AfterStep.keep sB_writes r hr W

set_option maxRecDepth 8192 in
theorem sC1_writes : AfterStep.Writes (sC1 (F := F)) wC1 := by
  unfold sC1 wC1 AfterStep.Writes
  repeat (first | exact List.Forall₂.nil | refine List.Forall₂.cons (Finset.Subset.refl _) ?_)

theorem sC1_keep (r : Ref sig .tc) (hr : r ∉ wC1) (W : Valuation τ sig (Elt F)) :
    after (sC1 (F := F)) W (Proc.devRef .tc r) = W (Proc.devRef .tc r) := AfterStep.keep sC1_writes r hr W

set_option maxRecDepth 8192 in
theorem sC2_writes : AfterStep.Writes (sC2 (F := F)) wC2 := by
  unfold sC2 wC2 AfterStep.Writes
  repeat (first | exact List.Forall₂.nil | refine List.Forall₂.cons (Finset.Subset.refl _) ?_)

theorem sC2_keep (r : Ref sig .tc) (hr : r ∉ wC2) (W : Valuation τ sig (Elt F)) :
    after (sC2 (F := F)) W (Proc.devRef .tc r) = W (Proc.devRef .tc r) := AfterStep.keep sC2_writes r hr W

set_option maxRecDepth 8192 in
theorem sE_writes : AfterStep.Writes (sE (F := F)) wE := by
  unfold sE wE AfterStep.Writes
  repeat (first | exact List.Forall₂.nil | refine List.Forall₂.cons (Finset.Subset.refl _) ?_)

theorem sE_keep (r : Ref sig .tc) (hr : r ∉ wE) (W : Valuation τ sig (Elt F)) :
    after (sE (F := F)) W (Proc.devRef .tc r) = W (Proc.devRef .tc r) := AfterStep.keep sE_writes r hr W

set_option maxRecDepth 8192 in
theorem sF_writes : AfterStep.Writes (sF (F := F)) wF := by
  unfold sF wF AfterStep.Writes
  repeat (first | exact List.Forall₂.nil | refine List.Forall₂.cons (Finset.Subset.refl _) ?_)

theorem sF_keep (r : Ref sig .tc) (hr : r ∉ wF) (W : Valuation τ sig (Elt F)) :
    after (sF (F := F)) W (Proc.devRef .tc r) = W (Proc.devRef .tc r) := AfterStep.keep sF_writes r hr W

set_option maxRecDepth 8192 in
theorem sG1_writes : AfterStep.Writes (sG1 (F := F)) wG1 := by
  unfold sG1 wG1 AfterStep.Writes
  repeat (first | exact List.Forall₂.nil | refine List.Forall₂.cons (Finset.Subset.refl _) ?_)

theorem sG1_keep (r : Ref sig .tc) (hr : r ∉ wG1) (W : Valuation τ sig (Elt F)) :
    after (sG1 (F := F)) W (Proc.devRef .tc r) = W (Proc.devRef .tc r) := AfterStep.keep sG1_writes r hr W

set_option maxRecDepth 8192 in
theorem sG2_writes : AfterStep.Writes (sG2 (F := F)) wG2 := by
  unfold sG2 wG2 AfterStep.Writes
  repeat (first | exact List.Forall₂.nil | refine List.Forall₂.cons (Finset.Subset.refl _) ?_)

theorem sG2_keep (r : Ref sig .tc) (hr : r ∉ wG2) (W : Valuation τ sig (Elt F)) :
    after (sG2 (F := F)) W (Proc.devRef .tc r) = W (Proc.devRef .tc r) := AfterStep.keep sG2_writes r hr W

/-- A buffer that no stretch writes holds after the whole line what it held at launch. -/
theorem ops_keep (r : Ref sig .tc) (hA : r ∉ wA) (hB : r ∉ wB) (hC1 : r ∉ wC1) (hC2 : r ∉ wC2) (hE : r ∉ wE) (hF : r ∉ wF)
    (hG1 : r ∉ wG1) (hG2 : r ∉ wG2) (V : Valuation τ sig (Elt F)) :
    after (ops (F := F)) V (Proc.devRef .tc r) = V (Proc.devRef .tc r) := by
  simp only [ops, ops0, ops1, ops2, AfterStep.after_append]
  rw [sG2_keep r hG2, sG1_keep r hG1, sF_keep r hF, sE_keep r hE, sC2_keep r hC2, sC1_keep r hC1, sB_keep r hB, sA_keep r hA]

end Program

end Cert.ReferenceIdeal.HandRun

end
-- ==== Proof.RefRun.lean ====
/-
  What the reference's line of operations leaves in the result buffer: Terms.result of the fourteen arguments.

  Each stretch of the line is read from ANY contents W of the buffers: the buffer the stretch is for then holds a named
  piece (Terms) of what W holds in the stretch's inputs, by composing the operations' results in order.  A call's
  operations move values between a buffer's own type and the callee's declared type; those moves are identities, and
  they are read off over contents that are variables, so that nothing large stands under them.  The stretches are then
  joined: each later stretch reads either a piece an earlier stretch computed or, where no stretch wrote, the launch
  contents.
-/
import proofs.«163791_j23218593202704_1_alg».proof.Proof.RefOps
import proofs.«163791_j23218593202704_1_alg».proof.Proof.RefTerms

noncomputable section

namespace Cert.ReferenceIdeal.HandRun

open Cert.ReferenceIdeal Cert.ReferenceIdeal.Facts₀ Idealize.ShloMosaic Idealize.ShloMosaic.TcCoe Idealize.SL.Sem
  Idealize.ShloMosaic.StableHlo

/-! ## The degree stretch in five parts

The two choices between a count and one are calls; their operations are read on their own, from contents that are
variables. -/

/-- The two counts, the first comparison with zero, and the one that replaces a zero count. -/
def sA1 {F : FTy → Type} [FloatOps F] : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32) ]

def wA1 : List (Ref sig .tc) :=
  [main_cst, main_v0, main_cst_0, main_v1, main_v2, main_v3,
   main_cst_1, main_v4, main_v5, main_v6, main_cst_2, main_v7,
   main_v8, main_cst_3]

theorem sA1_writes {F : FTy → Type} [FloatOps F] : AfterStep.Writes (sA1 (F := F)) wA1 := by
  unfold sA1 wA1 AfterStep.Writes
  repeat (first | exact List.Forall₂.nil | refine List.Forall₂.cons (Finset.Subset.refl _) ?_)

theorem sA1_keep (r : Ref sig .tc) (hr : r ∉ wA1) (W : Valuation τ sig (Elt Ideal)) :
    after (sA1 (F := Ideal)) W (Proc.devRef .tc r) = W (Proc.devRef .tc r) := AfterStep.keep sA1_writes r hr W

/-- The first choice's three operations: the one converted to its own type, repeated along the nodes, chosen where
    the count is zero. -/
def sW0 {F : FTy → Type} [FloatOps F] : List (HloOp τ sig (Elt F)) :=
  [ TRef.unary (.of main_cst_3 : TRef sig ⟨S_, .f32⟩) main_call0.v0 id,
    TRef.unary main_call0.v0 main_call0.v1 (broadcastInDim S100000 ![] bcast_S_S100000),
    TRef.ternary (.of main_v8 : TRef sig ⟨S100000, .i1⟩) (.of main_v3 : TRef sig ⟨S100000, .f32⟩) main_call0.v1 main_call0.v2 select ]

def wW0 : List (Ref sig .tc) :=
  [main_call0.v0.ref, main_call0.v1.ref, main_call0.v2.ref]

theorem sW0_writes {F : FTy → Type} [FloatOps F] : AfterStep.Writes (sW0 (F := F)) wW0 := by
  unfold sW0 wW0 AfterStep.Writes
  repeat (first | exact List.Forall₂.nil | refine List.Forall₂.cons (Finset.Subset.refl _) ?_)

theorem sW0_keep (r : Ref sig .tc) (hr : r ∉ wW0) (W : Valuation τ sig (Elt Ideal)) :
    after (sW0 (F := Ideal)) W (Proc.devRef .tc r) = W (Proc.devRef .tc r) := AfterStep.keep sW0_writes r hr W

/-- The first power, the second comparison with zero, and its one. -/
def sA2 {F : FTy → Type} [FloatOps F] : List (HloOp τ sig (Elt F)) :=
  [ nullary main_cst_4 (constant S_ .f32 0xBF000000#32),
    unary main_cst_4 main_v10 (broadcastInDim S100000 ![] bcast_S_S100000 : (⟨S_, .f32⟩ : BufTy).Contents (Elt F) → (⟨S100000, .f32⟩ : BufTy).Contents (Elt F)),
    binary main_v9 main_v10 main_v11 (Host.powf : (⟨S100000, .f32⟩ : BufTy).Contents (Elt F) → (⟨S100000, .f32⟩ : BufTy).Contents (Elt F) → (⟨S100000, .f32⟩ : BufTy).Contents (Elt F)),
    nullary main_cst_5 (constant S_ .f32 0x00000000#32),
    unary main_cst_5 main_v12 (broadcastInDim S100000 ![] bcast_S_S100000 : (⟨S_, .f32⟩ : BufTy).Contents (Elt F) → (⟨S100000, .f32⟩ : BufTy).Contents (Elt F)),
    binary main_v6 main_v12 main_v13 (cmpf .ogt : (⟨S100000, .f32⟩ : BufTy).Contents (Elt F) → (⟨S100000, .f32⟩ : BufTy).Contents (Elt F) → (⟨S100000, .i1⟩ : BufTy).Contents (Elt F)),
    nullary main_cst_6 (constant S_ .f32 0x3F800000#32) ]

def wA2 : List (Ref sig .tc) :=
  [main_cst_4, main_v10, main_v11, main_cst_5, main_v12, main_v13,
   main_cst_6]

theorem sA2_writes {F : FTy → Type} [FloatOps F] : AfterStep.Writes (sA2 (F := F)) wA2 := by
  unfold sA2 wA2 AfterStep.Writes
  repeat (first | exact List.Forall₂.nil | refine List.Forall₂.cons (Finset.Subset.refl _) ?_)

theorem sA2_keep (r : Ref sig .tc) (hr : r ∉ wA2) (W : Valuation τ sig (Elt Ideal)) :
    after (sA2 (F := Ideal)) W (Proc.devRef .tc r) = W (Proc.devRef .tc r) := AfterStep.keep sA2_writes r hr W

/-- The second choice's three operations. -/
def sW1 {F : FTy → Type} [FloatOps F] : List (HloOp τ sig (Elt F)) :=
  [ TRef.unary (.of main_cst_6 : TRef sig ⟨S_, .f32⟩) main_call1.v0 id,
    TRef.unary main_call1.v0 main_call1.v1 (broadcastInDim S100000 ![] bcast_S_S100000),
    TRef.ternary (.of main_v13 : TRef sig ⟨S100000, .i1⟩) (.of main_v6 : TRef sig ⟨S100000, .f32⟩) main_call1.v1 main_call1.v2 select ]

def wW1 : List (Ref sig .tc) :=
  [main_call1.v0.ref, main_call1.v1.ref, main_call1.v2.ref]

theorem sW1_writes {F : FTy → Type} [FloatOps F] : AfterStep.Writes (sW1 (F := F)) wW1 := by
  unfold sW1 wW1 AfterStep.Writes
  repeat (first | exact List.Forall₂.nil | refine List.Forall₂.cons (Finset.Subset.refl _) ?_)

theorem sW1_keep (r : Ref sig .tc) (hr : r ∉ wW1) (W : Valuation τ sig (Elt Ideal)) :
    after (sW1 (F := Ideal)) W (Proc.devRef .tc r) = W (Proc.devRef .tc r) := AfterStep.keep sW1_writes r hr W

/-- The second power. -/
def sA3 {F : FTy → Type} [FloatOps F] : List (HloOp τ sig (Elt F)) :=
  [ nullary main_cst_7 (constant S_ .f32 0xBF000000#32),
    unary main_cst_7 main_v15 (broadcastInDim S100000 ![] bcast_S_S100000 : (⟨S_, .f32⟩ : BufTy).Contents (Elt F) → (⟨S100000, .f32⟩ : BufTy).Contents (Elt F)),
    binary main_v14 main_v15 main_v16 (Host.powf : (⟨S100000, .f32⟩ : BufTy).Contents (Elt F) → (⟨S100000, .f32⟩ : BufTy).Contents (Elt F) → (⟨S100000, .f32⟩ : BufTy).Contents (Elt F)) ]

def wA3 : List (Ref sig .tc) :=
  [main_cst_7, main_v15, main_v16]

theorem sA3_writes {F : FTy → Type} [FloatOps F] : AfterStep.Writes (sA3 (F := F)) wA3 := by
  unfold sA3 wA3 AfterStep.Writes
  repeat (first | exact List.Forall₂.nil | refine List.Forall₂.cons (Finset.Subset.refl _) ?_)

theorem sA3_keep (r : Ref sig .tc) (hr : r ∉ wA3) (W : Valuation τ sig (Elt Ideal)) :
    after (sA3 (F := Ideal)) W (Proc.devRef .tc r) = W (Proc.devRef .tc r) := AfterStep.keep sA3_writes r hr W

/-- The degree stretch is its five parts in order. -/
theorem sA_split : sA (F := Ideal) = sA1 ++ (sW0 ++ (sA2 ++ (sW1 ++ sA3))) := by
  simp only [sA, sA1, sW0, sA2, sW1, sA3, List.cons_append, List.nil_append]

theorem sA1_v3 (X : Valuation τ sig (Elt Ideal)) :
    after (sA1 (F := Ideal)) X (Proc.devRef .tc main_v3) = Terms.degree (X (Proc.devRef .tc main_arg1)) := by
  unfold sA1; after_results_simp <;> rfl

theorem sA1_v6 (X : Valuation τ sig (Elt Ideal)) :
    after (sA1 (F := Ideal)) X (Proc.devRef .tc main_v6) = Terms.degree (X (Proc.devRef .tc main_arg2)) := by
  unfold sA1; after_results_simp <;> rfl

theorem sA1_v8 (X : Valuation τ sig (Elt Ideal)) :
    after (sA1 (F := Ideal)) X (Proc.devRef .tc main_v8) = cmpf .ogt (Terms.degree (X (Proc.devRef .tc main_arg1))) (broadcastInDim S100000 ![] bcast_S_S100000 (constant (F := Ideal) S_ .f32 0x00000000#32)) := by
  unfold sA1; after_results_simp <;> rfl

theorem sA1_cst3 (X : Valuation τ sig (Elt Ideal)) :
    after (sA1 (F := Ideal)) X (Proc.devRef .tc main_cst_3) = (constant (F := Ideal) S_ .f32 0x3F800000#32) := by
  unfold sA1; after_results_simp <;> rfl

theorem sW0_v9 (X : Valuation τ sig (Elt Ideal)) :
    after (sW0 (F := Ideal)) X (Proc.devRef .tc main_v9)
      = select (X (Proc.devRef .tc main_v8)) (X (Proc.devRef .tc main_v3)) (broadcastInDim S100000 ![] bcast_S_S100000 (id (X (Proc.devRef .tc main_cst_3)))) := by
  unfold sW0; after_results_simp <;> rfl

theorem sA2_v11 (X : Valuation τ sig (Elt Ideal)) :
    after (sA2 (F := Ideal)) X (Proc.devRef .tc main_v11) = Host.powf (X (Proc.devRef .tc main_v9)) (broadcastInDim S100000 ![] bcast_S_S100000 (constant (F := Ideal) S_ .f32 0xBF000000#32)) := by
  unfold sA2; after_results_simp <;> rfl

theorem sA2_v13 (X : Valuation τ sig (Elt Ideal)) :
    after (sA2 (F := Ideal)) X (Proc.devRef .tc main_v13) = cmpf .ogt (X (Proc.devRef .tc main_v6)) (broadcastInDim S100000 ![] bcast_S_S100000 (constant (F := Ideal) S_ .f32 0x00000000#32)) := by
  unfold sA2; after_results_simp <;> rfl

theorem sA2_cst6 (X : Valuation τ sig (Elt Ideal)) :
    after (sA2 (F := Ideal)) X (Proc.devRef .tc main_cst_6) = (constant (F := Ideal) S_ .f32 0x3F800000#32) := by
  unfold sA2; after_results_simp <;> rfl

theorem sW1_v14 (X : Valuation τ sig (Elt Ideal)) :
    after (sW1 (F := Ideal)) X (Proc.devRef .tc main_v14)
      = select (X (Proc.devRef .tc main_v13)) (X (Proc.devRef .tc main_v6)) (broadcastInDim S100000 ![] bcast_S_S100000 (id (X (Proc.devRef .tc main_cst_6)))) := by
  unfold sW1; after_results_simp <;> rfl

theorem sA3_v16 (X : Valuation τ sig (Elt Ideal)) :
    after (sA3 (F := Ideal)) X (Proc.devRef .tc main_v16) = Host.powf (X (Proc.devRef .tc main_v14)) (broadcastInDim S100000 ![] bcast_S_S100000 (constant (F := Ideal) S_ .f32 0xBF000000#32)) := by
  unfold sA3; after_results_simp <;> rfl

/-- The source-side degree factor. -/
theorem sA_v11 (W : Valuation τ sig (Elt Ideal)) :
    after (sA (F := Ideal)) W (Proc.devRef .tc main_v11) = Terms.degScale (W (Proc.devRef .tc main_arg1)) := by
  rw [sA_split]
  simp only [AfterStep.after_append]
  rw [sA3_keep main_v11 (by decide), sW1_keep main_v11 (by decide), sA2_v11, sW0_v9, sA1_v8, sA1_v3, sA1_cst3]
  simp only [Terms.degScale] <;> rfl

/-- The target-side degree factor. -/
theorem sA_v16 (W : Valuation τ sig (Elt Ideal)) :
    after (sA (F := Ideal)) W (Proc.devRef .tc main_v16) = Terms.degScale (W (Proc.devRef .tc main_arg2)) := by
  rw [sA_split]
  simp only [AfterStep.after_append]
  rw [sA3_v16, sW1_v14, sA2_v13, sA2_cst6, sA2_keep main_v6 (by decide), sW0_keep main_v6 (by decide), sA1_v6]
  simp only [Terms.degScale] <;> rfl

/-! ## The other stretches -/

theorem sB_v35 (W : Valuation τ sig (Elt Ideal)) :
    after (sB (F := Ideal)) W (Proc.devRef .tc main_v35)
      = Terms.linear (Terms.spmm (W (Proc.devRef .tc main_arg0)) (W (Proc.devRef .tc main_arg1)) (W (Proc.devRef .tc main_arg2)) (W (Proc.devRef .tc main_v11)) (W (Proc.devRef .tc main_v16)))
          (W (Proc.devRef .tc main_arg0)) (W (Proc.devRef .tc main_arg3)) (W (Proc.devRef .tc main_arg4)) := by
  unfold sB; after_results_simp; rfl

set_option maxHeartbeats 1000000 in
theorem sC_v55 (W : Valuation τ sig (Elt Ideal)) :
    after (sC2 (F := Ideal)) (after (sC1 (F := Ideal)) W) (Proc.devRef .tc main_v55)
      = Terms.batchNormRelu (W (Proc.devRef .tc main_v35)) (W (Proc.devRef .tc main_arg10)) (W (Proc.devRef .tc main_arg11)) := by
  rw [← AfterStep.after_append]
  simp only [sC1, sC2, List.cons_append, List.nil_append]
  after_results_simp; rfl

theorem sE_v74 (W : Valuation τ sig (Elt Ideal)) :
    after (sE (F := Ideal)) W (Proc.devRef .tc main_v74)
      = Terms.linear (Terms.spmm (W (Proc.devRef .tc main_v55)) (W (Proc.devRef .tc main_arg1)) (W (Proc.devRef .tc main_arg2)) (W (Proc.devRef .tc main_v11)) (W (Proc.devRef .tc main_v16)))
          (W (Proc.devRef .tc main_v55)) (W (Proc.devRef .tc main_arg5)) (W (Proc.devRef .tc main_arg6)) := by
  unfold sE; after_results_simp; rfl

set_option maxHeartbeats 1000000 in
theorem sF_v94 (W : Valuation τ sig (Elt Ideal)) :
    after (sF (F := Ideal)) W (Proc.devRef .tc main_v94)
      = Terms.batchNormRelu (W (Proc.devRef .tc main_v74)) (W (Proc.devRef .tc main_arg12)) (W (Proc.devRef .tc main_arg13)) := by
  unfold sF; after_results_simp; rfl

theorem sG_v116 (W : Valuation τ sig (Elt Ideal)) :
    after (sG2 (F := Ideal)) (after (sG1 (F := Ideal)) W) (Proc.devRef .tc main_v116)
      = Terms.lastLayer (Terms.spmm (W (Proc.devRef .tc main_v94)) (W (Proc.devRef .tc main_arg1)) (W (Proc.devRef .tc main_arg2)) (W (Proc.devRef .tc main_v11)) (W (Proc.devRef .tc main_v16)))
          (W (Proc.devRef .tc main_v94)) (W (Proc.devRef .tc main_arg7)) (W (Proc.devRef .tc main_arg8)) (W (Proc.devRef .tc main_arg9)) := by
  rw [← AfterStep.after_append]
  simp only [sG1, sG2, List.cons_append, List.nil_append]
  after_results_simp; rfl

/-! ## The line -/

/-- The result buffer after the whole line: the last stretch's piece, its inputs read back stretch by stretch — a piece
    where an earlier stretch computed one, the launch contents where none wrote. -/
theorem out_eq (V : Valuation τ sig (Elt Ideal)) :
    after (ops (F := Ideal)) V (Proc.devRef .tc main_v116) = Terms.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops, ops0, ops1, ops2, AfterStep.after_append]
  rw [sG_v116]
  rw [sF_v94, sF_keep main_v11 (by decide), sF_keep main_v16 (by decide), sF_keep main_arg1 (by decide), sF_keep main_arg2 (by decide), sF_keep main_arg7 (by decide), sF_keep main_arg8 (by decide), sF_keep main_arg9 (by decide)]
  rw [sE_v74, sE_keep main_v11 (by decide), sE_keep main_v16 (by decide), sE_keep main_arg1 (by decide), sE_keep main_arg2 (by decide), sE_keep main_arg7 (by decide), sE_keep main_arg8 (by decide), sE_keep main_arg9 (by decide), sE_keep main_arg12 (by decide), sE_keep main_arg13 (by decide)]
  rw [sC_v55, sC2_keep main_v11 (by decide), sC2_keep main_v16 (by decide), sC2_keep main_arg1 (by decide), sC2_keep main_arg2 (by decide), sC2_keep main_arg5 (by decide), sC2_keep main_arg6 (by decide), sC2_keep main_arg7 (by decide), sC2_keep main_arg8 (by decide), sC2_keep main_arg9 (by decide), sC2_keep main_arg12 (by decide), sC2_keep main_arg13 (by decide)]
  rw [sC1_keep main_v11 (by decide), sC1_keep main_v16 (by decide), sC1_keep main_arg1 (by decide), sC1_keep main_arg2 (by decide), sC1_keep main_arg5 (by decide), sC1_keep main_arg6 (by decide), sC1_keep main_arg7 (by decide), sC1_keep main_arg8 (by decide), sC1_keep main_arg9 (by decide), sC1_keep main_arg12 (by decide), sC1_keep main_arg13 (by decide)]
  rw [sB_v35, sB_keep main_v11 (by decide), sB_keep main_v16 (by decide), sB_keep main_arg1 (by decide), sB_keep main_arg2 (by decide), sB_keep main_arg5 (by decide), sB_keep main_arg6 (by decide), sB_keep main_arg7 (by decide), sB_keep main_arg8 (by decide), sB_keep main_arg9 (by decide), sB_keep main_arg10 (by decide), sB_keep main_arg11 (by decide), sB_keep main_arg12 (by decide), sB_keep main_arg13 (by decide)]
  rw [sA_v11, sA_v16, sA_keep main_arg0 (by decide), sA_keep main_arg1 (by decide), sA_keep main_arg2 (by decide), sA_keep main_arg3 (by decide), sA_keep main_arg4 (by decide), sA_keep main_arg5 (by decide), sA_keep main_arg6 (by decide), sA_keep main_arg7 (by decide), sA_keep main_arg8 (by decide), sA_keep main_arg9 (by decide), sA_keep main_arg10 (by decide), sA_keep main_arg11 (by decide), sA_keep main_arg12 (by decide), sA_keep main_arg13 (by decide)]
  simp only [Terms.result, Terms.hidden] <;> rfl

/-- THE REFERENCE'S RUN: from any memory with zero counters every weakly fair execution of @main terminates with the
    result buffer at `Terms.result` of the arguments' launch contents and every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v116)
          = Terms.result (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v116).trans (out_eq (launchContents m c)),
      (h c main_arg0).trans (ops_keep main_arg0 (by decide) (by decide) (by decide) (by decide) (by decide) (by decide) (by decide) (by decide) (launchContents m c)),
      (h c main_arg1).trans (ops_keep main_arg1 (by decide) (by decide) (by decide) (by decide) (by decide) (by decide) (by decide) (by decide) (launchContents m c)),
      (h c main_arg2).trans (ops_keep main_arg2 (by decide) (by decide) (by decide) (by decide) (by decide) (by decide) (by decide) (by decide) (launchContents m c)),
      (h c main_arg3).trans (ops_keep main_arg3 (by decide) (by decide) (by decide) (by decide) (by decide) (by decide) (by decide) (by decide) (launchContents m c)),
      (h c main_arg4).trans (ops_keep main_arg4 (by decide) (by decide) (by decide) (by decide) (by decide) (by decide) (by decide) (by decide) (launchContents m c)),
      (h c main_arg5).trans (ops_keep main_arg5 (by decide) (by decide) (by decide) (by decide) (by decide) (by decide) (by decide) (by decide) (launchContents m c)),
      (h c main_arg6).trans (ops_keep main_arg6 (by decide) (by decide) (by decide) (by decide) (by decide) (by decide) (by decide) (by decide) (launchContents m c)),
      (h c main_arg7).trans (ops_keep main_arg7 (by decide) (by decide) (by decide) (by decide) (by decide) (by decide) (by decide) (by decide) (launchContents m c)),
      (h c main_arg8).trans (ops_keep main_arg8 (by decide) (by decide) (by decide) (by decide) (by decide) (by decide) (by decide) (by decide) (launchContents m c)),
      (h c main_arg9).trans (ops_keep main_arg9 (by decide) (by decide) (by decide) (by decide) (by decide) (by decide) (by decide) (by decide) (launchContents m c)),
      (h c main_arg10).trans (ops_keep main_arg10 (by decide) (by decide) (by decide) (by decide) (by decide) (by decide) (by decide) (by decide) (launchContents m c)),
      (h c main_arg11).trans (ops_keep main_arg11 (by decide) (by decide) (by decide) (by decide) (by decide) (by decide) (by decide) (by decide) (launchContents m c)),
      (h c main_arg12).trans (ops_keep main_arg12 (by decide) (by decide) (by decide) (by decide) (by decide) (by decide) (by decide) (by decide) (launchContents m c)),
      (h c main_arg13).trans (ops_keep main_arg13 (by decide) (by decide) (by decide) (by decide) (by decide) (by decide) (by decide) (by decide) (launchContents m c))⟩)
    (run_all m ρ)

end Cert.ReferenceIdeal.HandRun

end
-- ==== Proof.lean ====
/-
  Two programs compute a three-layer graph network over 100000 nodes and 1600000 edges: the kernel program runs the linear
  layers, the column statistics, the normalisation and the last layer as five tiled kernels among host operations; the
  reference is host operations only.

  The two agree on the extended reals because:
  * a change of float format is the identity there, and a matrix product, a column sum accumulated block by block, and a
    sum in another order or grouping are the same sums;
  * the degree factors and the normalised neighbour sums are the same host operations in both programs;
  * the one real difference is the variance of a column: the kernel program forms (sum of squares)/N − mean², the reference
    the mean of the squared deviations. These agree when the column's entries are real numbers. The precondition makes
    every float argument real; the neighbour sums read rows at clamped indices and add finitely many of them, the degree
    factors are positive reals, products and finite sums of reals are real, and the reciprocal square root of a variance
    plus a positive number is real — so every column that is normalised is real, in both hidden layers;
  * the last layer adds its bias between the two products in the reference and after them in the kernel: addition on the
    extended reals is commutative and associative.

  The frames of the two kernel programs are the generated ones; the reference's frame is its run with the result dropped.
  The idealization rewrote no operation, so the second claim is trivial.
-/
import proofs.«163791_j23218593202704_1_alg».proof.Defs
import proofs.«163791_j23218593202704_1_alg».proof.Proof.Gen.Kernel
import proofs.«163791_j23218593202704_1_alg».proof.Proof.Gen.Kernel.Skeleton
import proofs.«163791_j23218593202704_1_alg».proof.Proof.Gen.Kernel.Launch
import proofs.«163791_j23218593202704_1_alg».proof.Proof.Gen.Kernel.Points
import proofs.«163791_j23218593202704_1_alg».proof.Proof.Gen.Kernel.Frame
import proofs.«163791_j23218593202704_1_alg».proof.Proof.Gen.KernelIdeal
import proofs.«163791_j23218593202704_1_alg».proof.Proof.Gen.KernelIdeal.Skeleton
import proofs.«163791_j23218593202704_1_alg».proof.Proof.Gen.KernelIdeal.Launch
import proofs.«163791_j23218593202704_1_alg».proof.Proof.Gen.KernelIdeal.Points
import proofs.«163791_j23218593202704_1_alg».proof.Proof.Gen.KernelIdeal.Frame
import proofs.«163791_j23218593202704_1_alg».proof.Proof.Gen.ReferenceIdeal
import proofs.«163791_j23218593202704_1_alg».proof.Proof.Gen.Pre_finite_inputs
import proofs.«163791_j23218593202704_1_alg».proof.Proof.KerRun
import proofs.«163791_j23218593202704_1_alg».proof.Proof.KerValue
import proofs.«163791_j23218593202704_1_alg».proof.Proof.Bridge
import proofs.«163791_j23218593202704_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- Both programs end with the same result array: the kernel program's run ends at its fold's last boundary, read back to
    one function of the arguments; under the precondition that function is the reference's; the reference's run ends at it,
    from arguments that agree. -/
theorem algebraic : Cert.algebraic_KernelIdeal_ReferenceIdeal := by
  intro m ρ m' ρ' hpre hagree
  refine ⟨fun c => Cert.KernelIdeal.ValueChain.out m c, ?_, ?_⟩
  · exact (θ_run Cert.KernelIdeal.defs _ _).mono
      (fun _ h c => ⟨(h c).1.trans (Cert.KernelIdeal.ValueChain.W14_v86 m ρ c), (h c).2⟩)
      (Cert.KernelIdeal.ValueRun.run_result m ρ)
  · refine (θ_run Cert.ReferenceIdeal.defs _ _).mono (fun _ h c => ⟨(h c).1.trans ?_, (h c).2⟩)
      (Cert.ReferenceIdeal.HandRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.Bridge.out_eq_result m c hpre).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
